-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S4096x11008 : Shape := ⟨2, ![4096, 11008]⟩
abbrev S1 : Shape := ⟨1, ![1]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_arg5 : FVec F S1 .f32) (main_arg6 : FVec F S1 .f32) (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S2x2048x4096 .f32) (main_arg1 : FVec F S11008x4096 .f32) (main_arg2 : FVec F S11008x4096 .f32) (main_arg3 : FVec F S4096x11008 .f32) (main_arg4 : FVec F S1 .f32) (main_arg5 : FVec F S1 .f32) (main_arg6 : FVec F S1 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_arg4 main_arg5 main_arg6 main_v13 main_v16
-- ==== Kernel.lean ====
abbrev S2x2048x4096 : Shape := ⟨3, ![2, 2048, 4096]⟩
abbrev S11008x4096 : Shape := ⟨2, ![11008, 4096]⟩
abbrev S4096x11008 : Shape := ⟨2, ![4096, 11008]⟩
abbrev S1 : Shape := ⟨1, ![1]⟩
abbrev S_ : Shape := ⟨0, ![]⟩
abbrev S4096x4096 : Shape := ⟨2, ![4096, 4096]⟩
abbrev S512x4096 : Shape := ⟨2, ![512, 4096]⟩
abbrev S256x4096 : Shape := ⟨2, ![256, 4096]⟩
abbrev S512x11008 : Shape := ⟨2, ![512, 11008]⟩
abbrev S512 : Shape := ⟨1, ![512]⟩
abbrev S512x1 : Shape := ⟨2, ![512, 1]⟩
abbrev S512x256 : Shape := ⟨2, ![512, 256]⟩
abbrev S512x512 : Shape := ⟨2, ![512, 512]⟩

abbrev nBuf : Space → Nat
  | .hbm => 84
  | .vmem => 16
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S_, .f32⟩
  | .hbm, ⟨8, _⟩ => ⟨S11008x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S11008x4096, .f32⟩
  | .hbm, ⟨16, _⟩ => ⟨S11008x4096, .f32⟩
  | .hbm, ⟨17, _⟩ => ⟨S11008x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S11008x4096, .f32⟩
  | .hbm, ⟨22, _⟩ => ⟨S11008x4096, .f32⟩
  | .hbm, ⟨23, _⟩ => ⟨S_, .f32⟩
  | .hbm, ⟨24, _⟩ => ⟨S11008x4096, .f32⟩
  | .hbm, ⟨25, _⟩ => ⟨S11008x4096, .f32⟩
  | .hbm, ⟨26, _⟩ => ⟨S11008x4096, .f32⟩
  | .hbm, ⟨27, _⟩ => ⟨S11008x4096, .f32⟩
  | .hbm, ⟨28, _⟩ => ⟨S11008x4096, .f32⟩
  | .hbm, ⟨29, _⟩ => ⟨S11008x4096, .f32⟩
  | .hbm, ⟨30, _⟩ => ⟨S11008x4096, .bf16⟩
  | .hbm, ⟨31, _⟩ => ⟨S_, .f32⟩
  | .hbm, ⟨32, _⟩ => ⟨S11008x4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S11008x4096, .f32⟩
  | .hbm, ⟨40, _⟩ => ⟨S11008x4096, .f32⟩
  | .hbm, ⟨41, _⟩ => ⟨S11008x4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S11008x4096, .f32⟩
  | .hbm, ⟨46, _⟩ => ⟨S11008x4096, .f32⟩
  | .hbm, ⟨47, _⟩ => ⟨S_, .f32⟩
  | .hbm, ⟨48, _⟩ => ⟨S11008x4096, .f32⟩
  | .hbm, ⟨49, _⟩ => ⟨S11008x4096, .f32⟩
  | .hbm, ⟨50, _⟩ => ⟨S11008x4096, .f32⟩
  | .hbm, ⟨51, _⟩ => ⟨S11008x4096, .f32⟩
  | .hbm, ⟨52, _⟩ => ⟨S11008x4096, .f32⟩
  | .hbm, ⟨53, _⟩ => ⟨S11008x4096, .f32⟩
  | .hbm, ⟨54, _⟩ => ⟨S11008x4096, .bf16⟩
  | .hbm, ⟨55, _⟩ => ⟨S_, .f32⟩
  | .hbm, ⟨56, _⟩ => ⟨S4096x11008, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S4096x11008, .f32⟩
  | .hbm, ⟨64, _⟩ => ⟨S4096x11008, .f32⟩
  | .hbm, ⟨65, _⟩ => ⟨S4096x11008, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S4096x11008, .f32⟩
  | .hbm, ⟨70, _⟩ => ⟨S4096x11008, .f32⟩
  | .hbm, ⟨71, _⟩ => ⟨S_, .f32⟩
  | .hbm, ⟨72, _⟩ => ⟨S4096x11008, .f32⟩
  | .hbm, ⟨73, _⟩ => ⟨S4096x11008, .f32⟩
  | .hbm, ⟨74, _⟩ => ⟨S4096x11008, .f32⟩
  | .hbm, ⟨75, _⟩ => ⟨S4096x11008, .f32⟩
  | .hbm, ⟨76, _⟩ => ⟨S4096x11008, .f32⟩
  | .hbm, ⟨77, _⟩ => ⟨S4096x11008, .f32⟩
  | .hbm, ⟨78, _⟩ => ⟨S4096x11008, .bf16⟩
  | .hbm, ⟨79, _⟩ => ⟨S4096x4096, .f32⟩
  | .hbm, ⟨80, _⟩ => ⟨S4096x4096, .bf16⟩
  | .hbm, ⟨81, _⟩ => ⟨S4096x11008, .bf16⟩
  | .hbm, ⟨82, _⟩ => ⟨S4096x4096, .f32⟩
  | .hbm, ⟨83, _⟩ => ⟨S2x2048x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S512x11008, .bf16⟩
  | .local _ .vmem, ⟨7, _⟩ => ⟨S512x11008, .bf16⟩
  | .local _ .vmem, ⟨8, _⟩ => ⟨S512x4096, .bf16⟩
  | .local _ .vmem, ⟨9, _⟩ => ⟨S512x11008, .bf16⟩
  | .local _ .vmem, ⟨10, _⟩ => ⟨S512x11008, .bf16⟩
  | .local _ .vmem, ⟨11, _⟩ => ⟨S512x11008, .bf16⟩
  | .local _ .vmem, ⟨12, _⟩ => ⟨S512x11008, .bf16⟩
  | .local _ .vmem, ⟨13, _⟩ => ⟨S512x11008, .bf16⟩
  | .local _ .vmem, ⟨14, _⟩ => ⟨S512x512, .f32⟩
  | .local _ .vmem, ⟨15, _⟩ => ⟨S512x512, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_cst_8 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_call3_v3 : Ref sig .tc := ⟨.hbm, 47, rfl⟩
abbrev main_call3_v4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_9 : Ref sig .tc := ⟨.hbm, 57, rfl⟩
abbrev main_v30 : Ref sig .tc := ⟨.hbm, 58, rfl⟩
abbrev main_cst_10 : Ref sig .tc := ⟨.hbm, 59, rfl⟩
abbrev main_v31 : Ref sig .tc := ⟨.hbm, 60, rfl⟩
abbrev main_cst_11 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_12 : Ref sig .tc := ⟨.hbm, 66, rfl⟩
abbrev main_cst_13 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 43], ![false, false]⟩

def k0_mult1 (i : grid0.Coords) : BitVec 32 :=
  let arg1 : BitVec 32 := BitVec.ofNat 32 (i 1).val
  let c256_i32 : BitVec 32 := 256#32
  let v14 : BitVec 32 := Scalar.muli arg1 c256_i32
  v14
def k0_off1 (i : grid0.Coords) : Fin 2 → Nat :=
  let c0_8 : Index := 0#32
  let arg1 : BitVec 32 := BitVec.ofNat 32 (i 1).val
  let c256_i32 : BitVec 32 := 256#32
  let v14 : BitVec 32 := Scalar.muli arg1 c256_i32
  let v15 : BitVec 32 := v14
  let v17 : Index := Scalar.indexCast v15
  ![0, v17.toNat]
def k0_cond2 (i : grid0.Coords) : BitVec 1 :=
  let arg1 : BitVec 32 := BitVec.ofNat 32 (i 1).val
  let c42_i32 : BitVec 32 := 42#32
  let v21 : BitVec 1 := Scalar.cmpi .eq arg1 c42_i32
  let v22 : BitVec 32 := Scalar.extui v21
  let c0_i32_9 : BitVec 32 := 0#32
  let v23 : BitVec 1 := Scalar.cmpi .ne v22 c0_i32_9
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x11008 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x11008 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x11008 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S1_S_ : S1.ShapeCasts S_
  reducesTo_S11008x4096_S_d0_1 : S11008x4096.ReducesTo [0, 1] S_
  h_S_ : 0 < S_.numel
  bcast_S_S11008x4096 : S_.BroadcastsInDim S11008x4096 (![] : Fin 0 → Fin S11008x4096.rank)
  bitsLt_bf16_f32 : FTy.bits .bf16 < FTy.bits .f32
  reducesTo_S4096x11008_S_d0_1 : S4096x11008.ReducesTo [0, 1] S_
  bcast_S_S4096x11008 : S_.BroadcastsInDim S4096x11008 (![] : Fin 0 → Fin S4096x11008.rank)
  shapeCasts_S2x2048x4096_S4096x4096 : S2x2048x4096.ShapeCasts S4096x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  broadcasts_S512x1_S512x4096 : S512x1.Broadcasts S512x4096
  packedbf16_S512x4096_S512x4096_0_0 : (Rect.unit (s := S512x4096) ![0, 0] S512x4096.size inb_S512x4096_S512x4096_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  h_S512x256 : 0 < S512x256.numel
  shapeCasts_S512x256_S512x256 : S512x256.ShapeCasts S512x256
  inb_S512x11008_S512x11008_0_0 : ∀ a, (![0, 0] : Fin 2 → Nat) a + S512x11008.size a ≤ S512x11008.size a
  h_S512x11008 : 0 < S512x11008.numel
  reduces_S512x11008_S512 : S512x11008.Reduces [1] S512
  broadcasts_S512x1_S512x11008 : S512x1.Broadcasts S512x11008
  packedbf16_S512x11008_S512x11008_0_0 : (Rect.unit (s := S512x11008) ![0, 0] S512x11008.size inb_S512x11008_S512x11008_0_0).PackedRows (EltTy.packing .bf16)
  shapeCasts_S512x11008_S512x11008 : S512x11008.ShapeCasts S512x11008
  inb_S512x512_S512x512_0_0 : ∀ a, (![0, 0] : Fin 2 → Nat) a + S512x512.size a ≤ S512x512.size a
  h_S512x512 : 0 < S512x512.numel
  shapeCasts_S4096x4096_S2x2048x4096 : S4096x4096.ShapeCasts S2x2048x4096
  dot_S512x4096_S256x4096_S512x256_1_1_0_0_n_n_wf : DotDims.WF S512x4096 S256x4096 S512x256 [1] [1] [0] [0] [] []
  dot_S512x11008_S512x11008_S512x512_1_1_0_0_n_n_wf : DotDims.WF S512x11008 S512x11008 S512x512 [1] [1] [0] [0] [] []
  hrank0 : 0 < grid0.rank
  k0_mult1_dvd : ∀ i : grid0.Coords, 256 ∣ (k0_mult1 i).toNat
  k0_off1_inb : ∀ i : grid0.Coords, ∀ a, (k0_off1 i) a + S512x256.size a ≤ S512x11008.size a
  k0_off1_packedbf16 : ∀ i : grid0.Coords, (Rect.unit (s := S512x11008) (k0_off1 i) S512x256.size (k0_off1_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x11008.size a ≤ S4096x11008.size a
  hwx0_3 : ∀ i : grid0.Coords, EltTy.bits .bf16 = 32 ∨ (Rect.block (s := S4096x11008) S512x11008.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x11008.size a ≤ S4096x11008.size a
  hwx1_0 : ∀ i : grid1.Coords, EltTy.bits .bf16 = 32 ∨ (Rect.block (s := S4096x11008) S512x11008.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x11008.size a ≤ S4096x11008.size a
  hwx1_1 : ∀ i : grid1.Coords, EltTy.bits .bf16 = 32 ∨ (Rect.block (s := S4096x11008) S512x11008.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x4096.size a
  hwx1_2 : ∀ i : grid1.Coords, EltTy.bits .f32 = 32 ∨ (Rect.block (s := S4096x4096) S512x512.size (cc1_transform_2 i) (hinb1_2 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x11008_S512x11008_S512x512_1_1_0_0_n_n : DotDims S512x11008 S512x11008 S512x512 where
  lhsContracting := [1]
  rhsContracting := [1]
  lhsNonContracting := [0]
  rhsNonContracting := [0]
  lhsBatch := []
  rhsBatch := []
  wf := dot_S512x11008_S512x11008_S512x512_1_1_0_0_n_n_wf

abbrev win0_0 : Pipeline.Window sig grid0 :=
  Pipeline.Window.ofSpec (Memref.whole main_v43) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S512x11008.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v44) S512x11008.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S512x11008.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S4096x11008 : Shape := ⟨2, ![4096, 11008]⟩
abbrev S1 : Shape := ⟨1, ![1]⟩
abbrev S_ : Shape := ⟨0, ![]⟩
abbrev S2x2048 : Shape := ⟨2, ![2, 2048]⟩
abbrev S2x2048x1 : Shape := ⟨3, ![2, 2048, 1]⟩
abbrev S1x1 : Shape := ⟨2, ![1, 1]⟩
abbrev S2x2048x11008 : Shape := ⟨3, ![2, 2048, 11008]⟩

abbrev nBuf : Space → Nat
  | .hbm => 142
  | .vmem => 0
  | .smem => 0
  | _ => 0

abbrev hbmTy0_0 (i : Nat) : BufTy := match i % 128 with
  | 0 => ⟨S2x2048x4096, .f32⟩
  | 1 => ⟨S11008x4096, .f32⟩
  | 2 => ⟨S11008x4096, .f32⟩
  | 3 => ⟨S4096x11008, .f32⟩
  | 4 => ⟨S1, .f32⟩
  | 5 => ⟨S1, .f32⟩
  | 6 => ⟨S1, .f32⟩
  | 7 => ⟨S2x2048x4096, .f32⟩
  | 8 => ⟨S_, .f32⟩
  | 9 => ⟨S2x2048, .f32⟩
  | 10 => ⟨S2x2048x1, .f32⟩
  | 11 => ⟨S_, .f32⟩
  | 12 => ⟨S2x2048x1, .f32⟩
  | 13 => ⟨S2x2048x1, .f32⟩
  | 14 => ⟨S_, .f32⟩
  | 15 => ⟨S2x2048x4096, .f32⟩
  | 16 => ⟨S2x2048x4096, .f32⟩
  | 17 => ⟨S_, .f32⟩
  | 18 => ⟨S2x2048x1, .f32⟩
  | 19 => ⟨S2x2048x1, .f32⟩
  | 20 => ⟨S2x2048x4096, .f32⟩
  | 21 => ⟨S2x2048x4096, .f32⟩
  | 22 => ⟨S2x2048x4096, .f32⟩
  | 23 => ⟨S_, .i32⟩
  | 24 => ⟨S_, .i32⟩
  | 25 => ⟨S_, .f32⟩
  | 26 => ⟨S2x2048x4096, .f32⟩
  | 27 => ⟨S2x2048x4096, .f32⟩
  | 28 => ⟨S_, .f32⟩
  | 29 => ⟨S2x2048x4096, .f32⟩
  | 30 => ⟨S2x2048x4096, .f32⟩
  | 31 => ⟨S_, .f32⟩
  | 32 => ⟨S2x2048x1, .f32⟩
  | 33 => ⟨S2x2048x1, .f32⟩
  | 34 => ⟨S2x2048x4096, .f32⟩
  | 35 => ⟨S2x2048x4096, .f32⟩
  | 36 => ⟨S_, .f32⟩
  | 37 => ⟨S2x2048x4096, .f32⟩
  | 38 => ⟨S2x2048x4096, .f32⟩
  | 39 => ⟨S11008x4096, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S11008x4096, .f32⟩
  | 47 => ⟨S11008x4096, .f32⟩
  | 48 => ⟨S11008x4096, .f32⟩
  | 49 => ⟨S_, .f32⟩
  | 50 => ⟨S_, .f32⟩
  | 51 => ⟨S_, .f32⟩
  | 52 => ⟨S11008x4096, .f32⟩
  | 53 => ⟨S11008x4096, .f32⟩
  | 54 => ⟨S_, .f32⟩
  | 55 => ⟨S11008x4096, .f32⟩
  | 56 => ⟨S11008x4096, .f32⟩
  | 57 => ⟨S11008x4096, .f32⟩
  | 58 => ⟨S11008x4096, .f32⟩
  | 59 => ⟨S1x1, .f32⟩
  | 60 => ⟨S11008x4096, .f32⟩
  | 61 => ⟨S11008x4096, .f32⟩
  | 62 => ⟨S2x2048x11008, .f32⟩
  | 63 => ⟨S11008x4096, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S11008x4096, .f32⟩
  | 71 => ⟨S11008x4096, .f32⟩
  | 72 => ⟨S11008x4096, .f32⟩
  | 73 => ⟨S_, .f32⟩
  | 74 => ⟨S_, .f32⟩
  | 75 => ⟨S_, .f32⟩
  | 76 => ⟨S11008x4096, .f32⟩
  | 77 => ⟨S11008x4096, .f32⟩
  | 78 => ⟨S_, .f32⟩
  | 79 => ⟨S11008x4096, .f32⟩
  | 80 => ⟨S11008x4096, .f32⟩
  | 81 => ⟨S11008x4096, .f32⟩
  | 82 => ⟨S11008x4096, .f32⟩
  | 83 => ⟨S1x1, .f32⟩
  | 84 => ⟨S11008x4096, .f32⟩
  | 85 => ⟨S11008x4096, .f32⟩
  | 86 => ⟨S2x2048x11008, .f32⟩
  | 87 => ⟨S_, .f32⟩
  | 88 => ⟨S2x2048x11008, .f32⟩
  | 89 => ⟨S2x2048x11008, .f32⟩
  | 90 => ⟨S2x2048x11008, .f32⟩
  | 91 => ⟨S2x2048x11008, .f32⟩
  | 92 => ⟨S2x2048x11008, .f32⟩
  | 93 => ⟨S_, .f32⟩
  | 94 => ⟨S2x2048, .f32⟩
  | 95 => ⟨S2x2048x1, .f32⟩
  | 96 => ⟨S_, .f32⟩
  | 97 => ⟨S2x2048x11008, .f32⟩
  | 98 => ⟨S2x2048x11008, .f32⟩
  | 99 => ⟨S_, .f32⟩
  | 100 => ⟨S2x2048x1, .f32⟩
  | 101 => ⟨S2x2048x1, .f32⟩
  | 102 => ⟨S2x2048x11008, .f32⟩
  | 103 => ⟨S2x2048x11008, .f32⟩
  | 104 => ⟨S2x2048x11008, .f32⟩
  | 105 => ⟨S_, .i32⟩
  | 106 => ⟨S_, .i32⟩
  | 107 => ⟨S_, .f32⟩
  | 108 => ⟨S2x2048x11008, .f32⟩
  | 109 => ⟨S2x2048x11008, .f32⟩
  | 110 => ⟨S_, .f32⟩
  | 111 => ⟨S2x2048x11008, .f32⟩
  | 112 => ⟨S2x2048x11008, .f32⟩
  | 113 => ⟨S2x2048x11008, .f32⟩
  | 114 => ⟨S2x2048x11008, .f32⟩
  | 115 => ⟨S_, .f32⟩
  | 116 => ⟨S2x2048x11008, .f32⟩
  | 117 => ⟨S2x2048x11008, .f32⟩
  | 118 => ⟨S4096x11008, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S4096x11008, .f32⟩
  | 126 => ⟨S4096x11008, .f32⟩
  | 127 => ⟨S4096x11008, .f32⟩
  | _ => ⟨S2x2048x4096, .f32⟩

abbrev hbmTy0_1 (i : Nat) : BufTy := match i % 128 with
  | 0 => ⟨S_, .f32⟩
  | 1 => ⟨S_, .f32⟩
  | 2 => ⟨S_, .f32⟩
  | 3 => ⟨S4096x11008, .f32⟩
  | 4 => ⟨S4096x11008, .f32⟩
  | 5 => ⟨S_, .f32⟩
  | 6 => ⟨S4096x11008, .f32⟩
  | 7 => ⟨S4096x11008, .f32⟩
  | 8 => ⟨S4096x11008, .f32⟩
  | 9 => ⟨S4096x11008, .f32⟩
  | 10 => ⟨S1x1, .f32⟩
  | 11 => ⟨S4096x11008, .f32⟩
  | 12 => ⟨S4096x11008, .f32⟩
  | 13 => ⟨S2x2048x4096, .f32⟩
  | _ => ⟨S2x2048x4096, .f32⟩

abbrev hbmTy (i : Nat) : BufTy := match i / 128 with
  | 0 => hbmTy0_0 i
  | 1 => hbmTy0_1 i
  | _ => ⟨S2x2048x4096, .f32⟩

abbrev bufTy : (tb : Table) → Fin (tcTables nBuf tb) → BufTy
  | .hbm, ⟨i, _⟩ => hbmTy i
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v12 : Ref sig .tc := ⟨.hbm, 30, rfl⟩
abbrev main_cst_4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_6 : Ref sig .tc := ⟨.hbm, 40, rfl⟩
abbrev main_v20 : Ref sig .tc := ⟨.hbm, 41, rfl⟩
abbrev main_cst_7 : Ref sig .tc := ⟨.hbm, 42, rfl⟩
abbrev main_v21 : Ref sig .tc := ⟨.hbm, 43, rfl⟩
abbrev main_cst_8 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_9 : Ref sig .tc := ⟨.hbm, 49, rfl⟩
abbrev main_cst_10 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_11 : Ref sig .tc := ⟨.hbm, 64, rfl⟩
abbrev main_v34 : Ref sig .tc := ⟨.hbm, 65, rfl⟩
abbrev main_cst_12 : Ref sig .tc := ⟨.hbm, 66, rfl⟩
abbrev main_v35 : Ref sig .tc := ⟨.hbm, 67, rfl⟩
abbrev main_cst_13 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_14 : Ref sig .tc := ⟨.hbm, 73, rfl⟩
abbrev main_cst_15 : Ref sig .tc := ⟨.hbm, 74, rfl⟩
abbrev main_call5_v0 : Ref sig .tc := ⟨.hbm, 75, rfl⟩
abbrev main_call5_v1 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_call6_cst : Ref sig .tc := ⟨.hbm, 87, rfl⟩
abbrev main_call6_v0 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_16 : Ref sig .tc := ⟨.hbm, 93, rfl⟩
abbrev main_v51 : Ref sig .tc := ⟨.hbm, 94, rfl⟩
abbrev main_v52 : Ref sig .tc := ⟨.hbm, 95, rfl⟩
abbrev main_cst_17 : Ref sig .tc := ⟨.hbm, 96, rfl⟩
abbrev main_v53 : Ref sig .tc := ⟨.hbm, 97, rfl⟩
abbrev main_v54 : Ref sig .tc := ⟨.hbm, 98, rfl⟩
abbrev main_cst_18 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_c_19 : Ref sig .tc := ⟨.hbm, 105, rfl⟩
abbrev main_c_20 : Ref sig .tc := ⟨.hbm, 106, rfl⟩
abbrev main_call8_v0 : Ref sig .tc := ⟨.hbm, 107, rfl⟩
abbrev main_call8_v1 : Ref sig .tc := ⟨.hbm, 108, rfl⟩
abbrev main_call8_v2 : Ref sig .tc := ⟨.hbm, 109, rfl⟩
abbrev main_call8_v3 : Ref sig .tc := ⟨.hbm, 110, rfl⟩
abbrev main_call8_v4 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_cst_21 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_cst_22 : Ref sig .tc := ⟨.hbm, 119, rfl⟩
abbrev main_v66 : Ref sig .tc := ⟨.hbm, 120, rfl⟩
abbrev main_cst_23 : Ref sig .tc := ⟨.hbm, 121, rfl⟩
abbrev main_v67 : Ref sig .tc := ⟨.hbm, 122, rfl⟩
abbrev main_cst_24 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_cst_25 : Ref sig .tc := ⟨.hbm, 128, rfl⟩
abbrev main_cst_26 : Ref sig .tc := ⟨.hbm, 129, rfl⟩
abbrev main_call10_v0 : Ref sig .tc := ⟨.hbm, 130, rfl⟩
abbrev main_call10_v1 : Ref sig .tc := ⟨.hbm, 131, rfl⟩
abbrev main_call10_v2 : Ref sig .tc := ⟨.hbm, 132, rfl⟩
abbrev main_call10_v3 : Ref sig .tc := ⟨.hbm, 133, rfl⟩
abbrev main_call10_v4 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩

abbrev nD : Nat := 1
abbrev τ : Topo := Topo.v7x

variable {F : FTy → Type} [FloatOps F]

class Facts₀ : Prop where
  reducesTo_S2x2048x4096_S2x2048_d2 : S2x2048x4096.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S_S2x2048x4096 : S_.BroadcastsInDim S2x2048x4096 (![] : Fin 0 → Fin S2x2048x4096.rank)
  bcast_S2x2048x1_S2x2048x4096_0_1_2 : S2x2048x1.BroadcastsInDim S2x2048x4096 (![0, 1, 2] : Fin 3 → Fin S2x2048x4096.rank)
  reducesTo_S11008x4096_S_d0_1 : S11008x4096.ReducesTo [0, 1] S_
  bcast_S_S11008x4096 : S_.BroadcastsInDim S11008x4096 (![] : Fin 0 → Fin S11008x4096.rank)
  bcast_S1_S1x1_1 : S1.BroadcastsInDim S1x1 (![1] : Fin 1 → Fin S1x1.rank)
  bcast_S1x1_S11008x4096_0_1 : S1x1.BroadcastsInDim S11008x4096 (![0, 1] : Fin 2 → Fin S11008x4096.rank)
  bcast_S_S2x2048x11008 : S_.BroadcastsInDim S2x2048x11008 (![] : Fin 0 → Fin S2x2048x11008.rank)
  reducesTo_S2x2048x11008_S2x2048_d2 : S2x2048x11008.ReducesTo [2] S2x2048
  bcast_S2x2048x1_S2x2048x11008_0_1_2 : S2x2048x1.BroadcastsInDim S2x2048x11008 (![0, 1, 2] : Fin 3 → Fin S2x2048x11008.rank)
  reducesTo_S4096x11008_S_d0_1 : S4096x11008.ReducesTo [0, 1] S_
  bcast_S_S4096x11008 : S_.BroadcastsInDim S4096x11008 (![] : Fin 0 → Fin S4096x11008.rank)
  bcast_S1x1_S4096x11008_0_1 : S1x1.BroadcastsInDim S4096x11008 (![0, 1] : Fin 2 → Fin S4096x11008.rank)
  dot_S2x2048x4096_S11008x4096_S2x2048x11008_2_1_01_0_n_n_wf : DotDims.WF S2x2048x4096 S11008x4096 S2x2048x11008 [2] [1] [0, 1] [0] [] []
  dot_S2x2048x11008_S4096x11008_S2x2048x4096_2_1_01_0_n_n_wf : DotDims.WF S2x2048x11008 S4096x11008 S2x2048x4096 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.R0Defs.lean ====
import proofs.«146200_j26611617366616_1_alg».proof.Proof.Gen.KernelIdeal.Launch
import proofs.«146200_j26611617366616_1_alg».proof.Proof.Gen.KernelIdeal.Skeleton
import proofs.«146200_j26611617366616_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the blocks a grid point reads, and what the two scratch buffers and the output block hold

A grid point `t` (344 of them, 43 per row block) has row start `t - t % 43`. The first scratch holds the
quantized 512 rows of `x` of the point's row block; column slice `j` of the second holds the gated product of
those rows with the `j`-th 256 rows of the two weight matrices; the output block, written at the last point of
a row block, is the row-wise quantization of the second scratch. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid point numbered `n` (the first point when `n` is out of range). -/
def ptOf (n : ℕ) : Fin cfg0.N := if h : n < cfg0.N then ⟨n, h⟩ else ⟨0, by rw [show cfg0.N = 344 from N_0]; decide⟩

theorem ptOf_val (t : Fin cfg0.N) : ptOf t.val = t := by unfold ptOf; rw [dif_pos t.isLt]

/-- The number of the first point of `n`'s row block. -/
def rs (n : ℕ) : ℕ := n - n % 43

/-- The quantized rows of `x` of the row block starting at point `r`. -/
def xqAt (c : Dev nD) (r : ℕ) : Vec F S512x4096 .bf16 := k0_pay1 (iblk0 V c 0 (ptOf r))

/-- Column slice `j` of the gated product of the row block starting at point `r`. -/
def prodAt (c : Dev nD) (r j : ℕ) : Vec F S512x256 .bf16 :=
  k0_pay2 (xqAt V c r) (iblk0 V c 1 (ptOf (r + j))) (iblk0 V c 2 (ptOf (r + j)))

/-- An index of the second scratch inside its column slice. -/
def sliceCoord (y : S512x11008.Idx) : S512x256.Idx := fun a => match a with
  | ⟨0, _⟩ => ⟨(y 0).val, (y 0).isLt⟩
  | ⟨1, _⟩ => ⟨(y 1).val % 256, Nat.mod_lt _ (by decide)⟩

/-- The whole gated product of the row block starting at point `r`: slice `(y 1) / 256` read at the index inside it. -/
def accAt (c : Dev nD) (r : ℕ) : Vec F S512x11008 .bf16 := fun y => prodAt V c r ((y 1).val / 256) (sliceCoord y)

/-- The output block of the row block starting at point `r`. -/
def out3At (c : Dev nD) (r : ℕ) : Vec F S512x11008 .bf16 := k0_pay3 (accAt V c r)

/-- The scratch operands as memrefs. -/
abbrev scM0 : Memref sig .tc .vmem S512x4096 .bf16 := Memref.whole cc0_scratch0
abbrev scM1 : Memref sig .tc .vmem S512x11008 .bf16 := Memref.whole cc0_scratch1

/-- The second scratch is filled up to the slice of point `n`. -/
def Filled (c : Dev nD) (n : ℕ) (f1 : Vec F S512x11008 .bf16) : Prop :=
  ∀ y : S512x11008.Idx, (y 1).val / 256 ≤ n % 43 → f1 y = accAt V c (rs n) y

/-- The other pallas_call's staging buffers, each whole at some contents. -/
def Rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region invariant before point `n`: at the start every scoped buffer at anything; afterwards the first scratch
    at the row block's quantized rows, the second filled up to the slice of the point before. -/
def PhiS (c : Dev nD) : (n : ℕ) → n ≤ cfg0.N → sProp 𝕄
  | 0, _ => Pipeline.ΦA spec0 c
  | n + 1, _ => iprop(owns (c : Thread nD τ) scM0 fullShare (xqAt V c (rs n))
      ∗ (∃ f1, iprop(owns (c : Thread nD τ) scM1 fullShare f1 ∗ ⌜Filled V c n f1⌝))
      ∗ Rest6 c ∗ (∃ r, prngReg c r))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out3At V c (rs t.val)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out3At V c (rs t.val) := by dsimp only [dat0]

end Cert.KernelIdeal.Hand

end
-- ==== Proof.R0Conds.lean ====
import proofs.«146200_j26611617366616_1_alg».proof.Proof.Gen.KernelIdeal.Launch
import proofs.«146200_j26611617366616_1_alg».proof.Proof.Gen.KernelIdeal.Skeleton
import proofs.«146200_j26611617366616_1_alg».proof.Proof.Gen.KernelIdeal.Points
import proofs.«146200_j26611617366616_1_alg».proof.Proof.R0Defs
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body's two conditions over the grid, where the output window is idle, and the slice offsets -/

/-- The first conditional of the body (the point is the first of its row block). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 43 = 0 :=
  (by decide +kernel : ∀ t : Fin grid0.N, cond0_0 (grid0.coords t) ↔ t.val % 43 = 0)

/-- The second conditional of the body (the point is the last of its row block). -/
abbrev cond0_1 (i : grid0.Coords) : Prop := k0_cond2 i = 1#1
theorem hcond0_1 : ∀ t : Fin cfg0.N, cond0_1 (grid0.coords t) ↔ t.val % 43 = 42 :=
  (by decide +kernel : ∀ t : Fin grid0.N, cond0_1 (grid0.coords t) ↔ t.val % 43 = 42)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point of a row block the output window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- The column slice a point stores into starts at column 256 times its position in the row block. -/
theorem off1_eq : ∀ t : Fin cfg0.N, k0_off1 (grid0.coords t) = ![0, 256 * (t.val % 43)] :=
  (by decide +kernel : ∀ t : Fin grid0.N, k0_off1 (grid0.coords t) = ![0, 256 * (t.val % 43)])

end Cert.KernelIdeal.Hand

end
-- ==== Proof.R0RunB.lean ====
import proofs.«146200_j26611617366616_1_alg».proof.Proof.Gen.KernelIdeal.Launch
import proofs.«146200_j26611617366616_1_alg».proof.Proof.Gen.KernelIdeal.Skeleton
import proofs.«146200_j26611617366616_1_alg».proof.Proof.Gen.KernelIdeal.Points
import proofs.«146200_j26611617366616_1_alg».proof.Proof.R0Conds
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0's body at a point in the middle of a row block

Neither conditional is taken: the body reads the quantized rows from the first scratch and the two weight blocks,
and stores their gated product into the point's column slice of the second scratch. -/

theorem hz2 : (![0, 0] : Fin 2 → ℕ) = fun _ => 0 := by funext a; fin_cases a <;> rfl

/-- A whole-block load through a whole memref reads the contents it is owned at. -/
theorem readAt_whole_unread {d : Fin 2 → ℕ} {e : EltTy} (arg : Memref sig .tc .vmem (⟨2, d⟩ : Shape) e) (h : arg.IsWhole)
    (inb : ∀ a, (![0, 0] : Fin 2 → ℕ) a + (⟨2, d⟩ : Shape).size a ≤ (⟨2, d⟩ : Shape).size a) (x : (⟨2, d⟩ : Shape).Idx → Elt F e) :
    View.readAt (Elt F) arg.view (Rect.unit (s := (⟨2, d⟩ : Shape)) ![0, 0] (⟨2, d⟩ : Shape).size inb).toLoadRect (h.unread x) = x := by
  rw [View.readAt_eq_ld, h.read_unread, View.ld_unit_zero hz2]

/-- A whole-block load through a view reads what the view reads. -/
theorem readAt_whole {κ : Kind} {sp : Space} {d : Fin 2 → ℕ} {e : EltTy} (v : View sig κ sp (⟨2, d⟩ : Shape) e)
    (inb : ∀ a, (![0, 0] : Fin 2 → ℕ) a + (⟨2, d⟩ : Shape).size a ≤ (⟨2, d⟩ : Shape).size a) (f : v.ty.Contents (Elt F)) :
    View.readAt (Elt F) v (Rect.unit (s := (⟨2, d⟩ : Shape)) ![0, 0] (⟨2, d⟩ : Shape).size inb).toLoadRect f = v.read (Elt F) f := by
  rw [View.readAt_eq_ld, View.ld_unit_zero hz2]

/-- The one piece a point stores into the second scratch. -/
def slicePiece (i : grid0.Coords) (xs0 : Vec F S512x4096 .bf16) (x1 x2 : Vec F S256x4096 .bf16) : View.Piece (Elt F) S512x11008 .bf16 :=
  ⟨Rect.unit (s := S512x11008) (k0_off1 i) S512x256.size (k0_off1_inb i), k0_pay2 xs0 x1 x2⟩

set_option maxHeartbeats 4000000 in
theorem kernelRun0_B (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S512x11008 .bf16) (harg5 : arg5.IsWhole) (arg6 : Memref sig .tc .vmem S512x4096 .bf16) (harg6 : arg6.IsWhole) (arg7 : Memref sig .tc .vmem S512x11008 .bf16) (harg7 : arg7.IsWhole)
    (hc0 : ¬cond0_0 i) (hc1 : ¬cond0_1 i)
    (x0 : Vec F S512x4096 .bf16) (x1 x2 : Vec F S256x4096 .bf16) (xi3 : Vec F S512x11008 .bf16) (xs6 : Vec F S512x4096 .bf16) (xs7 : Vec F S512x11008 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs6 ∗ owns (c : Thread nD τ) arg7 fullShare xs7
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs6 ∗ (arg7.view.loc (c : Thread nD τ) ↦[arg7.view.set]{fullShare} arg7.view.writes (Elt F) (harg7.unread xs7) [slicePiece i xs6 x1 x2])) -∗ K ⟨⟩))
      ⊢ wp frame (wpE (defs₀ (F := F)) Variants.none c none) E (cc0__gate_up_kernel i arg2 harg2 arg3 harg3 arg4 harg4 arg5 harg5 arg6 harg6 arg7 harg7) K := by
  simp only [cc0__gate_up_kernel_eq_skeleton]; unfold cc0__gate_up_kernel_skel
  unfold owns slicePiece
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  rw [readAt_whole_unread arg6 harg6, readAt_whole_unread arg3 harg3, readAt_whole_unread arg4 harg4]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexact H7

end Cert.KernelIdeal.Hand

end
-- ==== Proof.R0RunA.lean ====
import proofs.«146200_j26611617366616_1_alg».proof.Proof.Gen.KernelIdeal.Launch
import proofs.«146200_j26611617366616_1_alg».proof.Proof.Gen.KernelIdeal.Skeleton
import proofs.«146200_j26611617366616_1_alg».proof.Proof.Gen.KernelIdeal.Points
import proofs.«146200_j26611617366616_1_alg».proof.Proof.R0RunB
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0's body at the first point of a row block

The first conditional is taken: the body quantizes the block of `x` into the first scratch, then proceeds as at
any point with the rows it has just stored and read back. -/

/-- The piece the first point of a row block stores into the first scratch. -/
def xqPiece (x0 : Vec F S512x4096 .bf16) : View.Piece (Elt F) S512x4096 .bf16 :=
  ⟨Rect.unit (s := S512x4096) ![0, 0] S512x4096.size inb_S512x4096_S512x4096_0_0, k0_pay1 x0⟩

/-- The first scratch read back whole right after that store. -/
def xqBack (arg6 : Memref sig .tc .vmem S512x4096 .bf16) (x0 : Vec F S512x4096 .bf16) : Vec F S512x4096 .bf16 :=
  arg6.view.readCov [xqPiece x0] (Rect.unit (s := S512x4096) ![0, 0] S512x4096.size inb_S512x4096_S512x4096_0_0).toLoadRect

set_option maxHeartbeats 4000000 in
theorem kernelRun0_A (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S512x11008 .bf16) (harg5 : arg5.IsWhole) (arg6 : Memref sig .tc .vmem S512x4096 .bf16) (harg6 : arg6.IsWhole) (arg7 : Memref sig .tc .vmem S512x11008 .bf16) (harg7 : arg7.IsWhole)
    (hc0 : cond0_0 i) (hc1 : ¬cond0_1 i)
    (x0 : Vec F S512x4096 .bf16) (x1 x2 : Vec F S256x4096 .bf16) (xi3 : Vec F S512x11008 .bf16) (xs6 : Vec F S512x4096 .bf16) (xs7 : Vec F S512x11008 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs6 ∗ owns (c : Thread nD τ) arg7 fullShare xs7
        ∗ (iprop(owns (c : Thread nD τ) arg2 fullShare x0 ∗ owns (c : Thread nD τ) arg3 fullShare x1 ∗ owns (c : Thread nD τ) arg4 fullShare x2 ∗ owns (c : Thread nD τ) arg5 fullShare xi3 ∗ (arg6.view.loc (c : Thread nD τ) ↦[arg6.view.set]{fullShare} arg6.view.writes (Elt F) (harg6.unread xs6) [xqPiece x0]) ∗ (arg7.view.loc (c : Thread nD τ) ↦[arg7.view.set]{fullShare} arg7.view.writes (Elt F) (harg7.unread xs7) [slicePiece i (xqBack arg6 x0) x1 x2])) -∗ K ⟨⟩))
      ⊢ wp frame (wpE (defs₀ (F := F)) Variants.none c none) E (cc0__gate_up_kernel i arg2 harg2 arg3 harg3 arg4 harg4 arg5 harg5 arg6 harg6 arg7 harg7) K := by
  simp only [cc0__gate_up_kernel_eq_skeleton]; unfold cc0__gate_up_kernel_skel
  unfold owns slicePiece xqBack xqPiece
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  sl_unfold_run_names
  rw [readAt_whole_unread arg2 harg2, readAt_whole_unread arg3 harg3, readAt_whole_unread arg4 harg4]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexact H6
  iexact H7

end Cert.KernelIdeal.Hand

end
-- ==== Proof.R0RunC.lean ====
import proofs.«146200_j26611617366616_1_alg».proof.Proof.Gen.KernelIdeal.Launch
import proofs.«146200_j26611617366616_1_alg».proof.Proof.Gen.KernelIdeal.Skeleton
import proofs.«146200_j26611617366616_1_alg».proof.Proof.Gen.KernelIdeal.Points
import proofs.«146200_j26611617366616_1_alg».proof.Proof.R0RunB
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0's body at the last point of a row block

The second conditional is taken: after storing the last column slice the body reads the whole second scratch back,
quantizes it row by row and stores the result into the output block. -/

/-- What the second scratch holds once the point's slice is stored, read through the memref. -/
def accRead (arg7 : Memref sig .tc .vmem S512x11008 .bf16) (harg7 : arg7.IsWhole) (i : grid0.Coords) (xs0 : Vec F S512x4096 .bf16) (x1 x2 : Vec F S256x4096 .bf16)
    (xs7 : Vec F S512x11008 .bf16) : Vec F S512x11008 .bf16 :=
  arg7.view.read (Elt F) (arg7.view.writes (Elt F) (harg7.unread xs7) [slicePiece i xs0 x1 x2])

/-- The piece the last point of a row block stores into the output block. -/
def outPiece (acc : Vec F S512x11008 .bf16) : View.Piece (Elt F) S512x11008 .bf16 :=
  ⟨Rect.unit (s := S512x11008) ![0, 0] S512x11008.size inb_S512x11008_S512x11008_0_0, k0_pay3 acc⟩

set_option maxHeartbeats 4000000 in
theorem kernelRun0_C (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S512x11008 .bf16) (harg5 : arg5.IsWhole) (arg6 : Memref sig .tc .vmem S512x4096 .bf16) (harg6 : arg6.IsWhole) (arg7 : Memref sig .tc .vmem S512x11008 .bf16) (harg7 : arg7.IsWhole)
    (hc0 : ¬cond0_0 i) (hc1 : cond0_1 i)
    (x0 : Vec F S512x4096 .bf16) (x1 x2 : Vec F S256x4096 .bf16) (xi3 : Vec F S512x11008 .bf16) (xs6 : Vec F S512x4096 .bf16) (xs7 : Vec F S512x11008 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs6 ∗ owns (c : Thread nD τ) arg7 fullShare xs7
        ∗ (iprop(owns (c : Thread nD τ) arg2 fullShare x0 ∗ owns (c : Thread nD τ) arg3 fullShare x1 ∗ owns (c : Thread nD τ) arg4 fullShare x2 ∗ (arg5.view.loc (c : Thread nD τ) ↦[arg5.view.set]{fullShare} arg5.view.writes (Elt F) (harg5.unread xi3) [outPiece (accRead arg7 harg7 i xs6 x1 x2 xs7)]) ∗ owns (c : Thread nD τ) arg6 fullShare xs6 ∗ (arg7.view.loc (c : Thread nD τ) ↦[arg7.view.set]{fullShare} arg7.view.writes (Elt F) (harg7.unread xs7) [slicePiece i xs6 x1 x2])) -∗ K ⟨⟩))
      ⊢ wp frame (wpE (defs₀ (F := F)) Variants.none c none) E (cc0__gate_up_kernel i arg2 harg2 arg3 harg3 arg4 harg4 arg5 harg5 arg6 harg6 arg7 harg7) K := by
  simp only [cc0__gate_up_kernel_eq_skeleton]; unfold cc0__gate_up_kernel_skel
  unfold owns slicePiece outPiece accRead
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  sl_unfold_run_names
  rw [readAt_whole_unread arg6 harg6, readAt_whole_unread arg3 harg3, readAt_whole_unread arg4 harg4,
    readAt_whole arg7.view inb_S512x11008_S512x11008_0_0]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexact H5
  isplitl [H6]
  · iexists _; isplitr; · ipureintro; exact harg6.read_unread _
    iexact H6
  iexact H7

end Cert.KernelIdeal.Hand

end
-- ==== Proof.R0Body.lean ====
import proofs.«146200_j26611617366616_1_alg».proof.Proof.Gen.KernelIdeal.Launch
import proofs.«146200_j26611617366616_1_alg».proof.Proof.Gen.KernelIdeal.Skeleton
import proofs.«146200_j26611617366616_1_alg».proof.Proof.Gen.KernelIdeal.Points
import proofs.«146200_j26611617366616_1_alg».proof.Proof.R0RunA
import proofs.«146200_j26611617366616_1_alg».proof.Proof.R0RunC
import Idealize.ShloMosaic.Lib.WritesUnit
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the invariant between grid points and the body obligation

Before the first point every scoped buffer holds anything. After a point the first scratch holds the quantized
rows of the point's row block and the second scratch is filled up to the point's column slice; the last point of a
row block reads the second scratch whole, so its output block is the quantization of the whole gated product. -/

variable (V : (c : Dev nD) → (b : Ref sig .tc) → Buf (Elt F) ((c : Thread nD τ).loc b))

theorem PhiS_succ (c : Dev nD) (n : ℕ) (hn : n + 1 ≤ cfg0.N) :
    PhiS V c (n + 1) hn = iprop(owns (c : Thread nD τ) scM0 fullShare (xqAt V c (rs n))
      ∗ (∃ f1, iprop(owns (c : Thread nD τ) scM1 fullShare f1 ∗ ⌜Filled V c n f1⌝))
      ∗ Rest6 c ∗ (∃ r, prngReg c r)) := rfl

theorem PhiS_pos (c : Dev nD) (n : ℕ) (h : n ≤ cfg0.N) (hz : n ≠ 0) :
    PhiS V c n h = iprop(owns (c : Thread nD τ) scM0 fullShare (xqAt V c (rs (n - 1)))
      ∗ (∃ f1, iprop(owns (c : Thread nD τ) scM1 fullShare f1 ∗ ⌜Filled V c (n - 1) f1⌝))
      ∗ Rest6 c ∗ (∃ r, prngReg c r)) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

/-- Every scoped buffer of the region at anything, and the generator register at some state. -/
def PhiW (c : Dev nD) : sProp 𝕄 :=
  iprop((∃ d, owns (c : Thread nD τ) scM0 fullShare d) ∗ (∃ d, owns (c : Thread nD τ) scM1 fullShare d) ∗ Rest6 c ∗ (∃ r, prngReg c r))

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ Rest6 c) ∗ (∃ r, prngReg c r)) := by
  unfold Pipeline.ΦA Rest6; rw [scopedRest0_eq]; simp only [scM0, scM1, owns_whole]; try rfl

theorem PhiA_weak (c : Dev nD) : Pipeline.ΦA spec0 c ⊢ PhiW (F := F) c := by
  rw [PhiA0_eq]; unfold PhiW
  iintro ⟨⟨H0, H1, HR⟩, Hg⟩
  isplitl [H0]; · iexact H0
  isplitl [H1]; · iexact H1
  isplitl [HR]; · iexact HR
  iexact Hg

theorem PhiW_out (c : Dev nD) : PhiW (F := F) c ⊢ Pipeline.ΦA spec0 c := by
  rw [PhiA0_eq]; unfold PhiW
  iintro ⟨H0, H1, HR, Hg⟩
  isplitr [Hg]
  · isplitl [H0]; · iexact H0
    isplitl [H1]; · iexact H1
    iexact HR
  iexact Hg

theorem PhiS_weak (c : Dev nD) (n : ℕ) (h : n ≤ cfg0.N) : PhiS V c n h ⊢ PhiW (F := F) c := by
  cases n with
  | zero => exact PhiA_weak c
  | succ n =>
    rw [PhiS_succ]; unfold PhiW
    iintro ⟨H0, ⟨%f1, H1, -⟩, HR, Hg⟩
    isplitl [H0]; · iexists _; iexact H0
    isplitl [H1]; · iexists _; iexact H1
    isplitl [HR]; · iexact HR
    iexact Hg

/-- What the launch hands the region is the invariant before the first point. -/
theorem hin0 (c : Dev nD) : Pipeline.ΦA spec0 c ⊢ (dat0 V c).Φ 0 := by
  rw [show (dat0 V c).Φ 0 = PhiS V c 0 (Nat.zero_le _) from rfl]
  exact Idealize.SL.BI.Entails.refl _

/-- After the last point the invariant gives it back: the scratch contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl]
  exact (PhiS_weak V c _ _).trans (PhiW_out c)

/-! ## The input windows hold their blocks at every point -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## What the stores leave, read back -/

/-- One store through the whole of a buffer leaves its payload. -/
theorem read_writes_unit_zero {κ : Kind} {sp : Space} {S : Shape} {e : EltTy} (v : View sig κ sp S e) (g : v.ty.Contents (Elt F))
    {off : Fin S.rank → ℕ} (h : off = fun _ => 0) (inb : ∀ a, off a + S.size a ≤ S.size a) (w : S.Idx → Elt F e) :
    v.read (Elt F) (v.writes (Elt F) g [(⟨Rect.unit off S.size inb, w⟩ : View.Piece (Elt F) S e)]) = w := by
  subst h; exact View.read_writes_whole v g w

/-- The first scratch read back whole right after the first point's store is the quantized block. -/
theorem xqBack_eq (arg6 : Memref sig .tc .vmem S512x4096 .bf16) (x0 : Vec F S512x4096 .bf16) : xqBack arg6 x0 = k0_pay1 x0 := by
  unfold xqBack xqPiece View.readCov
  rw [readAt_whole arg6.view inb_S512x4096_S512x4096_0_0]
  exact read_writes_unit_zero arg6.view _ hz2 inb_S512x4096_S512x4096_0_0 (k0_pay1 x0)

theorem rs_first {n : ℕ} (h : n % 43 = 0) : rs n = n := by unfold rs; omega
theorem rs_pred {n : ℕ} (h : n % 43 ≠ 0) : rs (n - 1) = rs n := by unfold rs; omega

theorem xq_first (c : Dev nD) (t : Fin cfg0.N) (h0 : t.val % 43 = 0) : xqAt V c (rs t.val) = k0_pay1 (iblk0 V c 0 t) := by
  unfold xqAt; rw [rs_first h0, ptOf_val]

/-- Storing a point's slice keeps the slices before it and fills its own. -/
theorem filled_step (c : Dev nD) (t : Fin cfg0.N) (xs7 : Vec F S512x11008 .bf16)
    (hprev : t.val % 43 ≠ 0 → Filled V c (t.val - 1) xs7) :
    Filled V c t.val (scM1.view.read (Elt F) (scM1.view.writes (Elt F) ((Memref.isWhole_whole cc0_scratch1).unread xs7)
      [slicePiece (grid0.coords t) (xqAt V c (rs t.val)) (iblk0 V c 1 t) (iblk0 V c 2 t)])) := by
  intro y hy
  unfold slicePiece
  by_cases hj : (y 1).val / 256 = t.val % 43
  · refine (View.read_writes_cons_unit_of_mem scM1.view _ (k0_off1_inb (grid0.coords t)) _ [] y (sliceCoord y) (off1_eq t)
      (Fin.forall_fin_two.mpr ⟨?_, ?_⟩)).trans ?_
    · show (y 0).val = 0 + (y 0).val; omega
    · show (y 1).val = 256 * (t.val % 43) + (y 1).val % 256; omega
    · unfold accAt prodAt
      have hp : ptOf (rs t.val + (y 1).val / 256) = t := by
        rw [hj]; unfold rs; rw [Nat.sub_add_cancel (Nat.mod_le _ _)]; exact ptOf_val t
      rw [hp]
  · have hlt : (y 1).val / 256 < t.val % 43 := lt_of_le_of_ne hy hj
    have hne : t.val % 43 ≠ 0 := by omega
    refine (View.read_writes_cons_unit_of_not_mem scM1.view _ (k0_off1_inb (grid0.coords t)) _ [] y (off1_eq t) (1 : Fin 2) (Or.inl ?_)).trans ?_
    · show (y 1).val < 256 * (t.val % 43); omega
    · have hp := hprev hne y (by omega)
      rw [rs_pred hne] at hp
      rw [← hp]
      exact congrFun ((Memref.isWhole_whole cc0_scratch1).read_unread xs7) y

/-- At the last point of a row block the second scratch is the whole gated product. -/
theorem acc_full (c : Dev nD) (t : Fin cfg0.N) (h42 : t.val % 43 = 42) (f : Vec F S512x11008 .bf16) (hF : Filled V c t.val f) :
    f = accAt V c (rs t.val) :=
  funext fun y => hF y (by
    have h : (y 1).val < 11008 := (y 1).isLt
    rw [h42]; omega)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [PhiS_castSucc V c t]
  by_cases h1 : t.val % 43 = 42
  · -- the last point of a row block
    have h0 : ¬ t.val % 43 = 0 := by omega
    have hz : t.val ≠ 0 := by omega
    rw [show (dat0 V c).leavesExact 3 t = owns (c : Thread nD τ) (st0_3 t) fullShare ((dat0 V c).after 3 t) from by
      unfold Dat.leavesExact; rw [liveAt0_3 t ((hcond0_1 t).mpr h1)], after0_3]
    rw [PhiS_pos V c _ _ hz, rs_pred h0]
    iintro ⟨⟨HS0, ⟨%f1, HS1, %hF⟩, HR, Hg⟩, Ho, ⟨%d0, H0⟩, ⟨%d1, H1⟩, ⟨%d2, H2⟩, ⟨%d3, H3⟩⟩
    iapply (kernelRun0_C c (grid0.coords t) _ _ _ _ _ _ _ _ scM0 (Memref.isWhole_whole _) scM1 (Memref.isWhole_whole _)
      (fun h => h0 ((hcond0_0 t).mp h)) ((hcond0_1 t).mpr h1) (iblk0 V c 0 t) (iblk0 V c 1 t) (iblk0 V c 2 t)
      ((dat0 V c).before 3 t d3) (xqAt V c (rs t.val)) f1 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 HR Hg]
    · isplitl [HS0]; · iexact HS0
      isplitl [HS1]
      · iexists _
        isplitl [HS1]
        · unfold owns; iexists _; isplitr
          swap; · iexact HS1
          ipureintro; rfl
        · ipureintro; exact filled_step V c t f1 (fun _ => hF)
      isplitl [HR]; · iexact HR
      iexact Hg
    isplitl [Ho]; · iexact Ho
    isplitl [H0]; · iexact H0
    isplitl [H1]; · iexact H1
    isplitl [H2]; · iexact H2
    unfold owns; iexists _; isplitr
    swap; · iexact H3
    ipureintro
    unfold outPiece
    rw [read_writes_unit_zero _ _ hz2]
    unfold out3At accRead
    exact congrArg k0_pay3 (acc_full V c t h1 _ (filled_step V c t f1 (fun _ => hF)))
  · rw [Dat.leavesExact_idle (dat0 V c) 3 t (idleAt0_3 t (fun h => h1 ((hcond0_1 t).mp h))) (noFlush0_3 t (fun h => h1 ((hcond0_1 t).mp h)))]
    by_cases h0 : t.val % 43 = 0
    · -- the first point of a row block
      iintro ⟨HP, Ho, ⟨%d0, H0⟩, ⟨%d1, H1⟩, ⟨%d2, H2⟩, ⟨%d3, H3⟩⟩
      ihave HW := (PhiS_weak V c t.val (Nat.le_of_lt t.isLt)) $$ HP
      unfold PhiW
      icases HW with ⟨⟨%s6, HS0⟩, ⟨%s7, HS1⟩, HR, Hg⟩
      iapply (kernelRun0_A c (grid0.coords t) _ _ _ _ _ _ _ _ scM0 (Memref.isWhole_whole _) scM1 (Memref.isWhole_whole _)
        ((hcond0_0 t).mpr h0) (fun h => h1 ((hcond0_1 t).mp h)) (iblk0 V c 0 t) (iblk0 V c 1 t) (iblk0 V c 2 t)
        ((dat0 V c).before 3 t d3) s6 s7 Set.univ _)
      isplitl [H0]; · iexact H0
      isplitl [H1]; · iexact H1
      isplitl [H2]; · iexact H2
      isplitl [H3]; · iexact H3
      isplitl [HS0]; · iexact HS0
      isplitl [HS1]; · iexact HS1
      rw [xqBack_eq scM0 (iblk0 V c 0 t), ← xq_first V c t h0]
      iintro ⟨H0, H1, H2, H3, HS0, HS1⟩
      isplitl [HS0 HS1 HR Hg]
      · isplitl [HS0]
        · unfold owns; iexists _; isplitr
          swap; · iexact HS0
          ipureintro
          unfold xqPiece
          rw [read_writes_unit_zero _ _ hz2, xq_first V c t h0]
        isplitl [HS1]
        · iexists _
          isplitl [HS1]
          · unfold owns; iexists _; isplitr
            swap; · iexact HS1
            ipureintro; rfl
          · ipureintro; exact filled_step V c t s7 (fun h => absurd h0 h)
        isplitl [HR]; · iexact HR
        iexact Hg
      isplitl [Ho]; · iexact Ho
      isplitl [H0]; · iexact H0
      isplitl [H1]; · iexact H1
      isplitl [H2]; · iexact H2
      iexists _; iexact H3
    · -- a point in the middle of a row block
      have hz : t.val ≠ 0 := by omega
      rw [PhiS_pos V c _ _ hz, rs_pred h0]
      iintro ⟨⟨HS0, ⟨%f1, HS1, %hF⟩, HR, Hg⟩, Ho, ⟨%d0, H0⟩, ⟨%d1, H1⟩, ⟨%d2, H2⟩, ⟨%d3, H3⟩⟩
      iapply (kernelRun0_B c (grid0.coords t) _ _ _ _ _ _ _ _ scM0 (Memref.isWhole_whole _) scM1 (Memref.isWhole_whole _)
        (fun h => h0 ((hcond0_0 t).mp h)) (fun h => h1 ((hcond0_1 t).mp h)) (iblk0 V c 0 t) (iblk0 V c 1 t) (iblk0 V c 2 t)
        ((dat0 V c).before 3 t d3) (xqAt V c (rs t.val)) f1 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR Hg]
      · isplitl [HS0]; · iexact HS0
        isplitl [HS1]
        · iexists _
          isplitl [HS1]
          · unfold owns; iexists _; isplitr
            swap; · iexact HS1
            ipureintro; rfl
          · ipureintro; exact filled_step V c t f1 (fun _ => hF)
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Body.lean ====
import proofs.«146200_j26611617366616_1_alg».proof.Proof.Gen.KernelIdeal.Launch
import proofs.«146200_j26611617366616_1_alg».proof.Proof.Gen.KernelIdeal.Skeleton
import proofs.«146200_j26611617366616_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the product of a row block of the quantized intermediate with a row block of the third weight matrix

A grid point reads the two input blocks whole, multiplies the first by the transpose of the second into a zero
accumulator, and overwrites the output block with the product. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched the block index has not moved), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x11008 := Rect.unit (s := S512x11008) ![0, 0] S512x11008.size inb_S512x11008_S512x11008_0_0
abbrev r1_1 : Rect S512x11008 := Rect.unit (s := S512x11008) ![0, 0] S512x11008.size inb_S512x11008_S512x11008_0_0
abbrev r1_2 : Rect S512x512 := Rect.unit (s := S512x512) ![0, 0] S512x512.size inb_S512x512_S512x512_0_0

/-! ## What the body leaves in the output window's buffer -/

/-- The output block after the body, from the two input blocks: its one store, of the product. -/
def out1_2 (x0 : Vec F S512x11008 .bf16) (x1 : Vec F S512x11008 .bf16) : Vec F S512x512 .f32 :=
  View.canon [⟨r1_2, k1_pay1 (View.ld x0 r1_0) (View.ld x1 r1_1)⟩]

/-- The store covers the whole block. -/
theorem cover1_2 (p0 : Vec F S512x512 .f32) (y : S512x512.Idx) :
    ∃ pc ∈ ([⟨r1_2, p0⟩] : List (View.Piece (Elt F) S512x512 .f32)), y ∈ pc.1.set :=
  View.cover_of_tiled [⟨r1_2, p0⟩] S512x512.size (by rfl) y

/-! ## The body's triple -/

set_option maxHeartbeats 1000000 in
/-- The kernel body on whole staging memrefs, the inputs' at contents `x0`, `x1` and the output's at anything, runs
    to the continuation holding the inputs' as they were and the output's at `out1_2 x0 x1`. -/
theorem sound_kernel1 (c : Dev nD) (E : Set ℕ) (i : grid1.Coords) (arg0 : Memref sig .tc .vmem S512x11008 .bf16) (harg0 : arg0.IsWhole) (arg1 : Memref sig .tc .vmem S512x11008 .bf16) (harg1 : arg1.IsWhole) (arg2 : Memref sig .tc .vmem S512x512 .f32) (harg2 : arg2.IsWhole)
    (x0 : Vec F S512x11008 .bf16) (x1 : Vec F S512x11008 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__down_kernel i arg0 harg0 arg1 harg1 arg2 harg2) K := by
  simp only [cc1__down_kernel_eq_skeleton]; unfold cc1__down_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them; after the body at point `t` each
    input's buffer at its block and the output's at the product of the two blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RunAll.lean ====
import proofs.«146200_j26611617366616_1_alg».proof.Proof.Gen.KernelIdeal.Launch
import proofs.«146200_j26611617366616_1_alg».proof.Proof.Gen.KernelIdeal.Skeleton
import proofs.«146200_j26611617366616_1_alg».proof.Proof.Gen.KernelIdeal.Points
import proofs.«146200_j26611617366616_1_alg».proof.Proof.Gen.KernelIdeal.Regions
import proofs.«146200_j26611617366616_1_alg».proof.Proof.R0Defs
import proofs.«146200_j26611617366616_1_alg».proof.Proof.R0Body
import proofs.«146200_j26611617366616_1_alg».proof.Proof.R1Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: the buffer contents at each boundary, the two pallas_calls as regions between
host stretches, and the launch

The program is thirteen stretches of host operations, the first pallas_call, the second pallas_call, and one last
host operation (a reshape). The buffer contents at each boundary are a fold from the launch memory: a stretch
rewrites what its operations write; a pallas_call leaves its arrays at what its write-backs make of them and every
other buffer as it was. -/

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch number 0. -/
abbrev W1 : Dev nD → Valuation τ sig (Elt F) := fun c => StableHlo.after hostOps0 (W0 m ρ c)
/-- After the host stretch number 1. -/
abbrev W2 : Dev nD → Valuation τ sig (Elt F) := fun c => StableHlo.after hostOps0_1 (W1 m ρ c)
/-- After the host stretch number 2. -/
abbrev W3 : Dev nD → Valuation τ sig (Elt F) := fun c => StableHlo.after hostOps0_2 (W2 m ρ c)
/-- After the host stretch number 3. -/
abbrev W4 : Dev nD → Valuation τ sig (Elt F) := fun c => StableHlo.after hostOps0_3 (W3 m ρ c)
/-- After the host stretch number 4. -/
abbrev W5 : Dev nD → Valuation τ sig (Elt F) := fun c => StableHlo.after hostOps0_4 (W4 m ρ c)
/-- After the host stretch number 5. -/
abbrev W6 : Dev nD → Valuation τ sig (Elt F) := fun c => StableHlo.after hostOps0_5 (W5 m ρ c)
/-- After the host stretch number 6. -/
abbrev W7 : Dev nD → Valuation τ sig (Elt F) := fun c => StableHlo.after hostOps0_6 (W6 m ρ c)
/-- After the host stretch number 7. -/
abbrev W8 : Dev nD → Valuation τ sig (Elt F) := fun c => StableHlo.after hostOps0_7 (W7 m ρ c)
/-- After the host stretch number 8. -/
abbrev W9 : Dev nD → Valuation τ sig (Elt F) := fun c => StableHlo.after hostOps0_8 (W8 m ρ c)
/-- After the host stretch number 9. -/
abbrev W10 : Dev nD → Valuation τ sig (Elt F) := fun c => StableHlo.after hostOps0_9 (W9 m ρ c)
/-- After the host stretch number 10. -/
abbrev W11 : Dev nD → Valuation τ sig (Elt F) := fun c => StableHlo.after hostOps0_10 (W10 m ρ c)
/-- After the host stretch number 11. -/
abbrev W12 : Dev nD → Valuation τ sig (Elt F) := fun c => StableHlo.after hostOps0_11 (W11 m ρ c)
/-- After the host stretch number 12. -/
abbrev W13 : Dev nD → Valuation τ sig (Elt F) := fun c => StableHlo.after hostOps0_12 (W12 m ρ c)
/-- The contents the first pallas_call is entered from, read at the TensorCore's references. -/
abbrev V13 : (c : Dev nD) → (b : Ref sig .tc) → Buf (Elt F) ((c : Thread nD τ).loc b) := fun c b => W13 m ρ c b
/-- At the first pallas_call's exit: its arrays at what the pipeline leaves (the inputs as entered, the output's
    write-backs folded), every other buffer as entered. -/
def W14 (c : Dev nD) : Valuation τ sig (Elt F) :=
  Pipeline.withArrays spec0 c (W13 m ρ c) fun w => (dat0 (V13 m ρ) c).arrAt w cfg0.N
theorem W14_arr (c : Dev nD) (w : Fin cfg0.W) :
    W14 m ρ c (Proc.devRef .tc (Pipeline.arrRef spec0 w)) = (dat0 (V13 m ρ) c).arrAt w cfg0.N := by
  unfold W14; exact Pipeline.withArrays_arr spec0 launch0.win.arr_inj c _ _ w
theorem W14_of_ne (c : Dev nD) (b : Ref sig .tc) (hb : ∀ w, Pipeline.arrRef spec0 w ≠ b) :
    W14 m ρ c (Proc.devRef .tc b) = W13 m ρ c (Proc.devRef .tc b) := by
  unfold W14; exact Pipeline.withArrays_of_ne spec0 c _ _ b hb
/-- The same read at the TensorCore's references: what the second pallas_call is entered from. -/
abbrev V14 : (c : Dev nD) → (b : Ref sig .tc) → Buf (Elt F) ((c : Thread nD τ).loc b) := fun c b => W14 m ρ c b
theorem hF0 (c : Dev nD) (w : Fin cfg0.W) : (dat0 (V13 m ρ) c).arrAt w cfg0.N = V14 m ρ c (Pipeline.arrRef spec0 w) :=
  (W14_arr m ρ c w).symm
theorem hrest0 (c : Dev nD) : ∀ b, b ∉ Finset.univ.image (Pipeline.arrRef spec0) → V14 m ρ c b = V13 m ρ c b :=
  fun b hb => W14_of_ne m ρ c b fun w e => hb (Finset.mem_image.mpr ⟨w, Finset.mem_univ _, e⟩)

/-- At the second pallas_call's exit. -/
def W15 (c : Dev nD) : Valuation τ sig (Elt F) :=
  Pipeline.withArrays spec1 c (W14 m ρ c) fun w => (dat1 (V14 m ρ) c).arrAt w cfg1.N
theorem W15_arr (c : Dev nD) (w : Fin cfg1.W) :
    W15 m ρ c (Proc.devRef .tc (Pipeline.arrRef spec1 w)) = (dat1 (V14 m ρ) c).arrAt w cfg1.N := by
  unfold W15; exact Pipeline.withArrays_arr spec1 launch1.win.arr_inj c _ _ w
theorem W15_of_ne (c : Dev nD) (b : Ref sig .tc) (hb : ∀ w, Pipeline.arrRef spec1 w ≠ b) :
    W15 m ρ c (Proc.devRef .tc b) = W14 m ρ c (Proc.devRef .tc b) := by
  unfold W15; exact Pipeline.withArrays_of_ne spec1 c _ _ b hb
abbrev V15 : (c : Dev nD) → (b : Ref sig .tc) → Buf (Elt F) ((c : Thread nD τ).loc b) := fun c b => W15 m ρ c b
theorem hF1 (c : Dev nD) (w : Fin cfg1.W) : (dat1 (V14 m ρ) c).arrAt w cfg1.N = V15 m ρ c (Pipeline.arrRef spec1 w) :=
  (W15_arr m ρ c w).symm
theorem hrest1 (c : Dev nD) : ∀ b, b ∉ Finset.univ.image (Pipeline.arrRef spec1) → V15 m ρ c b = V14 m ρ c b :=
  fun b hb => W15_of_ne m ρ c b fun w e => hb (Finset.mem_image.mpr ⟨w, Finset.mem_univ _, e⟩)

/-- After the last host operation: the contents the program returns with. -/
abbrev W16 : Dev nD → Valuation τ sig (Elt F) := fun c => StableHlo.after hostOps2 (W15 m ρ c)

/-! ### What the fold leaves where -/

/-- A reference no host stretch before the first pallas_call writes holds at its entry what it held at launch. -/
theorem W13_of (c : Dev nD) (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) (h8 : r ∉ hostOps0_8_W) (h9 : r ∉ hostOps0_9_W) (h10 : r ∉ hostOps0_10_W) (h11 : r ∉ hostOps0_11_W) (h12 : r ∉ hostOps0_12_W) :
    W13 m ρ c (Proc.devRef .tc r) = m ((c : Thread nD τ).loc r) :=
  (StableHlo.after_of_writes_sub hostOps0_12 _ hostOps0_12_writes h12).trans <|
  (StableHlo.after_of_writes_sub hostOps0_11 _ hostOps0_11_writes h11).trans <|
  (StableHlo.after_of_writes_sub hostOps0_10 _ hostOps0_10_writes h10).trans <|
  (StableHlo.after_of_writes_sub hostOps0_9 _ hostOps0_9_writes h9).trans <|
  (StableHlo.after_of_writes_sub hostOps0_8 _ hostOps0_8_writes h8).trans <|
  (StableHlo.after_of_writes_sub hostOps0_7 _ hostOps0_7_writes h7).trans <|
  (StableHlo.after_of_writes_sub hostOps0_6 _ hostOps0_6_writes h6).trans <|
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans <|
  rfl

/-- The contents at the first pallas_call's entry are the thirteen stretches' in a row from the launch memory. -/
theorem W13_eq (c : Dev nD) : W13 m ρ c = StableHlo.after (hostOps0 ++ hostOps0_1 ++ hostOps0_2 ++ hostOps0_3 ++ hostOps0_4 ++ hostOps0_5 ++ hostOps0_6 ++ hostOps0_7 ++ hostOps0_8 ++ hostOps0_9 ++ hostOps0_10 ++ hostOps0_11 ++ hostOps0_12) (W0 m ρ c) := by
  simp only [StableHlo.after_append]

/-- Argument 0 ends as launched: no host operation and no pallas_call writes it. -/
theorem W16_main_arg0 (c : Dev nD) : W16 m ρ c (Proc.devRef .tc main_arg0) = m ((c : Thread nD τ).loc main_arg0) :=
  (StableHlo.after_of_writes_sub hostOps2 _ hostOps2_writes (by decide)).trans <|
  (W15_of_ne m ρ c main_arg0 (by decide)).trans <|
  (W14_of_ne m ρ c main_arg0 (by decide)).trans <|
  W13_of m ρ c main_arg0 (by decide) (by decide) (by decide) (by decide) (by decide) (by decide) (by decide) (by decide) (by decide) (by decide) (by decide) (by decide) (by decide)

/-- Argument 1 ends as launched: no host operation and no pallas_call writes it. -/
theorem W16_main_arg1 (c : Dev nD) : W16 m ρ c (Proc.devRef .tc main_arg1) = m ((c : Thread nD τ).loc main_arg1) :=
  (StableHlo.after_of_writes_sub hostOps2 _ hostOps2_writes (by decide)).trans <|
  (W15_of_ne m ρ c main_arg1 (by decide)).trans <|
  (W14_of_ne m ρ c main_arg1 (by decide)).trans <|
  W13_of m ρ c main_arg1 (by decide) (by decide) (by decide) (by decide) (by decide) (by decide) (by decide) (by decide) (by decide) (by decide) (by decide) (by decide) (by decide)

/-- Argument 2 ends as launched: no host operation and no pallas_call writes it. -/
theorem W16_main_arg2 (c : Dev nD) : W16 m ρ c (Proc.devRef .tc main_arg2) = m ((c : Thread nD τ).loc main_arg2) :=
  (StableHlo.after_of_writes_sub hostOps2 _ hostOps2_writes (by decide)).trans <|
  (W15_of_ne m ρ c main_arg2 (by decide)).trans <|
  (W14_of_ne m ρ c main_arg2 (by decide)).trans <|
  W13_of m ρ c main_arg2 (by decide) (by decide) (by decide) (by decide) (by decide) (by decide) (by decide) (by decide) (by decide) (by decide) (by decide) (by decide) (by decide)

/-- Argument 3 ends as launched: no host operation and no pallas_call writes it. -/
theorem W16_main_arg3 (c : Dev nD) : W16 m ρ c (Proc.devRef .tc main_arg3) = m ((c : Thread nD τ).loc main_arg3) :=
  (StableHlo.after_of_writes_sub hostOps2 _ hostOps2_writes (by decide)).trans <|
  (W15_of_ne m ρ c main_arg3 (by decide)).trans <|
  (W14_of_ne m ρ c main_arg3 (by decide)).trans <|
  W13_of m ρ c main_arg3 (by decide) (by decide) (by decide) (by decide) (by decide) (by decide) (by decide) (by decide) (by decide) (by decide) (by decide) (by decide) (by decide)

/-- Argument 4 ends as launched: no host operation and no pallas_call writes it. -/
theorem W16_main_arg4 (c : Dev nD) : W16 m ρ c (Proc.devRef .tc main_arg4) = m ((c : Thread nD τ).loc main_arg4) :=
  (StableHlo.after_of_writes_sub hostOps2 _ hostOps2_writes (by decide)).trans <|
  (W15_of_ne m ρ c main_arg4 (by decide)).trans <|
  (W14_of_ne m ρ c main_arg4 (by decide)).trans <|
  W13_of m ρ c main_arg4 (by decide) (by decide) (by decide) (by decide) (by decide) (by decide) (by decide) (by decide) (by decide) (by decide) (by decide) (by decide) (by decide)

/-- Argument 5 ends as launched: no host operation and no pallas_call writes it. -/
theorem W16_main_arg5 (c : Dev nD) : W16 m ρ c (Proc.devRef .tc main_arg5) = m ((c : Thread nD τ).loc main_arg5) :=
  (StableHlo.after_of_writes_sub hostOps2 _ hostOps2_writes (by decide)).trans <|
  (W15_of_ne m ρ c main_arg5 (by decide)).trans <|
  (W14_of_ne m ρ c main_arg5 (by decide)).trans <|
  W13_of m ρ c main_arg5 (by decide) (by decide) (by decide) (by decide) (by decide) (by decide) (by decide) (by decide) (by decide) (by decide) (by decide) (by decide) (by decide)

/-- Argument 6 ends as launched: no host operation and no pallas_call writes it. -/
theorem W16_main_arg6 (c : Dev nD) : W16 m ρ c (Proc.devRef .tc main_arg6) = m ((c : Thread nD τ).loc main_arg6) :=
  (StableHlo.after_of_writes_sub hostOps2 _ hostOps2_writes (by decide)).trans <|
  (W15_of_ne m ρ c main_arg6 (by decide)).trans <|
  (W14_of_ne m ρ c main_arg6 (by decide)).trans <|
  W13_of m ρ c main_arg6 (by decide) (by decide) (by decide) (by decide) (by decide) (by decide) (by decide) (by decide) (by decide) (by decide) (by decide) (by decide) (by decide)

/-- The first pallas_call's output array, as the second finds it. -/
theorem W14_v44 (c : Dev nD) : V14 m ρ c main_v44 = (dat0 (V13 m ρ) c).arrAt 3 cfg0.N := W14_arr m ρ c 3
/-- The second pallas_call's other input is as the first pallas_call was entered with it. -/
theorem W14_v41 (c : Dev nD) : V14 m ρ c main_v41 = V13 m ρ c main_v41 := W14_of_ne m ρ c main_v41 (by decide)

/-- The returned array: the second pallas_call's output array, reshaped. -/
theorem W16_out (c : Dev nD) : W16 m ρ c (Proc.devRef .tc main_v46)
    = fun i => shapeCast S2x2048x4096 ((dat1 (V14 m ρ) c).arrAt 2 cfg1.N) shapeCasts_S4096x4096_S2x2048x4096 i := by
  rw [← W15_arr m ρ c 2]
  exact (StableHlo.reshape_result main_v45 main_v46 rfl shapeCasts_S4096x4096_S2x2048x4096 ⟨by decide, rfl⟩ ⟨by decide, rfl⟩ (W15 m ρ c)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V13 m ρ) c
  | ⟨1, _⟩ => fun c => dat1 (V14 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register at
    some state. -/
abbrev Tₙ (c : Dev nD) : sProp 𝕄 := iprop(StableHlo.held (c : Thread nD τ) (Pipeline.ucRefs τ sig) (W16 m ρ c) ∗ ∃ r, prngReg c r)

/-! ## The pallas_calls as segments -/

set_option backward.isDefEq.respectTransparency.types false in
/-- Pallas_call 0 over the thread state: entered from every unscoped buffer at the contents before it, left at the
    contents after it. Its arrays are split out of the unscoped buffers and put back at the exit contents; the
    generator register goes into the region invariant and comes out; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V13 m ρ) c).loose
  hwaits := Pipeline.hwaits_of_owed_zero _ _ _ _ L lv 0 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec0 c (V13 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (V13 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (V13 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V13 m ρ c) (V14 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 over the thread state: entered from every unscoped buffer at the contents before it, left at the
    contents after it. Its arrays are split out of the unscoped buffers and put back at the exit contents; the
    generator register goes into the region invariant and comes out; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V14 m ρ) c).loose
  hwaits := Pipeline.hwaits_of_owed_zero _ _ _ _ L lv 1 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec1 c (V14 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V14 m ρ c) (V15 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 16 segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .region (reg0 m ρ),
    .region (reg1 m ρ),
    .host (hseg hostOps2 hostOps2_sub hostOps2_fresh (W15 m ρ)) ]

set_option backward.isDefEq.respectTransparency.types false in
/-- THE RUN: from any memory with zero counters, every weakly fair execution of the program on the TensorCores
    terminates, nothing faulting, and every final state holds every unscoped buffer at the last contents `W16`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W16 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => show iprop(StableHlo.held (c : Thread nD τ) (Pipeline.ucRefs τ sig) (W16 m ρ c) ∗ R c)
        ⊢ iprop(Tₙ m ρ c ∗ ∃ W, owes (c : Thread nD τ) (0 : CellTallies nD τ sig Unit) W) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun _ h => h)

/-- THE FRAME: every weakly fair execution of the program terminates, nothing faulting, and every final state has
    the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c)⟩) (run_all m ρ)

end Cert.KernelIdeal.Hand

end
-- ==== Proof.RunOut.lean ====
import proofs.«146200_j26611617366616_1_alg».proof.Proof.Gen.KernelIdeal.Launch
import proofs.«146200_j26611617366616_1_alg».proof.Proof.Gen.KernelIdeal.Skeleton
import proofs.«146200_j26611617366616_1_alg».proof.Proof.Gen.KernelIdeal.Points
import proofs.«146200_j26611617366616_1_alg».proof.Defs
import proofs.«146200_j26611617366616_1_alg».proof.Proof.RunAll
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run read at the returned array

Every final state of the program holds the returned array at the last boundary's contents and every argument array
as launched. -/

variable (m : (ℓ : Loc nD τ sig) → Buf (Elt F) ℓ) (ρ : Dev nD → PrngReg)

/-- THE RUN, read at the result and the arguments: every weakly fair execution terminates, nothing faulting, and
    every final state has the returned array at `W16`'s contents and the argument arrays as launched. -/
theorem run_out : θ_run defs (onTc (τ := τ) (main (F := F))) ⟨m, fun _ => 0, ρ⟩ (fun r => ∀ c : Dev nD,
      r.2.mem ((c.tc : Thread nD τ).loc main_v46) = W16 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v46 (by decide)),
     (h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c)⟩) (run_all m ρ)

/-- The equivalence claim's first run is `run_out` with the result `W16`'s contents at the returned array: the claim
    follows from it and the other program's run (here assumed). -/
example [Cert.ReferenceIdeal.Facts] [Cert.Pre_finite_inputs.Facts] (hother : ∀ P : Prop, P) :
    Cert.algebraic_KernelIdeal_ReferenceIdeal (hKernelIdeal := Cert.KernelIdeal.Gen.facts) := fun m g _ _ _ _ =>
  ⟨fun c => W16 m g c (Proc.devRef .tc main_v46), by exact run_out m g, hother _⟩

end Cert.KernelIdeal.Hand

end
-- ==== Proof.BitsR0Defs.lean ====
import proofs.«146200_j26611617366616_1_alg».proof.Proof.Gen.Kernel.Launch
import proofs.«146200_j26611617366616_1_alg».proof.Proof.Gen.Kernel.Skeleton
import proofs.«146200_j26611617366616_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the blocks a grid point reads, and what the two scratch buffers and the output block hold

A grid point `t` (344 of them, 43 per row block) has row start `t - t % 43`. The first scratch holds the
quantized 512 rows of `x` of the point's row block; column slice `j` of the second holds the gated product of
those rows with the `j`-th 256 rows of the two weight matrices; the output block, written at the last point of
a row block, is the row-wise quantization of the second scratch. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid point numbered `n` (the first point when `n` is out of range). -/
def ptOf (n : ℕ) : Fin cfg0.N := if h : n < cfg0.N then ⟨n, h⟩ else ⟨0, by rw [show cfg0.N = 344 from N_0]; decide⟩

theorem ptOf_val (t : Fin cfg0.N) : ptOf t.val = t := by unfold ptOf; rw [dif_pos t.isLt]

/-- The number of the first point of `n`'s row block. -/
def rs (n : ℕ) : ℕ := n - n % 43

/-- The quantized rows of `x` of the row block starting at point `r`. -/
def xqAt (c : Dev nD) (r : ℕ) : Vec F S512x4096 .bf16 := k0_pay1 (iblk0 V c 0 (ptOf r))

/-- Column slice `j` of the gated product of the row block starting at point `r`. -/
def prodAt (c : Dev nD) (r j : ℕ) : Vec F S512x256 .bf16 :=
  k0_pay2 (xqAt V c r) (iblk0 V c 1 (ptOf (r + j))) (iblk0 V c 2 (ptOf (r + j)))

/-- An index of the second scratch inside its column slice. -/
def sliceCoord (y : S512x11008.Idx) : S512x256.Idx := fun a => match a with
  | ⟨0, _⟩ => ⟨(y 0).val, (y 0).isLt⟩
  | ⟨1, _⟩ => ⟨(y 1).val % 256, Nat.mod_lt _ (by decide)⟩

/-- The whole gated product of the row block starting at point `r`: slice `(y 1) / 256` read at the index inside it. -/
def accAt (c : Dev nD) (r : ℕ) : Vec F S512x11008 .bf16 := fun y => prodAt V c r ((y 1).val / 256) (sliceCoord y)

/-- The output block of the row block starting at point `r`. -/
def out3At (c : Dev nD) (r : ℕ) : Vec F S512x11008 .bf16 := k0_pay3 (accAt V c r)

/-- The scratch operands as memrefs. -/
abbrev scM0 : Memref sig .tc .vmem S512x4096 .bf16 := Memref.whole cc0_scratch0
abbrev scM1 : Memref sig .tc .vmem S512x11008 .bf16 := Memref.whole cc0_scratch1

/-- The second scratch is filled up to the slice of point `n`. -/
def Filled (c : Dev nD) (n : ℕ) (f1 : Vec F S512x11008 .bf16) : Prop :=
  ∀ y : S512x11008.Idx, (y 1).val / 256 ≤ n % 43 → f1 y = accAt V c (rs n) y

/-- The other pallas_call's staging buffers, each whole at some contents. -/
def Rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region invariant before point `n`: at the start every scoped buffer at anything; afterwards the first scratch
    at the row block's quantized rows, the second filled up to the slice of the point before. -/
def PhiS (c : Dev nD) : (n : ℕ) → n ≤ cfg0.N → sProp 𝕄
  | 0, _ => Pipeline.ΦA spec0 c
  | n + 1, _ => iprop(owns (c : Thread nD τ) scM0 fullShare (xqAt V c (rs n))
      ∗ (∃ f1, iprop(owns (c : Thread nD τ) scM1 fullShare f1 ∗ ⌜Filled V c n f1⌝))
      ∗ Rest6 c ∗ (∃ r, prngReg c r))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out3At V c (rs t.val)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out3At V c (rs t.val) := by dsimp only [dat0]

end Cert.Kernel.Hand

end
-- ==== Proof.BitsR0Conds.lean ====
import proofs.«146200_j26611617366616_1_alg».proof.Proof.Gen.Kernel.Launch
import proofs.«146200_j26611617366616_1_alg».proof.Proof.Gen.Kernel.Skeleton
import proofs.«146200_j26611617366616_1_alg».proof.Proof.Gen.Kernel.Points
import proofs.«146200_j26611617366616_1_alg».proof.Proof.BitsR0Defs
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body's two conditions over the grid, where the output window is idle, and the slice offsets -/

/-- The first conditional of the body (the point is the first of its row block). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 43 = 0 :=
  (by decide +kernel : ∀ t : Fin grid0.N, cond0_0 (grid0.coords t) ↔ t.val % 43 = 0)

/-- The second conditional of the body (the point is the last of its row block). -/
abbrev cond0_1 (i : grid0.Coords) : Prop := k0_cond2 i = 1#1
theorem hcond0_1 : ∀ t : Fin cfg0.N, cond0_1 (grid0.coords t) ↔ t.val % 43 = 42 :=
  (by decide +kernel : ∀ t : Fin grid0.N, cond0_1 (grid0.coords t) ↔ t.val % 43 = 42)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point of a row block the output window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- The column slice a point stores into starts at column 256 times its position in the row block. -/
theorem off1_eq : ∀ t : Fin cfg0.N, k0_off1 (grid0.coords t) = ![0, 256 * (t.val % 43)] :=
  (by decide +kernel : ∀ t : Fin grid0.N, k0_off1 (grid0.coords t) = ![0, 256 * (t.val % 43)])

end Cert.Kernel.Hand

end
-- ==== Proof.BitsR0RunB.lean ====
import proofs.«146200_j26611617366616_1_alg».proof.Proof.Gen.Kernel.Launch
import proofs.«146200_j26611617366616_1_alg».proof.Proof.Gen.Kernel.Skeleton
import proofs.«146200_j26611617366616_1_alg».proof.Proof.Gen.Kernel.Points
import proofs.«146200_j26611617366616_1_alg».proof.Proof.BitsR0Conds
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0's body at a point in the middle of a row block

Neither conditional is taken: the body reads the quantized rows from the first scratch and the two weight blocks,
and stores their gated product into the point's column slice of the second scratch. -/

theorem hz2 : (![0, 0] : Fin 2 → ℕ) = fun _ => 0 := by funext a; fin_cases a <;> rfl

/-- A whole-block load through a whole memref reads the contents it is owned at. -/
theorem readAt_whole_unread {d : Fin 2 → ℕ} {e : EltTy} (arg : Memref sig .tc .vmem (⟨2, d⟩ : Shape) e) (h : arg.IsWhole)
    (inb : ∀ a, (![0, 0] : Fin 2 → ℕ) a + (⟨2, d⟩ : Shape).size a ≤ (⟨2, d⟩ : Shape).size a) (x : (⟨2, d⟩ : Shape).Idx → Elt F e) :
    View.readAt (Elt F) arg.view (Rect.unit (s := (⟨2, d⟩ : Shape)) ![0, 0] (⟨2, d⟩ : Shape).size inb).toLoadRect (h.unread x) = x := by
  rw [View.readAt_eq_ld, h.read_unread, View.ld_unit_zero hz2]

/-- A whole-block load through a view reads what the view reads. -/
theorem readAt_whole {κ : Kind} {sp : Space} {d : Fin 2 → ℕ} {e : EltTy} (v : View sig κ sp (⟨2, d⟩ : Shape) e)
    (inb : ∀ a, (![0, 0] : Fin 2 → ℕ) a + (⟨2, d⟩ : Shape).size a ≤ (⟨2, d⟩ : Shape).size a) (f : v.ty.Contents (Elt F)) :
    View.readAt (Elt F) v (Rect.unit (s := (⟨2, d⟩ : Shape)) ![0, 0] (⟨2, d⟩ : Shape).size inb).toLoadRect f = v.read (Elt F) f := by
  rw [View.readAt_eq_ld, View.ld_unit_zero hz2]

/-- The one piece a point stores into the second scratch. -/
def slicePiece (i : grid0.Coords) (xs0 : Vec F S512x4096 .bf16) (x1 x2 : Vec F S256x4096 .bf16) : View.Piece (Elt F) S512x11008 .bf16 :=
  ⟨Rect.unit (s := S512x11008) (k0_off1 i) S512x256.size (k0_off1_inb i), k0_pay2 xs0 x1 x2⟩

set_option maxHeartbeats 4000000 in
theorem kernelRun0_B (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S512x11008 .bf16) (harg5 : arg5.IsWhole) (arg6 : Memref sig .tc .vmem S512x4096 .bf16) (harg6 : arg6.IsWhole) (arg7 : Memref sig .tc .vmem S512x11008 .bf16) (harg7 : arg7.IsWhole)
    (hc0 : ¬cond0_0 i) (hc1 : ¬cond0_1 i)
    (x0 : Vec F S512x4096 .bf16) (x1 x2 : Vec F S256x4096 .bf16) (xi3 : Vec F S512x11008 .bf16) (xs6 : Vec F S512x4096 .bf16) (xs7 : Vec F S512x11008 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs6 ∗ owns (c : Thread nD τ) arg7 fullShare xs7
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs6 ∗ (arg7.view.loc (c : Thread nD τ) ↦[arg7.view.set]{fullShare} arg7.view.writes (Elt F) (harg7.unread xs7) [slicePiece i xs6 x1 x2])) -∗ K ⟨⟩))
      ⊢ wp frame (wpE (defs₀ (F := F)) Variants.none c none) E (cc0__gate_up_kernel i arg2 harg2 arg3 harg3 arg4 harg4 arg5 harg5 arg6 harg6 arg7 harg7) K := by
  simp only [cc0__gate_up_kernel_eq_skeleton]; unfold cc0__gate_up_kernel_skel
  unfold owns slicePiece
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  rw [readAt_whole_unread arg6 harg6, readAt_whole_unread arg3 harg3, readAt_whole_unread arg4 harg4]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexact H7

end Cert.Kernel.Hand

end
-- ==== Proof.BitsR0RunA.lean ====
import proofs.«146200_j26611617366616_1_alg».proof.Proof.Gen.Kernel.Launch
import proofs.«146200_j26611617366616_1_alg».proof.Proof.Gen.Kernel.Skeleton
import proofs.«146200_j26611617366616_1_alg».proof.Proof.Gen.Kernel.Points
import proofs.«146200_j26611617366616_1_alg».proof.Proof.BitsR0RunB
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0's body at the first point of a row block

The first conditional is taken: the body quantizes the block of `x` into the first scratch, then proceeds as at
any point with the rows it has just stored and read back. -/

/-- The piece the first point of a row block stores into the first scratch. -/
def xqPiece (x0 : Vec F S512x4096 .bf16) : View.Piece (Elt F) S512x4096 .bf16 :=
  ⟨Rect.unit (s := S512x4096) ![0, 0] S512x4096.size inb_S512x4096_S512x4096_0_0, k0_pay1 x0⟩

/-- The first scratch read back whole right after that store. -/
def xqBack (arg6 : Memref sig .tc .vmem S512x4096 .bf16) (x0 : Vec F S512x4096 .bf16) : Vec F S512x4096 .bf16 :=
  arg6.view.readCov [xqPiece x0] (Rect.unit (s := S512x4096) ![0, 0] S512x4096.size inb_S512x4096_S512x4096_0_0).toLoadRect

set_option maxHeartbeats 4000000 in
theorem kernelRun0_A (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S512x11008 .bf16) (harg5 : arg5.IsWhole) (arg6 : Memref sig .tc .vmem S512x4096 .bf16) (harg6 : arg6.IsWhole) (arg7 : Memref sig .tc .vmem S512x11008 .bf16) (harg7 : arg7.IsWhole)
    (hc0 : cond0_0 i) (hc1 : ¬cond0_1 i)
    (x0 : Vec F S512x4096 .bf16) (x1 x2 : Vec F S256x4096 .bf16) (xi3 : Vec F S512x11008 .bf16) (xs6 : Vec F S512x4096 .bf16) (xs7 : Vec F S512x11008 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs6 ∗ owns (c : Thread nD τ) arg7 fullShare xs7
        ∗ (iprop(owns (c : Thread nD τ) arg2 fullShare x0 ∗ owns (c : Thread nD τ) arg3 fullShare x1 ∗ owns (c : Thread nD τ) arg4 fullShare x2 ∗ owns (c : Thread nD τ) arg5 fullShare xi3 ∗ (arg6.view.loc (c : Thread nD τ) ↦[arg6.view.set]{fullShare} arg6.view.writes (Elt F) (harg6.unread xs6) [xqPiece x0]) ∗ (arg7.view.loc (c : Thread nD τ) ↦[arg7.view.set]{fullShare} arg7.view.writes (Elt F) (harg7.unread xs7) [slicePiece i (xqBack arg6 x0) x1 x2])) -∗ K ⟨⟩))
      ⊢ wp frame (wpE (defs₀ (F := F)) Variants.none c none) E (cc0__gate_up_kernel i arg2 harg2 arg3 harg3 arg4 harg4 arg5 harg5 arg6 harg6 arg7 harg7) K := by
  simp only [cc0__gate_up_kernel_eq_skeleton]; unfold cc0__gate_up_kernel_skel
  unfold owns slicePiece xqBack xqPiece
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  sl_unfold_run_names
  rw [readAt_whole_unread arg2 harg2, readAt_whole_unread arg3 harg3, readAt_whole_unread arg4 harg4]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexact H6
  iexact H7

end Cert.Kernel.Hand

end
-- ==== Proof.BitsR0RunC.lean ====
import proofs.«146200_j26611617366616_1_alg».proof.Proof.Gen.Kernel.Launch
import proofs.«146200_j26611617366616_1_alg».proof.Proof.Gen.Kernel.Skeleton
import proofs.«146200_j26611617366616_1_alg».proof.Proof.Gen.Kernel.Points
import proofs.«146200_j26611617366616_1_alg».proof.Proof.BitsR0RunB
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0's body at the last point of a row block

The second conditional is taken: after storing the last column slice the body reads the whole second scratch back,
quantizes it row by row and stores the result into the output block. -/

/-- What the second scratch holds once the point's slice is stored, read through the memref. -/
def accRead (arg7 : Memref sig .tc .vmem S512x11008 .bf16) (harg7 : arg7.IsWhole) (i : grid0.Coords) (xs0 : Vec F S512x4096 .bf16) (x1 x2 : Vec F S256x4096 .bf16)
    (xs7 : Vec F S512x11008 .bf16) : Vec F S512x11008 .bf16 :=
  arg7.view.read (Elt F) (arg7.view.writes (Elt F) (harg7.unread xs7) [slicePiece i xs0 x1 x2])

/-- The piece the last point of a row block stores into the output block. -/
def outPiece (acc : Vec F S512x11008 .bf16) : View.Piece (Elt F) S512x11008 .bf16 :=
  ⟨Rect.unit (s := S512x11008) ![0, 0] S512x11008.size inb_S512x11008_S512x11008_0_0, k0_pay3 acc⟩

set_option maxHeartbeats 4000000 in
theorem kernelRun0_C (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S512x11008 .bf16) (harg5 : arg5.IsWhole) (arg6 : Memref sig .tc .vmem S512x4096 .bf16) (harg6 : arg6.IsWhole) (arg7 : Memref sig .tc .vmem S512x11008 .bf16) (harg7 : arg7.IsWhole)
    (hc0 : ¬cond0_0 i) (hc1 : cond0_1 i)
    (x0 : Vec F S512x4096 .bf16) (x1 x2 : Vec F S256x4096 .bf16) (xi3 : Vec F S512x11008 .bf16) (xs6 : Vec F S512x4096 .bf16) (xs7 : Vec F S512x11008 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs6 ∗ owns (c : Thread nD τ) arg7 fullShare xs7
        ∗ (iprop(owns (c : Thread nD τ) arg2 fullShare x0 ∗ owns (c : Thread nD τ) arg3 fullShare x1 ∗ owns (c : Thread nD τ) arg4 fullShare x2 ∗ (arg5.view.loc (c : Thread nD τ) ↦[arg5.view.set]{fullShare} arg5.view.writes (Elt F) (harg5.unread xi3) [outPiece (accRead arg7 harg7 i xs6 x1 x2 xs7)]) ∗ owns (c : Thread nD τ) arg6 fullShare xs6 ∗ (arg7.view.loc (c : Thread nD τ) ↦[arg7.view.set]{fullShare} arg7.view.writes (Elt F) (harg7.unread xs7) [slicePiece i xs6 x1 x2])) -∗ K ⟨⟩))
      ⊢ wp frame (wpE (defs₀ (F := F)) Variants.none c none) E (cc0__gate_up_kernel i arg2 harg2 arg3 harg3 arg4 harg4 arg5 harg5 arg6 harg6 arg7 harg7) K := by
  simp only [cc0__gate_up_kernel_eq_skeleton]; unfold cc0__gate_up_kernel_skel
  unfold owns slicePiece outPiece accRead
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  sl_unfold_run_names
  rw [readAt_whole_unread arg6 harg6, readAt_whole_unread arg3 harg3, readAt_whole_unread arg4 harg4,
    readAt_whole arg7.view inb_S512x11008_S512x11008_0_0]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexact H5
  isplitl [H6]
  · iexists _; isplitr; · ipureintro; exact harg6.read_unread _
    iexact H6
  iexact H7

end Cert.Kernel.Hand

end
-- ==== Proof.BitsR0Body.lean ====
import proofs.«146200_j26611617366616_1_alg».proof.Proof.Gen.Kernel.Launch
import proofs.«146200_j26611617366616_1_alg».proof.Proof.Gen.Kernel.Skeleton
import proofs.«146200_j26611617366616_1_alg».proof.Proof.Gen.Kernel.Points
import proofs.«146200_j26611617366616_1_alg».proof.Proof.BitsR0RunA
import proofs.«146200_j26611617366616_1_alg».proof.Proof.BitsR0RunC
import Idealize.ShloMosaic.Lib.WritesUnit
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the invariant between grid points and the body obligation

Before the first point every scoped buffer holds anything. After a point the first scratch holds the quantized
rows of the point's row block and the second scratch is filled up to the point's column slice; the last point of a
row block reads the second scratch whole, so its output block is the quantization of the whole gated product. -/

variable (V : (c : Dev nD) → (b : Ref sig .tc) → Buf (Elt F) ((c : Thread nD τ).loc b))

theorem PhiS_succ (c : Dev nD) (n : ℕ) (hn : n + 1 ≤ cfg0.N) :
    PhiS V c (n + 1) hn = iprop(owns (c : Thread nD τ) scM0 fullShare (xqAt V c (rs n))
      ∗ (∃ f1, iprop(owns (c : Thread nD τ) scM1 fullShare f1 ∗ ⌜Filled V c n f1⌝))
      ∗ Rest6 c ∗ (∃ r, prngReg c r)) := rfl

theorem PhiS_pos (c : Dev nD) (n : ℕ) (h : n ≤ cfg0.N) (hz : n ≠ 0) :
    PhiS V c n h = iprop(owns (c : Thread nD τ) scM0 fullShare (xqAt V c (rs (n - 1)))
      ∗ (∃ f1, iprop(owns (c : Thread nD τ) scM1 fullShare f1 ∗ ⌜Filled V c (n - 1) f1⌝))
      ∗ Rest6 c ∗ (∃ r, prngReg c r)) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

/-- Every scoped buffer of the region at anything, and the generator register at some state. -/
def PhiW (c : Dev nD) : sProp 𝕄 :=
  iprop((∃ d, owns (c : Thread nD τ) scM0 fullShare d) ∗ (∃ d, owns (c : Thread nD τ) scM1 fullShare d) ∗ Rest6 c ∗ (∃ r, prngReg c r))

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ Rest6 c) ∗ (∃ r, prngReg c r)) := by
  unfold Pipeline.ΦA Rest6; rw [scopedRest0_eq]; simp only [scM0, scM1, owns_whole]; try rfl

theorem PhiA_weak (c : Dev nD) : Pipeline.ΦA spec0 c ⊢ PhiW (F := F) c := by
  rw [PhiA0_eq]; unfold PhiW
  iintro ⟨⟨H0, H1, HR⟩, Hg⟩
  isplitl [H0]; · iexact H0
  isplitl [H1]; · iexact H1
  isplitl [HR]; · iexact HR
  iexact Hg

theorem PhiW_out (c : Dev nD) : PhiW (F := F) c ⊢ Pipeline.ΦA spec0 c := by
  rw [PhiA0_eq]; unfold PhiW
  iintro ⟨H0, H1, HR, Hg⟩
  isplitr [Hg]
  · isplitl [H0]; · iexact H0
    isplitl [H1]; · iexact H1
    iexact HR
  iexact Hg

theorem PhiS_weak (c : Dev nD) (n : ℕ) (h : n ≤ cfg0.N) : PhiS V c n h ⊢ PhiW (F := F) c := by
  cases n with
  | zero => exact PhiA_weak c
  | succ n =>
    rw [PhiS_succ]; unfold PhiW
    iintro ⟨H0, ⟨%f1, H1, -⟩, HR, Hg⟩
    isplitl [H0]; · iexists _; iexact H0
    isplitl [H1]; · iexists _; iexact H1
    isplitl [HR]; · iexact HR
    iexact Hg

/-- What the launch hands the region is the invariant before the first point. -/
theorem hin0 (c : Dev nD) : Pipeline.ΦA spec0 c ⊢ (dat0 V c).Φ 0 := by
  rw [show (dat0 V c).Φ 0 = PhiS V c 0 (Nat.zero_le _) from rfl]
  exact Idealize.SL.BI.Entails.refl _

/-- After the last point the invariant gives it back: the scratch contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl]
  exact (PhiS_weak V c _ _).trans (PhiW_out c)

/-! ## The input windows hold their blocks at every point -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## What the stores leave, read back -/

/-- One store through the whole of a buffer leaves its payload. -/
theorem read_writes_unit_zero {κ : Kind} {sp : Space} {S : Shape} {e : EltTy} (v : View sig κ sp S e) (g : v.ty.Contents (Elt F))
    {off : Fin S.rank → ℕ} (h : off = fun _ => 0) (inb : ∀ a, off a + S.size a ≤ S.size a) (w : S.Idx → Elt F e) :
    v.read (Elt F) (v.writes (Elt F) g [(⟨Rect.unit off S.size inb, w⟩ : View.Piece (Elt F) S e)]) = w := by
  subst h; exact View.read_writes_whole v g w

/-- The first scratch read back whole right after the first point's store is the quantized block. -/
theorem xqBack_eq (arg6 : Memref sig .tc .vmem S512x4096 .bf16) (x0 : Vec F S512x4096 .bf16) : xqBack arg6 x0 = k0_pay1 x0 := by
  unfold xqBack xqPiece View.readCov
  rw [readAt_whole arg6.view inb_S512x4096_S512x4096_0_0]
  exact read_writes_unit_zero arg6.view _ hz2 inb_S512x4096_S512x4096_0_0 (k0_pay1 x0)

theorem rs_first {n : ℕ} (h : n % 43 = 0) : rs n = n := by unfold rs; omega
theorem rs_pred {n : ℕ} (h : n % 43 ≠ 0) : rs (n - 1) = rs n := by unfold rs; omega

theorem xq_first (c : Dev nD) (t : Fin cfg0.N) (h0 : t.val % 43 = 0) : xqAt V c (rs t.val) = k0_pay1 (iblk0 V c 0 t) := by
  unfold xqAt; rw [rs_first h0, ptOf_val]

/-- Storing a point's slice keeps the slices before it and fills its own. -/
theorem filled_step (c : Dev nD) (t : Fin cfg0.N) (xs7 : Vec F S512x11008 .bf16)
    (hprev : t.val % 43 ≠ 0 → Filled V c (t.val - 1) xs7) :
    Filled V c t.val (scM1.view.read (Elt F) (scM1.view.writes (Elt F) ((Memref.isWhole_whole cc0_scratch1).unread xs7)
      [slicePiece (grid0.coords t) (xqAt V c (rs t.val)) (iblk0 V c 1 t) (iblk0 V c 2 t)])) := by
  intro y hy
  unfold slicePiece
  by_cases hj : (y 1).val / 256 = t.val % 43
  · refine (View.read_writes_cons_unit_of_mem scM1.view _ (k0_off1_inb (grid0.coords t)) _ [] y (sliceCoord y) (off1_eq t)
      (Fin.forall_fin_two.mpr ⟨?_, ?_⟩)).trans ?_
    · show (y 0).val = 0 + (y 0).val; omega
    · show (y 1).val = 256 * (t.val % 43) + (y 1).val % 256; omega
    · unfold accAt prodAt
      have hp : ptOf (rs t.val + (y 1).val / 256) = t := by
        rw [hj]; unfold rs; rw [Nat.sub_add_cancel (Nat.mod_le _ _)]; exact ptOf_val t
      rw [hp]
  · have hlt : (y 1).val / 256 < t.val % 43 := lt_of_le_of_ne hy hj
    have hne : t.val % 43 ≠ 0 := by omega
    refine (View.read_writes_cons_unit_of_not_mem scM1.view _ (k0_off1_inb (grid0.coords t)) _ [] y (off1_eq t) (1 : Fin 2) (Or.inl ?_)).trans ?_
    · show (y 1).val < 256 * (t.val % 43); omega
    · have hp := hprev hne y (by omega)
      rw [rs_pred hne] at hp
      rw [← hp]
      exact congrFun ((Memref.isWhole_whole cc0_scratch1).read_unread xs7) y

/-- At the last point of a row block the second scratch is the whole gated product. -/
theorem acc_full (c : Dev nD) (t : Fin cfg0.N) (h42 : t.val % 43 = 42) (f : Vec F S512x11008 .bf16) (hF : Filled V c t.val f) :
    f = accAt V c (rs t.val) :=
  funext fun y => hF y (by
    have h : (y 1).val < 11008 := (y 1).isLt
    rw [h42]; omega)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [PhiS_castSucc V c t]
  by_cases h1 : t.val % 43 = 42
  · -- the last point of a row block
    have h0 : ¬ t.val % 43 = 0 := by omega
    have hz : t.val ≠ 0 := by omega
    rw [show (dat0 V c).leavesExact 3 t = owns (c : Thread nD τ) (st0_3 t) fullShare ((dat0 V c).after 3 t) from by
      unfold Dat.leavesExact; rw [liveAt0_3 t ((hcond0_1 t).mpr h1)], after0_3]
    rw [PhiS_pos V c _ _ hz, rs_pred h0]
    iintro ⟨⟨HS0, ⟨%f1, HS1, %hF⟩, HR, Hg⟩, Ho, ⟨%d0, H0⟩, ⟨%d1, H1⟩, ⟨%d2, H2⟩, ⟨%d3, H3⟩⟩
    iapply (kernelRun0_C c (grid0.coords t) _ _ _ _ _ _ _ _ scM0 (Memref.isWhole_whole _) scM1 (Memref.isWhole_whole _)
      (fun h => h0 ((hcond0_0 t).mp h)) ((hcond0_1 t).mpr h1) (iblk0 V c 0 t) (iblk0 V c 1 t) (iblk0 V c 2 t)
      ((dat0 V c).before 3 t d3) (xqAt V c (rs t.val)) f1 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 HR Hg]
    · isplitl [HS0]; · iexact HS0
      isplitl [HS1]
      · iexists _
        isplitl [HS1]
        · unfold owns; iexists _; isplitr
          swap; · iexact HS1
          ipureintro; rfl
        · ipureintro; exact filled_step V c t f1 (fun _ => hF)
      isplitl [HR]; · iexact HR
      iexact Hg
    isplitl [Ho]; · iexact Ho
    isplitl [H0]; · iexact H0
    isplitl [H1]; · iexact H1
    isplitl [H2]; · iexact H2
    unfold owns; iexists _; isplitr
    swap; · iexact H3
    ipureintro
    unfold outPiece
    rw [read_writes_unit_zero _ _ hz2]
    unfold out3At accRead
    exact congrArg k0_pay3 (acc_full V c t h1 _ (filled_step V c t f1 (fun _ => hF)))
  · rw [Dat.leavesExact_idle (dat0 V c) 3 t (idleAt0_3 t (fun h => h1 ((hcond0_1 t).mp h))) (noFlush0_3 t (fun h => h1 ((hcond0_1 t).mp h)))]
    by_cases h0 : t.val % 43 = 0
    · -- the first point of a row block
      iintro ⟨HP, Ho, ⟨%d0, H0⟩, ⟨%d1, H1⟩, ⟨%d2, H2⟩, ⟨%d3, H3⟩⟩
      ihave HW := (PhiS_weak V c t.val (Nat.le_of_lt t.isLt)) $$ HP
      unfold PhiW
      icases HW with ⟨⟨%s6, HS0⟩, ⟨%s7, HS1⟩, HR, Hg⟩
      iapply (kernelRun0_A c (grid0.coords t) _ _ _ _ _ _ _ _ scM0 (Memref.isWhole_whole _) scM1 (Memref.isWhole_whole _)
        ((hcond0_0 t).mpr h0) (fun h => h1 ((hcond0_1 t).mp h)) (iblk0 V c 0 t) (iblk0 V c 1 t) (iblk0 V c 2 t)
        ((dat0 V c).before 3 t d3) s6 s7 Set.univ _)
      isplitl [H0]; · iexact H0
      isplitl [H1]; · iexact H1
      isplitl [H2]; · iexact H2
      isplitl [H3]; · iexact H3
      isplitl [HS0]; · iexact HS0
      isplitl [HS1]; · iexact HS1
      rw [xqBack_eq scM0 (iblk0 V c 0 t), ← xq_first V c t h0]
      iintro ⟨H0, H1, H2, H3, HS0, HS1⟩
      isplitl [HS0 HS1 HR Hg]
      · isplitl [HS0]
        · unfold owns; iexists _; isplitr
          swap; · iexact HS0
          ipureintro
          unfold xqPiece
          rw [read_writes_unit_zero _ _ hz2, xq_first V c t h0]
        isplitl [HS1]
        · iexists _
          isplitl [HS1]
          · unfold owns; iexists _; isplitr
            swap; · iexact HS1
            ipureintro; rfl
          · ipureintro; exact filled_step V c t s7 (fun h => absurd h0 h)
        isplitl [HR]; · iexact HR
        iexact Hg
      isplitl [Ho]; · iexact Ho
      isplitl [H0]; · iexact H0
      isplitl [H1]; · iexact H1
      isplitl [H2]; · iexact H2
      iexists _; iexact H3
    · -- a point in the middle of a row block
      have hz : t.val ≠ 0 := by omega
      rw [PhiS_pos V c _ _ hz, rs_pred h0]
      iintro ⟨⟨HS0, ⟨%f1, HS1, %hF⟩, HR, Hg⟩, Ho, ⟨%d0, H0⟩, ⟨%d1, H1⟩, ⟨%d2, H2⟩, ⟨%d3, H3⟩⟩
      iapply (kernelRun0_B c (grid0.coords t) _ _ _ _ _ _ _ _ scM0 (Memref.isWhole_whole _) scM1 (Memref.isWhole_whole _)
        (fun h => h0 ((hcond0_0 t).mp h)) (fun h => h1 ((hcond0_1 t).mp h)) (iblk0 V c 0 t) (iblk0 V c 1 t) (iblk0 V c 2 t)
        ((dat0 V c).before 3 t d3) (xqAt V c (rs t.val)) f1 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR Hg]
      · isplitl [HS0]; · iexact HS0
        isplitl [HS1]
        · iexists _
          isplitl [HS1]
          · unfold owns; iexists _; isplitr
            swap; · iexact HS1
            ipureintro; rfl
          · ipureintro; exact filled_step V c t f1 (fun _ => hF)
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsR1Body.lean ====
import proofs.«146200_j26611617366616_1_alg».proof.Proof.Gen.Kernel.Launch
import proofs.«146200_j26611617366616_1_alg».proof.Proof.Gen.Kernel.Skeleton
import proofs.«146200_j26611617366616_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the product of a row block of the quantized intermediate with a row block of the third weight matrix

A grid point reads the two input blocks whole, multiplies the first by the transpose of the second into a zero
accumulator, and overwrites the output block with the product. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched the block index has not moved), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x11008 := Rect.unit (s := S512x11008) ![0, 0] S512x11008.size inb_S512x11008_S512x11008_0_0
abbrev r1_1 : Rect S512x11008 := Rect.unit (s := S512x11008) ![0, 0] S512x11008.size inb_S512x11008_S512x11008_0_0
abbrev r1_2 : Rect S512x512 := Rect.unit (s := S512x512) ![0, 0] S512x512.size inb_S512x512_S512x512_0_0

/-! ## What the body leaves in the output window's buffer -/

/-- The output block after the body, from the two input blocks: its one store, of the product. -/
def out1_2 (x0 : Vec F S512x11008 .bf16) (x1 : Vec F S512x11008 .bf16) : Vec F S512x512 .f32 :=
  View.canon [⟨r1_2, k1_pay1 (View.ld x0 r1_0) (View.ld x1 r1_1)⟩]

/-- The store covers the whole block. -/
theorem cover1_2 (p0 : Vec F S512x512 .f32) (y : S512x512.Idx) :
    ∃ pc ∈ ([⟨r1_2, p0⟩] : List (View.Piece (Elt F) S512x512 .f32)), y ∈ pc.1.set :=
  View.cover_of_tiled [⟨r1_2, p0⟩] S512x512.size (by rfl) y

/-! ## The body's triple -/

set_option maxHeartbeats 1000000 in
/-- The kernel body on whole staging memrefs, the inputs' at contents `x0`, `x1` and the output's at anything, runs
    to the continuation holding the inputs' as they were and the output's at `out1_2 x0 x1`. -/
theorem sound_kernel1 (c : Dev nD) (E : Set ℕ) (i : grid1.Coords) (arg0 : Memref sig .tc .vmem S512x11008 .bf16) (harg0 : arg0.IsWhole) (arg1 : Memref sig .tc .vmem S512x11008 .bf16) (harg1 : arg1.IsWhole) (arg2 : Memref sig .tc .vmem S512x512 .f32) (harg2 : arg2.IsWhole)
    (x0 : Vec F S512x11008 .bf16) (x1 : Vec F S512x11008 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__down_kernel i arg0 harg0 arg1 harg1 arg2 harg2) K := by
  simp only [cc1__down_kernel_eq_skeleton]; unfold cc1__down_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them; after the body at point `t` each
    input's buffer at its block and the output's at the product of the two blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRunAll.lean ====
import proofs.«146200_j26611617366616_1_alg».proof.Proof.Gen.Kernel.Launch
import proofs.«146200_j26611617366616_1_alg».proof.Proof.Gen.Kernel.Skeleton
import proofs.«146200_j26611617366616_1_alg».proof.Proof.Gen.Kernel.Points
import proofs.«146200_j26611617366616_1_alg».proof.Proof.Gen.Kernel.Regions
import proofs.«146200_j26611617366616_1_alg».proof.Proof.BitsR0Defs
import proofs.«146200_j26611617366616_1_alg».proof.Proof.BitsR0Body
import proofs.«146200_j26611617366616_1_alg».proof.Proof.BitsR1Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: the buffer contents at each boundary, the two pallas_calls as regions between
host stretches, and the launch

The program is thirteen stretches of host operations, the first pallas_call, the second pallas_call, and one last
host operation (a reshape). The buffer contents at each boundary are a fold from the launch memory: a stretch
rewrites what its operations write; a pallas_call leaves its arrays at what its write-backs make of them and every
other buffer as it was. -/

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch number 0. -/
abbrev W1 : Dev nD → Valuation τ sig (Elt F) := fun c => StableHlo.after hostOps0 (W0 m ρ c)
/-- After the host stretch number 1. -/
abbrev W2 : Dev nD → Valuation τ sig (Elt F) := fun c => StableHlo.after hostOps0_1 (W1 m ρ c)
/-- After the host stretch number 2. -/
abbrev W3 : Dev nD → Valuation τ sig (Elt F) := fun c => StableHlo.after hostOps0_2 (W2 m ρ c)
/-- After the host stretch number 3. -/
abbrev W4 : Dev nD → Valuation τ sig (Elt F) := fun c => StableHlo.after hostOps0_3 (W3 m ρ c)
/-- After the host stretch number 4. -/
abbrev W5 : Dev nD → Valuation τ sig (Elt F) := fun c => StableHlo.after hostOps0_4 (W4 m ρ c)
/-- After the host stretch number 5. -/
abbrev W6 : Dev nD → Valuation τ sig (Elt F) := fun c => StableHlo.after hostOps0_5 (W5 m ρ c)
/-- After the host stretch number 6. -/
abbrev W7 : Dev nD → Valuation τ sig (Elt F) := fun c => StableHlo.after hostOps0_6 (W6 m ρ c)
/-- After the host stretch number 7. -/
abbrev W8 : Dev nD → Valuation τ sig (Elt F) := fun c => StableHlo.after hostOps0_7 (W7 m ρ c)
/-- After the host stretch number 8. -/
abbrev W9 : Dev nD → Valuation τ sig (Elt F) := fun c => StableHlo.after hostOps0_8 (W8 m ρ c)
/-- After the host stretch number 9. -/
abbrev W10 : Dev nD → Valuation τ sig (Elt F) := fun c => StableHlo.after hostOps0_9 (W9 m ρ c)
/-- After the host stretch number 10. -/
abbrev W11 : Dev nD → Valuation τ sig (Elt F) := fun c => StableHlo.after hostOps0_10 (W10 m ρ c)
/-- After the host stretch number 11. -/
abbrev W12 : Dev nD → Valuation τ sig (Elt F) := fun c => StableHlo.after hostOps0_11 (W11 m ρ c)
/-- After the host stretch number 12. -/
abbrev W13 : Dev nD → Valuation τ sig (Elt F) := fun c => StableHlo.after hostOps0_12 (W12 m ρ c)
/-- The contents the first pallas_call is entered from, read at the TensorCore's references. -/
abbrev V13 : (c : Dev nD) → (b : Ref sig .tc) → Buf (Elt F) ((c : Thread nD τ).loc b) := fun c b => W13 m ρ c b
/-- At the first pallas_call's exit: its arrays at what the pipeline leaves (the inputs as entered, the output's
    write-backs folded), every other buffer as entered. -/
def W14 (c : Dev nD) : Valuation τ sig (Elt F) :=
  Pipeline.withArrays spec0 c (W13 m ρ c) fun w => (dat0 (V13 m ρ) c).arrAt w cfg0.N
theorem W14_arr (c : Dev nD) (w : Fin cfg0.W) :
    W14 m ρ c (Proc.devRef .tc (Pipeline.arrRef spec0 w)) = (dat0 (V13 m ρ) c).arrAt w cfg0.N := by
  unfold W14; exact Pipeline.withArrays_arr spec0 launch0.win.arr_inj c _ _ w
theorem W14_of_ne (c : Dev nD) (b : Ref sig .tc) (hb : ∀ w, Pipeline.arrRef spec0 w ≠ b) :
    W14 m ρ c (Proc.devRef .tc b) = W13 m ρ c (Proc.devRef .tc b) := by
  unfold W14; exact Pipeline.withArrays_of_ne spec0 c _ _ b hb
/-- The same read at the TensorCore's references: what the second pallas_call is entered from. -/
abbrev V14 : (c : Dev nD) → (b : Ref sig .tc) → Buf (Elt F) ((c : Thread nD τ).loc b) := fun c b => W14 m ρ c b
theorem hF0 (c : Dev nD) (w : Fin cfg0.W) : (dat0 (V13 m ρ) c).arrAt w cfg0.N = V14 m ρ c (Pipeline.arrRef spec0 w) :=
  (W14_arr m ρ c w).symm
theorem hrest0 (c : Dev nD) : ∀ b, b ∉ Finset.univ.image (Pipeline.arrRef spec0) → V14 m ρ c b = V13 m ρ c b :=
  fun b hb => W14_of_ne m ρ c b fun w e => hb (Finset.mem_image.mpr ⟨w, Finset.mem_univ _, e⟩)

/-- At the second pallas_call's exit. -/
def W15 (c : Dev nD) : Valuation τ sig (Elt F) :=
  Pipeline.withArrays spec1 c (W14 m ρ c) fun w => (dat1 (V14 m ρ) c).arrAt w cfg1.N
theorem W15_arr (c : Dev nD) (w : Fin cfg1.W) :
    W15 m ρ c (Proc.devRef .tc (Pipeline.arrRef spec1 w)) = (dat1 (V14 m ρ) c).arrAt w cfg1.N := by
  unfold W15; exact Pipeline.withArrays_arr spec1 launch1.win.arr_inj c _ _ w
theorem W15_of_ne (c : Dev nD) (b : Ref sig .tc) (hb : ∀ w, Pipeline.arrRef spec1 w ≠ b) :
    W15 m ρ c (Proc.devRef .tc b) = W14 m ρ c (Proc.devRef .tc b) := by
  unfold W15; exact Pipeline.withArrays_of_ne spec1 c _ _ b hb
abbrev V15 : (c : Dev nD) → (b : Ref sig .tc) → Buf (Elt F) ((c : Thread nD τ).loc b) := fun c b => W15 m ρ c b
theorem hF1 (c : Dev nD) (w : Fin cfg1.W) : (dat1 (V14 m ρ) c).arrAt w cfg1.N = V15 m ρ c (Pipeline.arrRef spec1 w) :=
  (W15_arr m ρ c w).symm
theorem hrest1 (c : Dev nD) : ∀ b, b ∉ Finset.univ.image (Pipeline.arrRef spec1) → V15 m ρ c b = V14 m ρ c b :=
  fun b hb => W15_of_ne m ρ c b fun w e => hb (Finset.mem_image.mpr ⟨w, Finset.mem_univ _, e⟩)

/-- After the last host operation: the contents the program returns with. -/
abbrev W16 : Dev nD → Valuation τ sig (Elt F) := fun c => StableHlo.after hostOps2 (W15 m ρ c)

/-! ### What the fold leaves where -/

/-- A reference no host stretch before the first pallas_call writes holds at its entry what it held at launch. -/
theorem W13_of (c : Dev nD) (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) (h8 : r ∉ hostOps0_8_W) (h9 : r ∉ hostOps0_9_W) (h10 : r ∉ hostOps0_10_W) (h11 : r ∉ hostOps0_11_W) (h12 : r ∉ hostOps0_12_W) :
    W13 m ρ c (Proc.devRef .tc r) = m ((c : Thread nD τ).loc r) :=
  (StableHlo.after_of_writes_sub hostOps0_12 _ hostOps0_12_writes h12).trans <|
  (StableHlo.after_of_writes_sub hostOps0_11 _ hostOps0_11_writes h11).trans <|
  (StableHlo.after_of_writes_sub hostOps0_10 _ hostOps0_10_writes h10).trans <|
  (StableHlo.after_of_writes_sub hostOps0_9 _ hostOps0_9_writes h9).trans <|
  (StableHlo.after_of_writes_sub hostOps0_8 _ hostOps0_8_writes h8).trans <|
  (StableHlo.after_of_writes_sub hostOps0_7 _ hostOps0_7_writes h7).trans <|
  (StableHlo.after_of_writes_sub hostOps0_6 _ hostOps0_6_writes h6).trans <|
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans <|
  rfl

/-- The contents at the first pallas_call's entry are the thirteen stretches' in a row from the launch memory. -/
theorem W13_eq (c : Dev nD) : W13 m ρ c = StableHlo.after (hostOps0 ++ hostOps0_1 ++ hostOps0_2 ++ hostOps0_3 ++ hostOps0_4 ++ hostOps0_5 ++ hostOps0_6 ++ hostOps0_7 ++ hostOps0_8 ++ hostOps0_9 ++ hostOps0_10 ++ hostOps0_11 ++ hostOps0_12) (W0 m ρ c) := by
  simp only [StableHlo.after_append]

/-- Argument 0 ends as launched: no host operation and no pallas_call writes it. -/
theorem W16_main_arg0 (c : Dev nD) : W16 m ρ c (Proc.devRef .tc main_arg0) = m ((c : Thread nD τ).loc main_arg0) :=
  (StableHlo.after_of_writes_sub hostOps2 _ hostOps2_writes (by decide)).trans <|
  (W15_of_ne m ρ c main_arg0 (by decide)).trans <|
  (W14_of_ne m ρ c main_arg0 (by decide)).trans <|
  W13_of m ρ c main_arg0 (by decide) (by decide) (by decide) (by decide) (by decide) (by decide) (by decide) (by decide) (by decide) (by decide) (by decide) (by decide) (by decide)

/-- Argument 1 ends as launched: no host operation and no pallas_call writes it. -/
theorem W16_main_arg1 (c : Dev nD) : W16 m ρ c (Proc.devRef .tc main_arg1) = m ((c : Thread nD τ).loc main_arg1) :=
  (StableHlo.after_of_writes_sub hostOps2 _ hostOps2_writes (by decide)).trans <|
  (W15_of_ne m ρ c main_arg1 (by decide)).trans <|
  (W14_of_ne m ρ c main_arg1 (by decide)).trans <|
  W13_of m ρ c main_arg1 (by decide) (by decide) (by decide) (by decide) (by decide) (by decide) (by decide) (by decide) (by decide) (by decide) (by decide) (by decide) (by decide)

/-- Argument 2 ends as launched: no host operation and no pallas_call writes it. -/
theorem W16_main_arg2 (c : Dev nD) : W16 m ρ c (Proc.devRef .tc main_arg2) = m ((c : Thread nD τ).loc main_arg2) :=
  (StableHlo.after_of_writes_sub hostOps2 _ hostOps2_writes (by decide)).trans <|
  (W15_of_ne m ρ c main_arg2 (by decide)).trans <|
  (W14_of_ne m ρ c main_arg2 (by decide)).trans <|
  W13_of m ρ c main_arg2 (by decide) (by decide) (by decide) (by decide) (by decide) (by decide) (by decide) (by decide) (by decide) (by decide) (by decide) (by decide) (by decide)

/-- Argument 3 ends as launched: no host operation and no pallas_call writes it. -/
theorem W16_main_arg3 (c : Dev nD) : W16 m ρ c (Proc.devRef .tc main_arg3) = m ((c : Thread nD τ).loc main_arg3) :=
  (StableHlo.after_of_writes_sub hostOps2 _ hostOps2_writes (by decide)).trans <|
  (W15_of_ne m ρ c main_arg3 (by decide)).trans <|
  (W14_of_ne m ρ c main_arg3 (by decide)).trans <|
  W13_of m ρ c main_arg3 (by decide) (by decide) (by decide) (by decide) (by decide) (by decide) (by decide) (by decide) (by decide) (by decide) (by decide) (by decide) (by decide)

/-- Argument 4 ends as launched: no host operation and no pallas_call writes it. -/
theorem W16_main_arg4 (c : Dev nD) : W16 m ρ c (Proc.devRef .tc main_arg4) = m ((c : Thread nD τ).loc main_arg4) :=
  (StableHlo.after_of_writes_sub hostOps2 _ hostOps2_writes (by decide)).trans <|
  (W15_of_ne m ρ c main_arg4 (by decide)).trans <|
  (W14_of_ne m ρ c main_arg4 (by decide)).trans <|
  W13_of m ρ c main_arg4 (by decide) (by decide) (by decide) (by decide) (by decide) (by decide) (by decide) (by decide) (by decide) (by decide) (by decide) (by decide) (by decide)

/-- Argument 5 ends as launched: no host operation and no pallas_call writes it. -/
theorem W16_main_arg5 (c : Dev nD) : W16 m ρ c (Proc.devRef .tc main_arg5) = m ((c : Thread nD τ).loc main_arg5) :=
  (StableHlo.after_of_writes_sub hostOps2 _ hostOps2_writes (by decide)).trans <|
  (W15_of_ne m ρ c main_arg5 (by decide)).trans <|
  (W14_of_ne m ρ c main_arg5 (by decide)).trans <|
  W13_of m ρ c main_arg5 (by decide) (by decide) (by decide) (by decide) (by decide) (by decide) (by decide) (by decide) (by decide) (by decide) (by decide) (by decide) (by decide)

/-- Argument 6 ends as launched: no host operation and no pallas_call writes it. -/
theorem W16_main_arg6 (c : Dev nD) : W16 m ρ c (Proc.devRef .tc main_arg6) = m ((c : Thread nD τ).loc main_arg6) :=
  (StableHlo.after_of_writes_sub hostOps2 _ hostOps2_writes (by decide)).trans <|
  (W15_of_ne m ρ c main_arg6 (by decide)).trans <|
  (W14_of_ne m ρ c main_arg6 (by decide)).trans <|
  W13_of m ρ c main_arg6 (by decide) (by decide) (by decide) (by decide) (by decide) (by decide) (by decide) (by decide) (by decide) (by decide) (by decide) (by decide) (by decide)

/-- The first pallas_call's output array, as the second finds it. -/
theorem W14_v44 (c : Dev nD) : V14 m ρ c main_v44 = (dat0 (V13 m ρ) c).arrAt 3 cfg0.N := W14_arr m ρ c 3
/-- The second pallas_call's other input is as the first pallas_call was entered with it. -/
theorem W14_v41 (c : Dev nD) : V14 m ρ c main_v41 = V13 m ρ c main_v41 := W14_of_ne m ρ c main_v41 (by decide)

/-- The returned array: the second pallas_call's output array, reshaped. -/
theorem W16_out (c : Dev nD) : W16 m ρ c (Proc.devRef .tc main_v46)
    = fun i => shapeCast S2x2048x4096 ((dat1 (V14 m ρ) c).arrAt 2 cfg1.N) shapeCasts_S4096x4096_S2x2048x4096 i := by
  rw [← W15_arr m ρ c 2]
  exact (StableHlo.reshape_result main_v45 main_v46 rfl shapeCasts_S4096x4096_S2x2048x4096 ⟨by decide, rfl⟩ ⟨by decide, rfl⟩ (W15 m ρ c)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V13 m ρ) c
  | ⟨1, _⟩ => fun c => dat1 (V14 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register at
    some state. -/
abbrev Tₙ (c : Dev nD) : sProp 𝕄 := iprop(StableHlo.held (c : Thread nD τ) (Pipeline.ucRefs τ sig) (W16 m ρ c) ∗ ∃ r, prngReg c r)

/-! ## The pallas_calls as segments -/

set_option backward.isDefEq.respectTransparency.types false in
/-- Pallas_call 0 over the thread state: entered from every unscoped buffer at the contents before it, left at the
    contents after it. Its arrays are split out of the unscoped buffers and put back at the exit contents; the
    generator register goes into the region invariant and comes out; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V13 m ρ) c).loose
  hwaits := Pipeline.hwaits_of_owed_zero _ _ _ _ L lv 0 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec0 c (V13 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (V13 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (V13 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V13 m ρ c) (V14 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 over the thread state: entered from every unscoped buffer at the contents before it, left at the
    contents after it. Its arrays are split out of the unscoped buffers and put back at the exit contents; the
    generator register goes into the region invariant and comes out; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V14 m ρ) c).loose
  hwaits := Pipeline.hwaits_of_owed_zero _ _ _ _ L lv 1 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec1 c (V14 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V14 m ρ c) (V15 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 16 segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .region (reg0 m ρ),
    .region (reg1 m ρ),
    .host (hseg hostOps2 hostOps2_sub hostOps2_fresh (W15 m ρ)) ]

set_option backward.isDefEq.respectTransparency.types false in
/-- THE RUN: from any memory with zero counters, every weakly fair execution of the program on the TensorCores
    terminates, nothing faulting, and every final state holds every unscoped buffer at the last contents `W16`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W16 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => show iprop(StableHlo.held (c : Thread nD τ) (Pipeline.ucRefs τ sig) (W16 m ρ c) ∗ R c)
        ⊢ iprop(Tₙ m ρ c ∗ ∃ W, owes (c : Thread nD τ) (0 : CellTallies nD τ sig Unit) W) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun _ h => h)

/-- THE FRAME: every weakly fair execution of the program terminates, nothing faulting, and every final state has
    the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c)⟩) (run_all m ρ)

end Cert.Kernel.Hand

end
-- ==== Proof.KHost.lean ====
/-
  What the host computes before the first kernel launch, as four functions of the program's arguments.

  Each weight matrix `w` is ternary-quantized with its scale `sc` (a one-element array): with `μ` the mean of
  `|w|` over the whole matrix (the sum over both axes divided by the number of entries), the entry `w / (μ + ε)` is
  rounded to the nearest integer, clipped to `[-1, 1]`, multiplied by `μ` and by the scale `sc[0]`, and narrowed to
  bf16. The scale reaches every entry as the one-element array recast to a scalar and broadcast. The activations `x`
  of shape `[2, 2048, 4096]` are recast to `[4096, 4096]` and narrowed to bf16.

  Each definition is the composition of the host operations of the program's first stretch that produce the value, in
  the program's own order and nesting, so that it is what those operations leave in the value's buffer.
-/
import proofs.«146200_j26611617366616_1_alg».proof.Proof.Gen.KernelIdeal

noncomputable section

namespace Cert.KernelIdeal.Hand

open Idealize.ShloMosaic

variable {F : FTy → Type} [FloatOps F]

/-- The gate weights as the first kernel reads them: `w` ternary-quantized with scale `sc`. -/
def kwg (w : (⟨S11008x4096, .f32⟩ : BufTy).Contents (Elt F)) (sc : (⟨S1, .f32⟩ : BufTy).Contents (Elt F)) :
    (⟨S11008x4096, .bf16⟩ : BufTy).Contents (Elt F) :=
  truncf .bf16
    (mulf
      (mulf
        (minimumf (broadcastInDim S11008x4096 ![] Gen.bcast_S_S11008x4096 (id (constant S_ .f32 0x3F800000#32)))
          (maximumf (broadcastInDim S11008x4096 ![] Gen.bcast_S_S11008x4096 (id (constant S_ .f32 0xBF800000#32)))
            (Host.roundeven
              (Host.divf w
                (broadcastInDim S11008x4096 ![] Gen.bcast_S_S11008x4096
                  (addf
                    (Host.divf (Host.reduceAdd (Host.absf w) (constant S_ .f32 0x00000000#32) Gen.reducesTo_S11008x4096_S_d0_1 Gen.h_S_)
                      (constant S_ .f32 0x4C2C0000#32))
                    (constant S_ .f32 0x3727C5AC#32)))))))
        (broadcastInDim S11008x4096 ![] Gen.bcast_S_S11008x4096
          (Host.divf (Host.reduceAdd (Host.absf w) (constant S_ .f32 0x00000000#32) Gen.reducesTo_S11008x4096_S_d0_1 Gen.h_S_)
            (constant S_ .f32 0x4C2C0000#32))))
      (broadcastInDim S11008x4096 ![] Gen.bcast_S_S11008x4096 (shapeCast S_ sc Gen.shapeCasts_S1_S_)))
    Gen.bitsLt_bf16_f32

/-- The up weights as the first kernel reads them: the same quantization of the second weight matrix. -/
def kwu (w : (⟨S11008x4096, .f32⟩ : BufTy).Contents (Elt F)) (sc : (⟨S1, .f32⟩ : BufTy).Contents (Elt F)) :
    (⟨S11008x4096, .bf16⟩ : BufTy).Contents (Elt F) :=
  truncf .bf16
    (mulf
      (mulf
        (minimumf (broadcastInDim S11008x4096 ![] Gen.bcast_S_S11008x4096 (id (constant S_ .f32 0x3F800000#32)))
          (maximumf (broadcastInDim S11008x4096 ![] Gen.bcast_S_S11008x4096 (id (constant S_ .f32 0xBF800000#32)))
            (Host.roundeven
              (Host.divf w
                (broadcastInDim S11008x4096 ![] Gen.bcast_S_S11008x4096
                  (addf
                    (Host.divf (Host.reduceAdd (Host.absf w) (constant S_ .f32 0x00000000#32) Gen.reducesTo_S11008x4096_S_d0_1 Gen.h_S_)
                      (constant S_ .f32 0x4C2C0000#32))
                    (constant S_ .f32 0x3727C5AC#32)))))))
        (broadcastInDim S11008x4096 ![] Gen.bcast_S_S11008x4096
          (Host.divf (Host.reduceAdd (Host.absf w) (constant S_ .f32 0x00000000#32) Gen.reducesTo_S11008x4096_S_d0_1 Gen.h_S_)
            (constant S_ .f32 0x4C2C0000#32))))
      (broadcastInDim S11008x4096 ![] Gen.bcast_S_S11008x4096 (shapeCast S_ sc Gen.shapeCasts_S1_S_)))
    Gen.bitsLt_bf16_f32

/-- The down weights as the second kernel reads them: the same quantization of the `[4096, 11008]` matrix. -/
def kwd (w : (⟨S4096x11008, .f32⟩ : BufTy).Contents (Elt F)) (sc : (⟨S1, .f32⟩ : BufTy).Contents (Elt F)) :
    (⟨S4096x11008, .bf16⟩ : BufTy).Contents (Elt F) :=
  truncf .bf16
    (mulf
      (mulf
        (minimumf (broadcastInDim S4096x11008 ![] Gen.bcast_S_S4096x11008 (id (constant S_ .f32 0x3F800000#32)))
          (maximumf (broadcastInDim S4096x11008 ![] Gen.bcast_S_S4096x11008 (id (constant S_ .f32 0xBF800000#32)))
            (Host.roundeven
              (Host.divf w
                (broadcastInDim S4096x11008 ![] Gen.bcast_S_S4096x11008
                  (addf
                    (Host.divf (Host.reduceAdd (Host.absf w) (constant S_ .f32 0x00000000#32) Gen.reducesTo_S4096x11008_S_d0_1 Gen.h_S_)
                      (constant S_ .f32 0x4C2C0000#32))
                    (constant S_ .f32 0x3727C5AC#32)))))))
        (broadcastInDim S4096x11008 ![] Gen.bcast_S_S4096x11008
          (Host.divf (Host.reduceAdd (Host.absf w) (constant S_ .f32 0x00000000#32) Gen.reducesTo_S4096x11008_S_d0_1 Gen.h_S_)
            (constant S_ .f32 0x4C2C0000#32))))
      (broadcastInDim S4096x11008 ![] Gen.bcast_S_S4096x11008 (shapeCast S_ sc Gen.shapeCasts_S1_S_)))
    Gen.bitsLt_bf16_f32

/-- The activations as the first kernel reads them: the `[2, 2048, 4096]` array as `[4096, 4096]` rows, narrowed. -/
def kx (x : (⟨S2x2048x4096, .f32⟩ : BufTy).Contents (Elt F)) : (⟨S4096x4096, .bf16⟩ : BufTy).Contents (Elt F) :=
  truncf .bf16 (shapeCast S4096x4096 x Gen.shapeCasts_S2x2048x4096_S4096x4096) Gen.bitsLt_bf16_f32

end Cert.KernelIdeal.Hand

end
-- ==== Proof.KHostRead.lean ====
/-
  The buffers the two kernel launches read, after the host operations that precede the first launch: each holds
  the function of the program's arguments that Proof/KHost.lean names (`kwg`, `kwu`, `kwd`, `kx`). The host
  operations before the first launch are seventy-four in thirteen stretches; each result buffer is written once, so a
  buffer's contents after the last stretch are its operation's function of its operands' contents, composed back to
  the arguments.
-/
import proofs.«146200_j26611617366616_1_alg».proof.Proof.KHost
import proofs.«146200_j26611617366616_1_alg».proof.Proof.Gen.KernelIdeal.Regions

noncomputable section

namespace Cert.KernelIdeal.Hand

open Idealize.ShloMosaic Idealize.ShloMosaic.TcCoe Idealize.ShloMosaic.StableHlo Idealize.SL.Sem

variable {F : FTy → Type} [FloatOps F]
variable (m : (ℓ : Loc nD τ sig) → Buf (Elt F) ℓ) (c : Dev nD)

/-! ## What the first stretch of host operations leaves in the kernels' operand buffers

`Gen.V13 m c` is core `c`'s buffers after the thirteen host stretches that precede the first kernel launch, from
the launch memory `m`. Each operand buffer of the two launches holds the corresponding function of the arguments. -/

set_option maxRecDepth 8192 in
set_option maxHeartbeats 8000000 in
/-- The gate-weight operand: the first weight matrix quantized with the first scale. -/
theorem read_v13 : Gen.V13 m c main_v13
    = kwg (m ((c : Thread nD τ).loc main_arg1)) (m ((c : Thread nD τ).loc main_arg4)) := by
  dsimp only [Gen.V13, Gen.V12, Gen.V11, Gen.V10, Gen.V9, Gen.V8, Gen.V7, Gen.V6, Gen.V5, Gen.V4, Gen.V3, Gen.V2, Gen.V1, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12]
  after_results_simp
  rfl

set_option maxRecDepth 8192 in
set_option maxHeartbeats 8000000 in
/-- The up-weight operand: the second weight matrix quantized with the second scale. -/
theorem read_v27 : Gen.V13 m c main_v27
    = kwu (m ((c : Thread nD τ).loc main_arg2)) (m ((c : Thread nD τ).loc main_arg5)) := by
  dsimp only [Gen.V13, Gen.V12, Gen.V11, Gen.V10, Gen.V9, Gen.V8, Gen.V7, Gen.V6, Gen.V5, Gen.V4, Gen.V3, Gen.V2, Gen.V1, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12]
  after_results_simp
  rfl

set_option maxRecDepth 8192 in
set_option maxHeartbeats 8000000 in
/-- The down-weight operand: the third weight matrix quantized with the third scale. -/
theorem read_v41 : Gen.V13 m c main_v41
    = kwd (m ((c : Thread nD τ).loc main_arg3)) (m ((c : Thread nD τ).loc main_arg6)) := by
  dsimp only [Gen.V13, Gen.V12, Gen.V11, Gen.V10, Gen.V9, Gen.V8, Gen.V7, Gen.V6, Gen.V5, Gen.V4, Gen.V3, Gen.V2, Gen.V1, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12]
  after_results_simp
  rfl

set_option maxRecDepth 8192 in
set_option maxHeartbeats 8000000 in
/-- The activation operand: the activations as `[4096, 4096]` rows, narrowed. -/
theorem read_v43 : Gen.V13 m c main_v43 = kx (m ((c : Thread nD τ).loc main_arg0)) := by
  dsimp only [Gen.V13, Gen.V12, Gen.V11, Gen.V10, Gen.V9, Gen.V8, Gen.V7, Gen.V6, Gen.V5, Gen.V4, Gen.V3, Gen.V2, Gen.V1, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12]
  after_results_simp
  rfl

end Cert.KernelIdeal.Hand

end
-- ==== Proof.BrWeights.lean ====
/-
  The host-side operands of the two kernels are the reference's values.

  The kernel's program and the reference quantize each weight matrix by the same scalar operations in the same order:
  the mean of `|w|` over the matrix, `w / (mean + ε)` rounded and clipped to `[-1, 1]`, times the mean, times the
  scale. They differ in how the scale's one entry reaches every position (a recast to a scalar then a broadcast, against
  two broadcasts through `[1, 1]`) — both read the one entry — and in a final narrowing to bf16, the identity on
  extended reals. The activations' `[4096, 4096]` operand reads row `R` at row `(R / 2048, R % 2048)` of the
  `[2, 2048, 4096]` array.
-/
import proofs.«146200_j26611617366616_1_alg».proof.Proof.KHost
import proofs.«146200_j26611617366616_1_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

namespace Cert.Bridge

open Idealize.ShloMosaic Idealize.ShloMosaic.ValueIdx
open scoped BigOperators

/-- A one-element array recast to a scalar and broadcast over a shape reads, at every index, the array's one entry. -/
theorem scalar_of_one_apply {t : Shape} (sc : (⟨1, ![1]⟩ : Shape).Idx → EReal)
    (hc : (⟨1, ![1]⟩ : Shape).ShapeCasts ⟨0, ![]⟩) (hb : (⟨0, ![]⟩ : Shape).BroadcastsInDim t (![] : Fin 0 → Fin t.rank))
    (i : t.Idx) (k : (⟨1, ![1]⟩ : Shape).Idx) :
    broadcastInDim t ![] hb (shapeCast ⟨0, ![]⟩ sc hc) i = sc k := by
  refine (broadcastInDim_apply _ hb _ i (fun a => a.elim0) (fun a => a.elim0)).trans ?_
  refine shapeCast_apply sc hc _ k ?_
  have h1 : (⟨1, ![1]⟩ : Shape).numel = 1 := by decide
  have h0 : (⟨0, ![]⟩ : Shape).numel = 1 := by decide
  have := ((⟨1, ![1]⟩ : Shape).rowMajor k).isLt
  have := ((⟨0, ![]⟩ : Shape).rowMajor (fun a => a.elim0)).isLt
  omega

open Cert.ReferenceIdeal.Read in
/-- The gate weights: the kernel's host chain and the reference's are the same function of the matrix, times the same
    scale entry. -/
theorem kwg_eq (w : (⟨Cert.KernelIdeal.S11008x4096, .f32⟩ : BufTy).Contents (Elt Ideal))
    (sc : (⟨Cert.KernelIdeal.S1, .f32⟩ : BufTy).Contents (Elt Ideal)) :
    ∀ i, Cert.KernelIdeal.Hand.kwg (F := Ideal) w sc i = Cert.ReferenceIdeal.Read.val_main_v31 (F := Ideal) w sc i := by
  intro i
  unfold Cert.KernelIdeal.Hand.kwg
  rw [val_main_v31_apply, val_main_v30_apply, val_main_v29_apply, truncf_apply, mulf_apply,
    scalar_of_one_apply sc _ _ i (idx_main_v29 (idx_main_v30 i))]
  rfl

open Cert.ReferenceIdeal.Read in
/-- The up weights likewise. -/
theorem kwu_eq (w : (⟨Cert.KernelIdeal.S11008x4096, .f32⟩ : BufTy).Contents (Elt Ideal))
    (sc : (⟨Cert.KernelIdeal.S1, .f32⟩ : BufTy).Contents (Elt Ideal)) :
    ∀ i, Cert.KernelIdeal.Hand.kwu (F := Ideal) w sc i = Cert.ReferenceIdeal.Read.val_main_v45 (F := Ideal) w sc i := by
  intro i
  unfold Cert.KernelIdeal.Hand.kwu
  rw [val_main_v45_apply, val_main_v44_apply, val_main_v43_apply, truncf_apply, mulf_apply,
    scalar_of_one_apply sc _ _ i (idx_main_v43 (idx_main_v44 i))]
  rfl

open Cert.ReferenceIdeal.Read in
/-- The down weights likewise, on the `[4096, 11008]` matrix. -/
theorem kwd_eq (w : (⟨Cert.KernelIdeal.S4096x11008, .f32⟩ : BufTy).Contents (Elt Ideal))
    (sc : (⟨Cert.KernelIdeal.S1, .f32⟩ : BufTy).Contents (Elt Ideal)) :
    ∀ i, Cert.KernelIdeal.Hand.kwd (F := Ideal) w sc i = Cert.ReferenceIdeal.Read.val_main_v77 (F := Ideal) w sc i := by
  intro i
  unfold Cert.KernelIdeal.Hand.kwd
  rw [val_main_v77_apply, val_main_v76_apply, val_main_v75_apply, truncf_apply, mulf_apply,
    scalar_of_one_apply sc _ _ i (idx_main_v75 (idx_main_v76 i))]
  rfl

/-- The activations as rows: row `R` of the `[4096, 4096]` operand is row `(R / 2048, R % 2048)` of the
    `[2, 2048, 4096]` array (the same row-major position), and narrowing is the identity on extended reals. -/
theorem kx_eq (x : (⟨Cert.KernelIdeal.S2x2048x4096, .f32⟩ : BufTy).Contents (Elt Ideal)) :
    ∀ (R : Fin 4096) (k : Fin 4096), Cert.KernelIdeal.Hand.kx (F := Ideal) x (ValueIdx.ix2 R k)
      = x (ValueIdx.ix3 (⟨R.val / 2048, by omega⟩ : Fin 2) (⟨R.val % 2048, Nat.mod_lt _ (by decide)⟩ : Fin 2048) k) := by
  intro R k
  unfold Cert.KernelIdeal.Hand.kx
  rw [truncf_apply]
  refine shapeCast_apply x _ _ _ ?_
  rw [Shape.rowMajor_val_three, Shape.rowMajor_val_two]
  show (R.val / 2048 * 2048 + R.val % 2048) * 4096 + k.val = R.val * 4096 + k.val
  have := Nat.div_add_mod R.val 2048
  omega

end Cert.Bridge

end
-- ==== Proof.R0Blocks.lean ====
import proofs.«146200_j26611617366616_1_alg».proof.Proof.R0Defs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

/-! # Region 0: each block read at an index of its array

A block's element sits in its array, on each axis, at the block index times the block size plus its coordinate inside
the block. Point `t` of the 8 x 43 grid has row-block number `t / 43` and column-slice number `t % 43`: the rows of
`x` and of the output move with the first, the rows of the two weight matrices with the second. -/

variable (V : (c : Dev nD) → (b : Ref sig .tc) → Buf (Elt F) ((c : Thread nD τ).loc b))

/-- The four printed index maps, decided once over the grid. -/
theorem idx_facts0 : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = t.val / 43 ∧ win0_3.index t (1 : Fin 2) = 0 :=
  (by decide +kernel : ∀ t : Fin grid0.N, _)

/-- A point's row-block number is below 8, its slice number below 43. -/
theorem pt_bounds (t : Fin cfg0.N) : t.val / 43 < 8 ∧ t.val % 43 < 43 := by
  have h : t.val < 344 := lt_of_lt_of_eq t.isLt (show cfg0.N = 344 from N_0)
  omega

/-- Row `r` of the block of `x` at point `t` is row `(t / 43) * 512 + r` of `x`. -/
theorem iblk0_0_apply (c : Dev nD) (t : Fin cfg0.N) (r : Fin 512) (k : Fin 4096) :
    (iblk0 V c 0 t : Vec F S512x4096 .bf16) (ix2 r k)
      = (V c main_v43 : S4096x4096.Idx → Elt F .bf16) (ix2 ⟨(t.val / 43) * 512 + r.val, by have := (pt_bounds t).1; have := r.isLt; omega⟩ k) := by
  obtain ⟨e0, e1, -⟩ := idx_facts0 t
  unfold iblk0
  rw [View.read_apply]
  show V c main_v43 _ = V c main_v43 _
  congr 1
  funext a
  apply Fin.ext
  match a with
  | ⟨0, _⟩ => show win0_0.index t 0 * 512 + 1 * r.val = (t.val / 43) * 512 + r.val; rw [e0]; omega
  | ⟨1, _⟩ => show win0_0.index t 1 * 4096 + 1 * k.val = k.val; rw [e1]; omega

/-- Row `q` of the block of the gate weights at point `t` is row `(t % 43) * 256 + q` of the matrix. -/
theorem iblk0_1_apply (c : Dev nD) (t : Fin cfg0.N) (q : Fin 256) (k : Fin 4096) :
    (iblk0 V c 1 t : Vec F S256x4096 .bf16) (ix2 q k)
      = (V c main_v13 : S11008x4096.Idx → Elt F .bf16) (ix2 ⟨(t.val % 43) * 256 + q.val, by have := (pt_bounds t).2; have := q.isLt; omega⟩ k) := by
  obtain ⟨-, -, e0, e1, -⟩ := idx_facts0 t
  unfold iblk0
  rw [View.read_apply]
  show V c main_v13 _ = V c main_v13 _
  congr 1
  funext a
  apply Fin.ext
  match a with
  | ⟨0, _⟩ => show win0_1.index t 0 * 256 + 1 * q.val = (t.val % 43) * 256 + q.val; rw [e0]; omega
  | ⟨1, _⟩ => show win0_1.index t 1 * 4096 + 1 * k.val = k.val; rw [e1]; omega

/-- Row `q` of the block of the up weights at point `t` is row `(t % 43) * 256 + q` of the matrix. -/
theorem iblk0_2_apply (c : Dev nD) (t : Fin cfg0.N) (q : Fin 256) (k : Fin 4096) :
    (iblk0 V c 2 t : Vec F S256x4096 .bf16) (ix2 q k)
      = (V c main_v27 : S11008x4096.Idx → Elt F .bf16) (ix2 ⟨(t.val % 43) * 256 + q.val, by have := (pt_bounds t).2; have := q.isLt; omega⟩ k) := by
  obtain ⟨-, -, -, -, e0, e1, -⟩ := idx_facts0 t
  unfold iblk0
  rw [View.read_apply]
  show V c main_v27 _ = V c main_v27 _
  congr 1
  funext a
  apply Fin.ext
  match a with
  | ⟨0, _⟩ => show win0_2.index t 0 * 256 + 1 * q.val = (t.val % 43) * 256 + q.val; rw [e0]; omega
  | ⟨1, _⟩ => show win0_2.index t 1 * 4096 + 1 * k.val = k.val; rw [e1]; omega

end Cert.KernelIdeal.Hand

end
-- ==== Proof.BrQuant4.lean ====
/-
  The int4 quantization of a block of 512 rows of the activations, on the two sides.

  For a row with entries `a_k` (k < 4096) put `S = ∑ k, |a_k|`, `β = S / 4096` (the row's mean absolute value) and
  `c = √7` as a float constant. The quantized entry is `min 7 (max (-8) (roundeven (a_k · c / (β + ε)))) · (β · c) / c`
  (`q4 a_k S` below). The kernel computes it on a `[512, 4096]` block: a sum over the lanes, kept as a column
  `[512, 1]` and broadcast back over the lanes. The reference computes it on the whole `[2, 2048, 4096]` array: a sum
  over the last axis, kept as `[2, 2048, 1]` and broadcast back; its clip bounds are the integers `-8` and `7`
  converted to floats. Every format change is the identity on extended reals, so both sides are `q4` of the same
  entry and the same row sum once the block's row `r` is row `(b r, s r)` of the array (`pay1_eq`).
-/
import proofs.«146200_j26611617366616_1_alg».proof.Proof.Gen.KernelIdeal.Skeleton
import proofs.«146200_j26611617366616_1_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

namespace Cert.Bridge

open Idealize.ShloMosaic Idealize.ShloMosaic.ValueIdx
open scoped BigOperators

/-! ## Keepdims column forms of the layout operations, read at an index -/

/-- An `[a]` vector cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Two pointwise operations at an index, at the ideal values -/

/-- Rounding to the nearest integer, ties to even, at an index rounds the element. -/
theorem roundeven_apply {s : Shape} {φ : FTy} (a : FVec Ideal s φ) (i : s.Idx) :
    roundeven a i = Ideal.liftRound Ideal.roundHalfEven (a i) := rfl
/-- The absolute value at an index is the larger of the element and its negation. -/
theorem absf_apply {s : Shape} {φ : FTy} (a : FVec Ideal s φ) (i : s.Idx) : absf a i = max (a i) (-(a i)) := rfl

/-- The int4 quantization of one entry `a` of a row whose absolute values sum to `S`: with `β = S / 4096` the
    row's mean absolute value and `c` the constant `√7`, the entry `a·c / (β + ε)` rounded to the nearest integer,
    clipped to `[-8, 7]`, times `β·c`, divided by `c`. -/
def q4 (a S : EReal) : EReal :=
  Ideal.div
    (min (Ideal.ofBits .f32 0x40E00000#32)
        (max (Ideal.ofBits .f32 0xC1000000#32)
          (Ideal.liftRound Ideal.roundHalfEven
            (Ideal.div (a * Ideal.ofBits .f32 0x402953FD#32)
              (Ideal.div S (Ideal.ofBits .f32 0x45800000#32) + Ideal.ofBits .f32 0x3727C5AC#32))))
      * (Ideal.div S (Ideal.ofBits .f32 0x45800000#32) * Ideal.ofBits .f32 0x402953FD#32))
    (Ideal.ofBits .f32 0x402953FD#32)

/-- The sum over the lanes of a `[512, 4096]` block, read at row `r`: the sum of that row's 4096 entries. -/
theorem laneSum_apply (src : FVec Ideal Cert.KernelIdeal.S512x4096 .f32) (hφ : FKind.Formats .f32)
    (hacc : (0x00000000#32 : BitVec 32) = 0x00000000#32) (r : Fin 512) :
    multiReduction .add [1] Cert.KernelIdeal.S512 src 0x00000000#32 Cert.KernelIdeal.Gen.reduces_S512x4096_S512 hφ hacc (ix1 r)
      = ∑ k : Fin 4096, src (ix2 r k) := by
  refine (Ideal.multiReduction_add_single src 0x00000000#32 Cert.KernelIdeal.Gen.reduces_S512x4096_S512 hφ hacc (ix1 r)).trans ?_
  refine Finset.sum_congr rfl fun k _ => congrArg src ?_
  funext a
  match a with
  | ⟨0, _⟩ => rfl
  | ⟨1, _⟩ => rfl

/-- The kernel's quantized block at `(r, k)` is `q4` of the entry and its row's absolute sum. -/
theorem pay1_apply (X : Vec Ideal Cert.KernelIdeal.S512x4096 .bf16) (r : Fin 512) (k : Fin 4096) :
    Cert.KernelIdeal.Gen.k0_pay1 (F := Ideal) X (ix2 r k)
      = q4 (X (ix2 r k)) (∑ k' : Fin 4096, max (X (ix2 r k')) (-(X (ix2 r k')))) := by
  unfold Cert.KernelIdeal.Gen.k0_pay1
  simp only [shapeCast_self]
  simp only [truncf_apply, divf_apply, mulf_apply, minimumf_apply, maximumf_apply, broadcast_apply, extf_apply,
    addf_apply, roundeven_apply]
  rw [broadcastTo_a1_ab_apply, broadcastTo_a1_ab_apply]
  simp only [divf_apply, mulf_apply, broadcast_apply, addf_apply]
  rw [shapeCast_a_a1_apply]
  rw [laneSum_apply]
  simp only [absf_apply, extf_apply]
  rfl

/-! ## The clip's bounds -/

/-- The clip's lower bound: the 32-bit integer `-8` converted to a float is the float constant `-8.0`. -/
theorem sitofp_neg8 : FloatOps.sitofp (F := Ideal) .f32 (4294967288#32 : BitVec 32) = Ideal.ofBits .f32 0xC1000000#32 := by
  show (((4294967288#32 : BitVec 32).toInt : ℝ) : EReal) = _
  simp [Ideal.ofBits, Ideal.ieee, -EReal.coe_mul]; norm_num

/-- The clip's upper bound: the 32-bit integer `7` converted to a float is the float constant `7.0`. -/
theorem sitofp_7 : FloatOps.sitofp (F := Ideal) .f32 (7#32 : BitVec 32) = Ideal.ofBits .f32 0x40E00000#32 := by
  show (((7#32 : BitVec 32).toInt : ℝ) : EReal) = _
  simp [Ideal.ofBits, Ideal.ieee, -EReal.coe_mul]; norm_num

open Cert.ReferenceIdeal.Read in
/-- The reference's quantized activations at `(b, s, k)` are `q4` of the entry and its row's absolute sum. -/
theorem ref_apply (x0 : (⟨Cert.ReferenceIdeal.S2x2048x4096, .f32⟩ : BufTy).Contents (Elt Ideal))
    (b : Fin 2) (s : Fin 2048) (k : Fin 4096) :
    val_main_v18 (F := Ideal) x0 (ix3 b s k)
      = q4 (x0 (ix3 b s k)) (∑ k' : Fin 4096, max (x0 (ix3 b s k')) (-(x0 (ix3 b s k')))) := by
  have hrow : ∀ k' : Fin 4096, idx_main_v1 (idx_main_v2 (idx_main_v9 (ix3 b s k))) k' = ix3 b s k' := fun k' =>
    funext fun a => by match a with | ⟨0, _⟩ => rfl | ⟨1, _⟩ => rfl | ⟨2, _⟩ => rfl
  simp only [val_main_v18_apply, val_main_v17_apply, val_main_cst_5_apply, val_main_v16_apply, val_main_v12_apply,
    val_main_call1_v4_apply, val_main_call1_v3_apply, val_main_c_3_apply, val_main_call1_v2_apply,
    val_main_call1_v1_apply, val_main_call1_v0_apply, val_main_c_apply, val_main_v11_apply, val_main_v10_apply,
    val_main_v6_apply, val_main_v5_apply, val_main_cst_1_apply, val_main_v9_apply, val_main_v8_apply,
    val_main_v7_apply, val_main_cst_2_apply, val_main_v4_apply, val_main_v3_apply, val_main_cst_0_apply,
    val_main_v2_apply, val_main_v1_apply, val_main_cst_apply, val_main_v0_apply, val_main_v15_apply,
    val_main_v14_apply, val_main_v13_apply, val_main_cst_4_apply]
  have hrow' : ∀ k' : Fin 4096, idx_main_v1 (idx_main_v2 (idx_main_v15 (ix3 b s k))) k' = ix3 b s k' := fun k' =>
    funext fun a => by match a with | ⟨0, _⟩ => rfl | ⟨1, _⟩ => rfl | ⟨2, _⟩ => rfl
  simp only [hrow, hrow', sitofp_7, sitofp_neg8, Ideal.ofBits_def, Ideal.ofBits_zero_f32, zero_add]
  rfl

/-- THE BRIDGE: a block of 512 rows of the activations, row `r` being row `(b r, s r)` of the reference's array,
    quantizes in the kernel to the reference's quantized activations at those rows: both are `q4` of the same entry
    and the same row sum. -/
theorem pay1_eq (x0 : (⟨Cert.ReferenceIdeal.S2x2048x4096, .f32⟩ : BufTy).Contents (Elt Ideal)) (X : Vec Ideal Cert.KernelIdeal.S512x4096 .bf16)
    (b : Fin 512 → Fin 2) (s : Fin 512 → Fin 2048)
    (hX : ∀ (r : Fin 512) (k : Fin 4096), X (ValueIdx.ix2 r k) = x0 (ValueIdx.ix3 (b r) (s r) k)) :
    ∀ (r : Fin 512) (k : Fin 4096), Cert.KernelIdeal.Gen.k0_pay1 (F := Ideal) X (ValueIdx.ix2 r k)
      = Cert.ReferenceIdeal.Read.val_main_v18 (F := Ideal) x0 (ValueIdx.ix3 (b r) (s r) k) := by
  intro r k
  rw [pay1_apply, ref_apply, hX r k]
  exact congrArg (q4 _) (Finset.sum_congr rfl fun k' _ => by rw [hX r k'])

end Cert.Bridge

end
-- ==== Proof.BrGateUp.lean ====
import proofs.«146200_j26611617366616_1_alg».proof.Proof.Gen.KernelIdeal.Skeleton
import proofs.«146200_j26611617366616_1_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

namespace Cert.Bridge

open Idealize.ShloMosaic Idealize.ShloMosaic.StableHlo Idealize.SL.Sem

/-! The operand indices of the contraction: at output (i0, i1) and contraction coordinate k the left
    operand is read at (i0, k) and the right at (i1, k). -/

private theorem glhs0 (i : Cert.KernelIdeal.S512x256.Idx) (q : Cert.KernelIdeal.dot_S512x4096_S256x4096_S512x256_1_1_0_0_n_n.contr.Idx) :
    (Cert.KernelIdeal.dot_S512x4096_S256x4096_S512x256_1_1_0_0_n_n.lhsIdx i q 0).val = (i 0).val := by
  unfold DotDims.lhsIdx
  rw [dif_neg (show ¬(0 : Fin Cert.KernelIdeal.S512x4096.rank) ∈ Cert.KernelIdeal.dot_S512x4096_S256x4096_S512x256_1_1_0_0_n_n.lhsBatch by decide),
    dif_pos (show (0 : Fin Cert.KernelIdeal.S512x4096.rank) ∈ Cert.KernelIdeal.dot_S512x4096_S256x4096_S512x256_1_1_0_0_n_n.lhsNonContracting by decide)]
  rfl
private theorem glhs1 (i : Cert.KernelIdeal.S512x256.Idx) (q : Cert.KernelIdeal.dot_S512x4096_S256x4096_S512x256_1_1_0_0_n_n.contr.Idx) :
    (Cert.KernelIdeal.dot_S512x4096_S256x4096_S512x256_1_1_0_0_n_n.lhsIdx i q 1).val = (q ⟨0, by decide⟩).val :=
  Cert.KernelIdeal.dot_S512x4096_S256x4096_S512x256_1_1_0_0_n_n.lhsIdx_val_of_single rfl i q
private theorem grhs0 (i : Cert.KernelIdeal.S512x256.Idx) (q : Cert.KernelIdeal.dot_S512x4096_S256x4096_S512x256_1_1_0_0_n_n.contr.Idx) :
    (Cert.KernelIdeal.dot_S512x4096_S256x4096_S512x256_1_1_0_0_n_n.rhsIdx i q 0).val = (i 1).val := by
  unfold DotDims.rhsIdx
  rw [dif_neg (show ¬(0 : Fin Cert.KernelIdeal.S256x4096.rank) ∈ Cert.KernelIdeal.dot_S512x4096_S256x4096_S512x256_1_1_0_0_n_n.rhsBatch by decide),
    dif_pos (show (0 : Fin Cert.KernelIdeal.S256x4096.rank) ∈ Cert.KernelIdeal.dot_S512x4096_S256x4096_S512x256_1_1_0_0_n_n.rhsNonContracting by decide)]
  rfl
private theorem grhs1 (i : Cert.KernelIdeal.S512x256.Idx) (q : Cert.KernelIdeal.dot_S512x4096_S256x4096_S512x256_1_1_0_0_n_n.contr.Idx) :
    (Cert.KernelIdeal.dot_S512x4096_S256x4096_S512x256_1_1_0_0_n_n.rhsIdx i q 1).val = (q ⟨0, by decide⟩).val :=
  Cert.KernelIdeal.dot_S512x4096_S256x4096_S512x256_1_1_0_0_n_n.rhsIdx_val_of_single rfl i q

/-- A [512,4096] by [256,4096] product into a zero accumulator, contracting the 4096 columns, at
    (r, q): the sum over k of A (r, k) * B (q, k). -/
private theorem mm_apply (A : Vec Ideal Cert.KernelIdeal.S512x4096 .bf16) (B : Vec Ideal Cert.KernelIdeal.S256x4096 .bf16)
    (r : Fin 512) (q : Fin 256) :
    FloatOps.matmul (φ₁ := .bf16) (φ₂ := .bf16) Cert.KernelIdeal.dot_S512x4096_S256x4096_S512x256_1_1_0_0_n_n none A B (constant (F := Ideal) Cert.KernelIdeal.S512x256 .f32 0x00000000#32) (ValueIdx.ix2 r q)
      = ∑ k : Fin 4096, A (ValueIdx.ix2 r k) * B (ValueIdx.ix2 q k) := by
  rw [Ideal.matmul_constant_zero_apply,
    ← Equiv.sum_comp (ValueIdx.contrEquiv1 Cert.KernelIdeal.dot_S512x4096_S256x4096_S512x256_1_1_0_0_n_n 4096 rfl rfl).symm]
  refine Finset.sum_congr rfl fun k _ => ?_
  have hk := ValueIdx.contrEquiv1_symm_val Cert.KernelIdeal.dot_S512x4096_S256x4096_S512x256_1_1_0_0_n_n 4096 rfl rfl k
  have el : Cert.KernelIdeal.dot_S512x4096_S256x4096_S512x256_1_1_0_0_n_n.lhsIdx (ValueIdx.ix2 r q)
      ((ValueIdx.contrEquiv1 Cert.KernelIdeal.dot_S512x4096_S256x4096_S512x256_1_1_0_0_n_n 4096 rfl rfl).symm k)
      = ValueIdx.ix2 r k := funext fun a => Fin.ext (by
    match a with
    | ⟨0, _⟩ => exact glhs0 _ _
    | ⟨1, _⟩ => exact (glhs1 _ _).trans hk)
  have er : Cert.KernelIdeal.dot_S512x4096_S256x4096_S512x256_1_1_0_0_n_n.rhsIdx (ValueIdx.ix2 r q)
      ((ValueIdx.contrEquiv1 Cert.KernelIdeal.dot_S512x4096_S256x4096_S512x256_1_1_0_0_n_n 4096 rfl rfl).symm k)
      = ValueIdx.ix2 q k := funext fun a => Fin.ext (by
    match a with
    | ⟨0, _⟩ => exact grhs0 _ _
    | ⟨1, _⟩ => exact (grhs1 _ _).trans hk)
  rw [el, er]

/-- The gate/up block: (XQ . WU^T) * relu(XQ . WG^T)^2. When XQ's rows are rows (b r, s r) of the
    reference's quantized activations and WG's, WU's rows are rows o q of the reference's quantized
    gate and up weights, the block's element (r, q) is the reference's gated product at
    (b r, s r, o q): the two matrix products are the same sums of 4096 products, and the
    elementwise operations after them are the same. -/
theorem pay2_eq
    (x0 : (⟨Cert.ReferenceIdeal.S2x2048x4096, .f32⟩ : BufTy).Contents (Elt Ideal))
    (x1 x2 : (⟨Cert.ReferenceIdeal.S11008x4096, .f32⟩ : BufTy).Contents (Elt Ideal))
    (x4 x5 : (⟨Cert.ReferenceIdeal.S1, .f32⟩ : BufTy).Contents (Elt Ideal))
    (XQ : Vec Ideal Cert.KernelIdeal.S512x4096 .bf16) (WG WU : Vec Ideal Cert.KernelIdeal.S256x4096 .bf16)
    (b : Fin 512 → Fin 2) (s : Fin 512 → Fin 2048) (o : Fin 256 → Fin 11008)
    (hXQ : ∀ (r : Fin 512) (k : Fin 4096), XQ (ValueIdx.ix2 r k)
      = Cert.ReferenceIdeal.Read.val_main_v18 (F := Ideal) x0 (ValueIdx.ix3 (b r) (s r) k))
    (hWG : ∀ (q : Fin 256) (k : Fin 4096), WG (ValueIdx.ix2 q k)
      = Cert.ReferenceIdeal.Read.val_main_v31 (F := Ideal) x1 x4 (ValueIdx.ix2 (o q) k))
    (hWU : ∀ (q : Fin 256) (k : Fin 4096), WU (ValueIdx.ix2 q k)
      = Cert.ReferenceIdeal.Read.val_main_v45 (F := Ideal) x2 x5 (ValueIdx.ix2 (o q) k)) :
    ∀ (r : Fin 512) (q : Fin 256),
      Cert.KernelIdeal.Gen.k0_pay2 (F := Ideal) XQ WG WU (ValueIdx.ix2 r q)
        = Cert.ReferenceIdeal.Read.val_main_v49 (F := Ideal) x0 x1 x2 x4 x5 (ValueIdx.ix3 (b r) (s r) (o q)) := by
  intro r q
  have hg : FloatOps.matmul (φ₁ := .bf16) (φ₂ := .bf16) Cert.KernelIdeal.dot_S512x4096_S256x4096_S512x256_1_1_0_0_n_n none XQ WG (constant (F := Ideal) Cert.KernelIdeal.S512x256 .f32 0x00000000#32) (ValueIdx.ix2 r q)
      = Cert.ReferenceIdeal.Read.val_main_v32 (F := Ideal) x0 x1 x4 (ValueIdx.ix3 (b r) (s r) (o q)) := by
    rw [mm_apply, Cert.ReferenceIdeal.Read.val_main_v32_apply]
    refine Finset.sum_congr rfl fun k _ => ?_
    have e1 : Cert.ReferenceIdeal.Read.lidx_main_v32 (ValueIdx.ix3 (b r) (s r) (o q)) k = ValueIdx.ix3 (b r) (s r) k :=
      funext fun a => by match a with | ⟨0, _⟩ => rfl | ⟨1, _⟩ => rfl | ⟨2, _⟩ => rfl
    have e2 : Cert.ReferenceIdeal.Read.ridx_main_v32 (ValueIdx.ix3 (b r) (s r) (o q)) k = ValueIdx.ix2 (o q) k :=
      funext fun a => by match a with | ⟨0, _⟩ => rfl | ⟨1, _⟩ => rfl
    rw [e1, e2, hXQ r k, hWG q k]
  have hu : FloatOps.matmul (φ₁ := .bf16) (φ₂ := .bf16) Cert.KernelIdeal.dot_S512x4096_S256x4096_S512x256_1_1_0_0_n_n none XQ WU (constant (F := Ideal) Cert.KernelIdeal.S512x256 .f32 0x00000000#32) (ValueIdx.ix2 r q)
      = Cert.ReferenceIdeal.Read.val_main_v46 (F := Ideal) x0 x2 x5 (ValueIdx.ix3 (b r) (s r) (o q)) := by
    rw [mm_apply, Cert.ReferenceIdeal.Read.val_main_v46_apply]
    refine Finset.sum_congr rfl fun k _ => ?_
    have e1 : Cert.ReferenceIdeal.Read.lidx_main_v46 (ValueIdx.ix3 (b r) (s r) (o q)) k = ValueIdx.ix3 (b r) (s r) k :=
      funext fun a => by match a with | ⟨0, _⟩ => rfl | ⟨1, _⟩ => rfl | ⟨2, _⟩ => rfl
    have e2 : Cert.ReferenceIdeal.Read.ridx_main_v46 (ValueIdx.ix3 (b r) (s r) (o q)) k = ValueIdx.ix2 (o q) k :=
      funext fun a => by match a with | ⟨0, _⟩ => rfl | ⟨1, _⟩ => rfl
    rw [e1, e2, hXQ r k, hWU q k]
  rw [Cert.ReferenceIdeal.Read.val_main_v49_apply, Cert.ReferenceIdeal.Read.val_main_v48_apply,
    Cert.ReferenceIdeal.Read.val_main_v47_apply, Cert.ReferenceIdeal.Read.val_main_call6_v0_apply,
    Cert.ReferenceIdeal.Read.val_main_call6_cst_apply, ← hg, ← hu]
  unfold Cert.KernelIdeal.Gen.k0_pay2
  simp only [shapeCast_self, matmul]
  rfl

end Cert.Bridge

end
-- ==== Proof.R0Rows.lean ====
import proofs.«146200_j26611617366616_1_alg».proof.Proof.R0Blocks
import proofs.«146200_j26611617366616_1_alg».proof.Proof.BrQuant4
import proofs.«146200_j26611617366616_1_alg».proof.Proof.BrGateUp
import proofs.«146200_j26611617366616_1_alg».proof.Proof.Gen.ReferenceIdeal.Read
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # Region 0: the two scratch buffers of a row block, as the reference's quantized rows and gated product

Row `R` of a [4096, ·] array is row `R % 2048` of batch `R / 2048` of the reference's [2, 2048, ·] array. For the row
block of point `t`: the first scratch's row `r` is the reference's quantized row `512 (t / 43) + r`; column slice `j`
of the second is the reference's gated product of those rows with rows `256 j …` of the two weight matrices. -/

/-- The batch of row `R`. -/
abbrev rowHi (R : Fin 4096) : Fin 2 := ⟨R.val / 2048, by have := R.isLt; omega⟩
/-- The row inside the batch of row `R`. -/
abbrev rowLo (R : Fin 4096) : Fin 2048 := ⟨R.val % 2048, Nat.mod_lt _ (by decide)⟩
/-- Row `r` of the row block of point `t`. -/
abbrev rowOf (t : Fin cfg0.N) (r : Fin 512) : Fin 4096 :=
  ⟨(t.val / 43) * 512 + r.val, by have := (pt_bounds t).1; have := r.isLt; omega⟩
/-- Row `q` of weight slice `j`. -/
abbrev slotOf (j : ℕ) (hj : j < 43) (q : Fin 256) : Fin 11008 := ⟨j * 256 + q.val, by have := q.isLt; omega⟩

/-- The first point of a row block plus a slice number is the point of that row block and slice. -/
theorem ptOf_rs (t : Fin cfg0.N) (j : ℕ) (hj : j < 43) :
    (ptOf (rs t.val + j)).val / 43 = t.val / 43 ∧ (ptOf (rs t.val + j)).val % 43 = j := by
  have h : t.val < 344 := lt_of_lt_of_eq t.isLt (show cfg0.N = 344 from N_0)
  have hlt : rs t.val + j < cfg0.N := lt_of_lt_of_eq (by unfold rs; omega : rs t.val + j < 344) (show cfg0.N = 344 from N_0).symm
  unfold ptOf
  rw [dif_pos hlt]
  show (rs t.val + j) / 43 = t.val / 43 ∧ (rs t.val + j) % 43 = j
  unfold rs
  omega

section
variable (V : (c : Dev nD) → (b : Ref sig .tc) → Buf (Elt Ideal) ((c : Thread nD τ).loc b))
variable (x0 : (⟨Cert.ReferenceIdeal.S2x2048x4096, .f32⟩ : BufTy).Contents (Elt Ideal))
  (x1 x2 : (⟨Cert.ReferenceIdeal.S11008x4096, .f32⟩ : BufTy).Contents (Elt Ideal))
  (x4 x5 : (⟨Cert.ReferenceIdeal.S1, .f32⟩ : BufTy).Contents (Elt Ideal))

/-- The block of `x` at the first point of `t`'s row block, as rows of the argument. -/
theorem xblk_apply (c : Dev nD)
    (hV43 : ∀ (R : Fin 4096) (k : Fin 4096), (V c main_v43 : S4096x4096.Idx → Elt Ideal .bf16) (ix2 R k) = x0 (ix3 (rowHi R) (rowLo R) k))
    (t : Fin cfg0.N) (r : Fin 512) (k : Fin 4096) :
    (iblk0 V c 0 (ptOf (rs t.val)) : Vec Ideal S512x4096 .bf16) (ix2 r k) = x0 (ix3 (rowHi (rowOf t r)) (rowLo (rowOf t r)) k) := by
  obtain ⟨hq0, -⟩ := ptOf_rs t 0 (by decide)
  rw [iblk0_0_apply, hV43]
  have e : (⟨(ptOf (rs t.val)).val / 43 * 512 + r.val, by have := (pt_bounds (ptOf (rs t.val))).1; have := r.isLt; omega⟩ : Fin 4096) = rowOf t r :=
    Fin.ext (by show (ptOf (rs t.val)).val / 43 * 512 + r.val = t.val / 43 * 512 + r.val; rw [show rs t.val = rs t.val + 0 from rfl, hq0])
  rw [e]

/-- The first scratch of `t`'s row block: the reference's quantized rows. -/
theorem xqAt_apply (c : Dev nD)
    (hV43 : ∀ (R : Fin 4096) (k : Fin 4096), (V c main_v43 : S4096x4096.Idx → Elt Ideal .bf16) (ix2 R k) = x0 (ix3 (rowHi R) (rowLo R) k))
    (t : Fin cfg0.N) (r : Fin 512) (k : Fin 4096) :
    xqAt V c (rs t.val) (ix2 r k) = Cert.ReferenceIdeal.Read.val_main_v18 (F := Ideal) x0 (ix3 (rowHi (rowOf t r)) (rowLo (rowOf t r)) k) := by
  unfold xqAt
  exact Cert.Bridge.pay1_eq x0 _ (fun r => rowHi (rowOf t r)) (fun r => rowLo (rowOf t r)) (xblk_apply V x0 c hV43 t) r k

/-- The gate-weight block at slice `j` of `t`'s row block, as rows of the reference's quantized gate weights. -/
theorem wgblk_apply (c : Dev nD)
    (hV13 : ∀ (o : Fin 11008) (k : Fin 4096), (V c main_v13 : S11008x4096.Idx → Elt Ideal .bf16) (ix2 o k) = Cert.ReferenceIdeal.Read.val_main_v31 (F := Ideal) x1 x4 (ix2 o k))
    (t : Fin cfg0.N) (j : ℕ) (hj : j < 43) (q : Fin 256) (k : Fin 4096) :
    (iblk0 V c 1 (ptOf (rs t.val + j)) : Vec Ideal S256x4096 .bf16) (ix2 q k) = Cert.ReferenceIdeal.Read.val_main_v31 (F := Ideal) x1 x4 (ix2 (slotOf j hj q) k) := by
  obtain ⟨-, hm⟩ := ptOf_rs t j hj
  rw [iblk0_1_apply, hV13]
  have e : (⟨(ptOf (rs t.val + j)).val % 43 * 256 + q.val, by have := (pt_bounds (ptOf (rs t.val + j))).2; have := q.isLt; omega⟩ : Fin 11008) = slotOf j hj q :=
    Fin.ext (by show (ptOf (rs t.val + j)).val % 43 * 256 + q.val = j * 256 + q.val; rw [hm])
  rw [e]

/-- The up-weight block at slice `j` of `t`'s row block, as rows of the reference's quantized up weights. -/
theorem wublk_apply (c : Dev nD)
    (hV27 : ∀ (o : Fin 11008) (k : Fin 4096), (V c main_v27 : S11008x4096.Idx → Elt Ideal .bf16) (ix2 o k) = Cert.ReferenceIdeal.Read.val_main_v45 (F := Ideal) x2 x5 (ix2 o k))
    (t : Fin cfg0.N) (j : ℕ) (hj : j < 43) (q : Fin 256) (k : Fin 4096) :
    (iblk0 V c 2 (ptOf (rs t.val + j)) : Vec Ideal S256x4096 .bf16) (ix2 q k) = Cert.ReferenceIdeal.Read.val_main_v45 (F := Ideal) x2 x5 (ix2 (slotOf j hj q) k) := by
  obtain ⟨-, hm⟩ := ptOf_rs t j hj
  rw [iblk0_2_apply, hV27]
  have e : (⟨(ptOf (rs t.val + j)).val % 43 * 256 + q.val, by have := (pt_bounds (ptOf (rs t.val + j))).2; have := q.isLt; omega⟩ : Fin 11008) = slotOf j hj q :=
    Fin.ext (by show (ptOf (rs t.val + j)).val % 43 * 256 + q.val = j * 256 + q.val; rw [hm])
  rw [e]

/-- Column slice `j` of the second scratch of `t`'s row block: the reference's gated product at columns `256 j …`. -/
theorem prodAt_apply (c : Dev nD)
    (hV43 : ∀ (R : Fin 4096) (k : Fin 4096), (V c main_v43 : S4096x4096.Idx → Elt Ideal .bf16) (ix2 R k) = x0 (ix3 (rowHi R) (rowLo R) k))
    (hV13 : ∀ (o : Fin 11008) (k : Fin 4096), (V c main_v13 : S11008x4096.Idx → Elt Ideal .bf16) (ix2 o k) = Cert.ReferenceIdeal.Read.val_main_v31 (F := Ideal) x1 x4 (ix2 o k))
    (hV27 : ∀ (o : Fin 11008) (k : Fin 4096), (V c main_v27 : S11008x4096.Idx → Elt Ideal .bf16) (ix2 o k) = Cert.ReferenceIdeal.Read.val_main_v45 (F := Ideal) x2 x5 (ix2 o k))
    (t : Fin cfg0.N) (j : ℕ) (hj : j < 43) (r : Fin 512) (q : Fin 256) :
    prodAt V c (rs t.val) j (ix2 r q)
      = Cert.ReferenceIdeal.Read.val_main_v49 (F := Ideal) x0 x1 x2 x4 x5 (ix3 (rowHi (rowOf t r)) (rowLo (rowOf t r)) (slotOf j hj q)) := by
  unfold prodAt
  exact Cert.Bridge.pay2_eq x0 x1 x2 x4 x5 _ _ _ (fun r => rowHi (rowOf t r)) (fun r => rowLo (rowOf t r)) (slotOf j hj)
    (xqAt_apply V x0 c hV43 t) (wgblk_apply V x1 x4 c hV13 t j hj) (wublk_apply V x2 x5 c hV27 t j hj) r q

/-- The whole second scratch of `t`'s row block: the reference's gated product of its rows. -/
theorem accAt_apply (c : Dev nD)
    (hV43 : ∀ (R : Fin 4096) (k : Fin 4096), (V c main_v43 : S4096x4096.Idx → Elt Ideal .bf16) (ix2 R k) = x0 (ix3 (rowHi R) (rowLo R) k))
    (hV13 : ∀ (o : Fin 11008) (k : Fin 4096), (V c main_v13 : S11008x4096.Idx → Elt Ideal .bf16) (ix2 o k) = Cert.ReferenceIdeal.Read.val_main_v31 (F := Ideal) x1 x4 (ix2 o k))
    (hV27 : ∀ (o : Fin 11008) (k : Fin 4096), (V c main_v27 : S11008x4096.Idx → Elt Ideal .bf16) (ix2 o k) = Cert.ReferenceIdeal.Read.val_main_v45 (F := Ideal) x2 x5 (ix2 o k))
    (t : Fin cfg0.N) (r : Fin 512) (o : Fin 11008) :
    accAt V c (rs t.val) (ix2 r o)
      = Cert.ReferenceIdeal.Read.val_main_v49 (F := Ideal) x0 x1 x2 x4 x5 (ix3 (rowHi (rowOf t r)) (rowLo (rowOf t r)) o) := by
  have ho : o.val / 256 < 43 := by have := o.isLt; omega
  show prodAt V c (rs t.val) (o.val / 256) (sliceCoord (ix2 r o)) = _
  have hsc : sliceCoord (ix2 r o) = ix2 r (⟨o.val % 256, Nat.mod_lt _ (by decide)⟩ : Fin 256) :=
    funext fun a => by match a with | ⟨0, _⟩ => rfl | ⟨1, _⟩ => rfl
  rw [hsc, prodAt_apply V x0 x1 x2 x4 x5 c hV43 hV13 hV27 t (o.val / 256) ho]
  have e : slotOf (o.val / 256) ho ⟨o.val % 256, Nat.mod_lt _ (by decide)⟩ = o :=
    Fin.ext (by show o.val / 256 * 256 + o.val % 256 = o.val; omega)
  rw [e]

end

end Cert.KernelIdeal.Hand

end
-- ==== Proof.BrQuant8.lean ====
import proofs.«146200_j26611617366616_1_alg».proof.Proof.Gen.KernelIdeal.Skeleton
import proofs.«146200_j26611617366616_1_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

namespace Cert.Bridge

open Idealize.ShloMosaic Idealize.ShloMosaic.StableHlo Idealize.SL.Sem

open Idealize.ShloMosaic.ValueIdx

variable {α : Type}

/-- An [a] array cast to [a, 1] reads, at (i, u), the operand at i. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The kernel's row maximum at row r: the fold of max from the accumulator over the row's 11008 elements. -/
private theorem kmax_apply (src : FVec Ideal Cert.KernelIdeal.S512x11008 .f32)
    (h : Cert.KernelIdeal.S512x11008.Reduces [1] Cert.KernelIdeal.S512) (hφ : FKind.Formats .f32)
    (hacc : (0xFF800000#32 : BitVec 32) = FKind.maximumf.neutral .f32 hφ) (r : Fin 512) :
    multiReduction .maximumf [1] Cert.KernelIdeal.S512 src 0xFF800000#32 h hφ hacc (ix1 r)
      = (Finset.univ : Finset (Fin 11008)).fold max (Ideal.ofBits .f32 0xFF800000#32) (fun k => src (ix2 r k)) := by
  rw [Ideal.multiReduction_maximumf_single]
  exact Finset.fold_congr (fun k _ => congrArg src (funext fun a => Fin.ext (by
    match a with
    | ⟨0, _⟩ => rfl
    | ⟨1, _⟩ => rfl)))

/-- The reference's row maximum at (bb, ss): the fold of max from the initial value over the row's 11008 elements. -/
private theorem rmax_apply (x : (⟨Cert.ReferenceIdeal.S2x2048x11008, .f32⟩ : BufTy).Contents (Elt Ideal))
    (init : (⟨Cert.ReferenceIdeal.S_, .f32⟩ : BufTy).Contents (Elt Ideal))
    (h' : Cert.ReferenceIdeal.S2x2048x11008.ReducesTo [2] Cert.ReferenceIdeal.S2x2048) (hu : 0 < Cert.ReferenceIdeal.S_.numel)
    (bb : Fin 2) (ss : Fin 2048) :
    Host.reduce (FloatOps.maximumf (F := Ideal) (φ := .f32)) x init h' hu (ix2 bb ss)
      = (Finset.univ : Finset (Fin 11008)).fold max (init (Shape.Idx.first hu)) (fun k => x (ix3 bb ss k)) := by
  rw [Host.reduce_eq_fold_single (FloatOps.maximumf (F := Ideal) (φ := .f32)) x init h'
    (by decide : Cert.ReferenceIdeal.S2x2048x11008.Reduces [2] Cert.ReferenceIdeal.S2x2048) hu]
  exact Finset.fold_congr (fun k _ => congrArg x (funext fun a => Fin.ext (by
    match a with
    | ⟨0, _⟩ => rfl
    | ⟨1, _⟩ => rfl
    | ⟨2, _⟩ => rfl)))

/-- The clip bounds: the integers 127 and -128 converted to f32 are the f32 constants 127.0 and -128.0. -/
private theorem sitofp_127 : FloatOps.sitofp (F := Ideal) .f32 (127#32 : BitVec 32) = Ideal.ofBits .f32 0x42FE0000#32 := by
  show (((127#32 : BitVec 32).toInt : ℝ) : EReal) = _
  simp [Ideal.ofBits, Ideal.ieee, -EReal.coe_mul]; norm_num

private theorem sitofp_m128 : FloatOps.sitofp (F := Ideal) .f32 (4294967168#32 : BitVec 32) = Ideal.ofBits .f32 0xC3000000#32 := by
  show (((4294967168#32 : BitVec 32).toInt : ℝ) : EReal) = _
  simp [Ideal.ofBits, Ideal.ieee, -EReal.coe_mul, -EReal.coe_neg]; norm_num

/-- Rounding to nearest even read at an index. -/
private theorem roundeven_apply' {s : Shape} {φ : FTy} (a : FVec Ideal s φ) (i : s.Idx) : roundeven a i = FloatOps.roundeven (a i) := rfl

set_option backward.isDefEq.respectTransparency.types false in
/-- The int8 row quantization block: gamma = the row maximum of |ACC|, q = the rounding of
    ACC * 127 / (gamma + eps) clipped to [-128, 127], result q * gamma / 127. When ACC's rows are rows
    (b r, s r) of the reference's gated product, the block's element (r, o) is the reference's quantized
    value at (b r, s r, o): the two row maxima fold max over the same 11008 elements from the same
    initial value, the clip bounds are the same reals, and the elementwise operations are the same. -/
theorem pay3_eq
    (x0 : (⟨Cert.ReferenceIdeal.S2x2048x4096, .f32⟩ : BufTy).Contents (Elt Ideal))
    (x1 x2 : (⟨Cert.ReferenceIdeal.S11008x4096, .f32⟩ : BufTy).Contents (Elt Ideal))
    (x4 x5 : (⟨Cert.ReferenceIdeal.S1, .f32⟩ : BufTy).Contents (Elt Ideal))
    (ACC : Vec Ideal Cert.KernelIdeal.S512x11008 .bf16) (b : Fin 512 → Fin 2) (s : Fin 512 → Fin 2048)
    (hACC : ∀ (r : Fin 512) (o : Fin 11008), ACC (ix2 r o)
      = Cert.ReferenceIdeal.Read.val_main_v49 (F := Ideal) x0 x1 x2 x4 x5 (ix3 (b r) (s r) o)) :
    ∀ (r : Fin 512) (o : Fin 11008),
      Cert.KernelIdeal.Gen.k0_pay3 (F := Ideal) ACC (ix2 r o)
        = Cert.ReferenceIdeal.Read.val_main_v64 (F := Ideal) x0 x1 x2 x4 x5 (ix3 (b r) (s r) o) := by
  intro r o
  -- the row maximum
  have hG : ∀ (h : Cert.KernelIdeal.S512x11008.Reduces [1] Cert.KernelIdeal.S512) (hφ : FKind.Formats .f32)
      (hacc : (0xFF800000#32 : BitVec 32) = FKind.maximumf.neutral .f32 hφ) (hlt : FTy.bits .bf16 < FTy.bits .f32),
      multiReduction .maximumf [1] Cert.KernelIdeal.S512 (absf (extf (F := Ideal) .f32 ACC hlt)) 0xFF800000#32 h hφ hacc (ix1 r)
        = Cert.ReferenceIdeal.Read.val_main_v51 (F := Ideal) x0 x1 x2 x4 x5 (ix2 (b r) (s r)) := by
    intro h hφ hacc hlt
    rw [kmax_apply]
    unfold Cert.ReferenceIdeal.Read.val_main_v51
    rw [rmax_apply, Cert.ReferenceIdeal.Read.val_main_cst_16_apply, Ideal.ofBits_def]
    refine Finset.fold_congr (fun k _ => ?_)
    rw [Cert.ReferenceIdeal.Read.val_main_v50_apply, ← hACC r k]
    rfl
  have hR52a : Cert.ReferenceIdeal.Read.idx_main_v52 (Cert.ReferenceIdeal.Read.idx_main_v61 (ix3 (b r) (s r) o)) = ix2 (b r) (s r) :=
    funext fun a => by match a with | ⟨0, _⟩ => rfl | ⟨1, _⟩ => rfl
  have hR52b : Cert.ReferenceIdeal.Read.idx_main_v52 (Cert.ReferenceIdeal.Read.idx_main_v57 (ix3 (b r) (s r) o)) = ix2 (b r) (s r) :=
    funext fun a => by match a with | ⟨0, _⟩ => rfl | ⟨1, _⟩ => rfl
  rw [Cert.ReferenceIdeal.Read.val_main_v64_apply, Cert.ReferenceIdeal.Read.val_main_v62_apply, Cert.ReferenceIdeal.Read.val_main_v61_apply, Cert.ReferenceIdeal.Read.val_main_v52_apply, hR52a,
    Cert.ReferenceIdeal.Read.val_main_v60_apply, Cert.ReferenceIdeal.Read.val_main_call8_v4_apply, Cert.ReferenceIdeal.Read.val_main_call8_v3_apply, Cert.ReferenceIdeal.Read.val_main_c_20_apply,
    Cert.ReferenceIdeal.Read.val_main_call8_v2_apply, Cert.ReferenceIdeal.Read.val_main_call8_v1_apply, Cert.ReferenceIdeal.Read.val_main_call8_v0_apply, Cert.ReferenceIdeal.Read.val_main_c_19_apply,
    Cert.ReferenceIdeal.Read.val_main_v59_apply, Cert.ReferenceIdeal.Read.val_main_v58_apply, Cert.ReferenceIdeal.Read.val_main_v54_apply, Cert.ReferenceIdeal.Read.val_main_v53_apply, Cert.ReferenceIdeal.Read.val_main_cst_17_apply,
    Cert.ReferenceIdeal.Read.val_main_v57_apply, Cert.ReferenceIdeal.Read.val_main_v56_apply, Cert.ReferenceIdeal.Read.val_main_v52_apply, hR52b, Cert.ReferenceIdeal.Read.val_main_v55_apply, Cert.ReferenceIdeal.Read.val_main_cst_18_apply,
    Cert.ReferenceIdeal.Read.val_main_v63_apply, Cert.ReferenceIdeal.Read.val_main_cst_21_apply, sitofp_127, sitofp_m128, ← hACC r o]
  unfold Cert.KernelIdeal.Gen.k0_pay3
  rw [truncf_apply, divf_apply, mulf_apply, minimumf_apply, maximumf_apply, roundeven_apply', divf_apply, mulf_apply, extf_apply,
    broadcast_apply, broadcast_apply, broadcastTo_a1_ab_apply, broadcastTo_a1_ab_apply, addf_apply, broadcast_apply,
    shapeCast_a_a1_apply, hG]
  rfl

end Cert.Bridge

end
-- ==== Proof.R0Final.lean ====
import proofs.«146200_j26611617366616_1_alg».proof.Proof.R0Rows
import proofs.«146200_j26611617366616_1_alg».proof.Proof.BrQuant8
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # Region 0: the output block at a point, and the whole output array, as the reference's quantized gated product

At every point of a row block the output block's row `r` is the reference's row `512 (t / 43) + r`; the blocks written
back at the last point of each row block tile the [4096, 11008] array, so the array ends holding the reference's
quantized gated product, row `R` at batch `R / 2048`, row `R % 2048`. -/

section
variable (V : (c : Dev nD) → (b : Ref sig .tc) → Buf (Elt Ideal) ((c : Thread nD τ).loc b))
variable (x0 : (⟨Cert.ReferenceIdeal.S2x2048x4096, .f32⟩ : BufTy).Contents (Elt Ideal))
  (x1 x2 : (⟨Cert.ReferenceIdeal.S11008x4096, .f32⟩ : BufTy).Contents (Elt Ideal))
  (x4 x5 : (⟨Cert.ReferenceIdeal.S1, .f32⟩ : BufTy).Contents (Elt Ideal))

/-- The reference's quantized gated product read at a row of the flat [4096, 11008] array. -/
def G3 : S4096x11008.Idx → Elt Ideal .bf16 :=
  fun y => Cert.ReferenceIdeal.Read.val_main_v64 (F := Ideal) x0 x1 x2 x4 x5 (ix3 (rowHi (y 0)) (rowLo (y 0)) (y 1))

/-- The output block of `t`'s row block: row `r` is the reference's quantized gated product at row `512 (t / 43) + r`. -/
theorem out3At_apply (c : Dev nD)
    (hV43 : ∀ (R : Fin 4096) (k : Fin 4096), (V c main_v43 : S4096x4096.Idx → Elt Ideal .bf16) (ix2 R k) = x0 (ix3 (rowHi R) (rowLo R) k))
    (hV13 : ∀ (o : Fin 11008) (k : Fin 4096), (V c main_v13 : S11008x4096.Idx → Elt Ideal .bf16) (ix2 o k) = Cert.ReferenceIdeal.Read.val_main_v31 (F := Ideal) x1 x4 (ix2 o k))
    (hV27 : ∀ (o : Fin 11008) (k : Fin 4096), (V c main_v27 : S11008x4096.Idx → Elt Ideal .bf16) (ix2 o k) = Cert.ReferenceIdeal.Read.val_main_v45 (F := Ideal) x2 x5 (ix2 o k))
    (t : Fin cfg0.N) (r : Fin 512) (o : Fin 11008) :
    out3At V c (rs t.val) (ix2 r o)
      = Cert.ReferenceIdeal.Read.val_main_v64 (F := Ideal) x0 x1 x2 x4 x5 (ix3 (rowHi (rowOf t r)) (rowLo (rowOf t r)) o) := by
  unfold out3At
  exact Cert.Bridge.pay3_eq x0 x1 x2 x4 x5 _ (fun r => rowHi (rowOf t r)) (fun r => rowLo (rowOf t r))
    (accAt_apply V x0 x1 x2 x4 x5 c hV43 hV13 hV27 t) r o

/-- What a point writes back is its block of the reference's array. -/
theorem flushed3_eq (c : Dev nD)
    (hV43 : ∀ (R : Fin 4096) (k : Fin 4096), (V c main_v43 : S4096x4096.Idx → Elt Ideal .bf16) (ix2 R k) = x0 (ix3 (rowHi R) (rowLo R) k))
    (hV13 : ∀ (o : Fin 11008) (k : Fin 4096), (V c main_v13 : S11008x4096.Idx → Elt Ideal .bf16) (ix2 o k) = Cert.ReferenceIdeal.Read.val_main_v31 (F := Ideal) x1 x4 (ix2 o k))
    (hV27 : ∀ (o : Fin 11008) (k : Fin 4096), (V c main_v27 : S11008x4096.Idx → Elt Ideal .bf16) (ix2 o k) = Cert.ReferenceIdeal.Read.val_main_v45 (F := Ideal) x2 x5 (ix2 o k))
    (t : Fin cfg0.N) :
    (dat0 V c).flushed 3 t = ((cfg0.win 3).blk t).view.read (Elt Ideal) (G3 x0 x1 x2 x4 x5) := by
  show (cfg0.win 3).cut (grid0.coords t) ((dat0 V c).after 3 t) = _
  rw [after0_3]
  funext j
  obtain ⟨r, o, rfl⟩ : ∃ (r : Fin 512) (o : Fin 11008), j = ix2 r o := ⟨j 0, j 1, eq_ix2 j⟩
  show out3At V c (rs t.val) (ix2 r o) = G3 x0 x1 x2 x4 x5 (((cfg0.win 3).blk t).view.emb (ix2 r o))
  rw [out3At_apply V x0 x1 x2 x4 x5 c hV43 hV13 hV27 t r o]
  obtain ⟨-, -, -, -, -, -, e0, e1⟩ := idx_facts0 t
  have h0 : ((((cfg0.win 3).blk t).view.emb (ix2 r o)) 0 : Fin 4096) = rowOf t r :=
    Fin.ext (by show win0_3.index t 0 * 512 + 1 * r.val = t.val / 43 * 512 + r.val; rw [e0]; omega)
  have h1 : ((((cfg0.win 3).blk t).view.emb (ix2 r o)) 1 : Fin 11008) = o :=
    Fin.ext (by show win0_3.index t 1 * 11008 + 1 * o.val = o.val; rw [e1]; omega)
  unfold G3
  rw [h0, h1]

/-- An index of the array is in point `t`'s block iff each coordinate is in the block's range on its axis. -/
theorem mem_blk3 (t : Fin cfg0.N) (i : S4096x11008.Idx) :
    i ∈ ((cfg0.win 3).blk t).view.set ↔ ∀ a : Fin 2, win0_3.index t a * S512x11008.size a ≤ (i a).val ∧ (i a).val < win0_3.index t a * S512x11008.size a + S512x11008.size a := by
  show i ∈ ((View.whole main_v44).slice (win0_3.rect t)).set ↔ _
  rw [View.set_slice_whole, Rect.mem_set_unit]
  exact Iff.rfl

/-- Every index of the array is in the block of the last point of its row block, which is written back. -/
theorem cover3 (i : S4096x11008.Idx) : ∃ t : Fin cfg0.N, (cfg0.win 3).flush t = true ∧ i ∈ ((cfg0.win 3).blk t).view.set := by
  have hi0 : (i 0).val < 4096 := (i 0).isLt
  have hi1 : (i 1).val < 11008 := (i 1).isLt
  have hN : cfg0.N = 344 := N_0
  let t : Fin cfg0.N := ⟨43 * ((i 0).val / 512) + 42, lt_of_lt_of_eq (by omega : 43 * ((i 0).val / 512) + 42 < 344) hN.symm⟩
  have htv : t.val = 43 * ((i 0).val / 512) + 42 := rfl
  refine ⟨t, (flush0_3 t).mpr (by rw [htv]; omega), ?_⟩
  rw [mem_blk3]
  obtain ⟨-, -, -, -, -, -, e0, e1⟩ := idx_facts0 t
  intro a
  match a with
  | ⟨0, _⟩ => show win0_3.index t 0 * 512 ≤ (i 0).val ∧ (i 0).val < win0_3.index t 0 * 512 + 512; rw [e0, htv]; omega
  | ⟨1, _⟩ => show win0_3.index t 1 * 11008 ≤ (i 1).val ∧ (i 1).val < win0_3.index t 1 * 11008 + 11008; rw [e1]; omega

/-- THE OUTPUT ARRAY after the region: the reference's quantized gated product, row by row. -/
theorem final3 (c : Dev nD)
    (hV43 : ∀ (R : Fin 4096) (k : Fin 4096), (V c main_v43 : S4096x4096.Idx → Elt Ideal .bf16) (ix2 R k) = x0 (ix3 (rowHi R) (rowLo R) k))
    (hV13 : ∀ (o : Fin 11008) (k : Fin 4096), (V c main_v13 : S11008x4096.Idx → Elt Ideal .bf16) (ix2 o k) = Cert.ReferenceIdeal.Read.val_main_v31 (F := Ideal) x1 x4 (ix2 o k))
    (hV27 : ∀ (o : Fin 11008) (k : Fin 4096), (V c main_v27 : S11008x4096.Idx → Elt Ideal .bf16) (ix2 o k) = Cert.ReferenceIdeal.Read.val_main_v45 (F := Ideal) x2 x5 (ix2 o k)) :
    (dat0 V c).arrAt 3 cfg0.N = G3 x0 x1 x2 x4 x5 :=
  (dat0 V c).arrAt_eq_of_cover 3 (G3 x0 x1 x2 x4 x5) (fun t _ => flushed3_eq V x0 x1 x2 x4 x5 c hV43 hV13 hV27 t) cover3

end

end Cert.KernelIdeal.Hand

end
-- ==== Proof.BrDown.lean ====
import proofs.«146200_j26611617366616_1_alg».proof.Proof.Gen.KernelIdeal.Skeleton
import proofs.«146200_j26611617366616_1_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

namespace Cert.Bridge

open Idealize.ShloMosaic Idealize.ShloMosaic.StableHlo Idealize.SL.Sem

/-! The operand indices of the contraction: at output (i0, i1) and contraction coordinate k the left
    operand is read at (i0, k) and the right at (i1, k). -/

private theorem dlhs0 (i : Cert.KernelIdeal.S512x512.Idx) (q : Cert.KernelIdeal.dot_S512x11008_S512x11008_S512x512_1_1_0_0_n_n.contr.Idx) :
    (Cert.KernelIdeal.dot_S512x11008_S512x11008_S512x512_1_1_0_0_n_n.lhsIdx i q 0).val = (i 0).val := by
  unfold DotDims.lhsIdx
  rw [dif_neg (show ¬(0 : Fin Cert.KernelIdeal.S512x11008.rank) ∈ Cert.KernelIdeal.dot_S512x11008_S512x11008_S512x512_1_1_0_0_n_n.lhsBatch by decide),
    dif_pos (show (0 : Fin Cert.KernelIdeal.S512x11008.rank) ∈ Cert.KernelIdeal.dot_S512x11008_S512x11008_S512x512_1_1_0_0_n_n.lhsNonContracting by decide)]
  rfl
private theorem dlhs1 (i : Cert.KernelIdeal.S512x512.Idx) (q : Cert.KernelIdeal.dot_S512x11008_S512x11008_S512x512_1_1_0_0_n_n.contr.Idx) :
    (Cert.KernelIdeal.dot_S512x11008_S512x11008_S512x512_1_1_0_0_n_n.lhsIdx i q 1).val = (q ⟨0, by decide⟩).val :=
  Cert.KernelIdeal.dot_S512x11008_S512x11008_S512x512_1_1_0_0_n_n.lhsIdx_val_of_single rfl i q
private theorem drhs0 (i : Cert.KernelIdeal.S512x512.Idx) (q : Cert.KernelIdeal.dot_S512x11008_S512x11008_S512x512_1_1_0_0_n_n.contr.Idx) :
    (Cert.KernelIdeal.dot_S512x11008_S512x11008_S512x512_1_1_0_0_n_n.rhsIdx i q 0).val = (i 1).val := by
  unfold DotDims.rhsIdx
  rw [dif_neg (show ¬(0 : Fin Cert.KernelIdeal.S512x11008.rank) ∈ Cert.KernelIdeal.dot_S512x11008_S512x11008_S512x512_1_1_0_0_n_n.rhsBatch by decide),
    dif_pos (show (0 : Fin Cert.KernelIdeal.S512x11008.rank) ∈ Cert.KernelIdeal.dot_S512x11008_S512x11008_S512x512_1_1_0_0_n_n.rhsNonContracting by decide)]
  rfl
private theorem drhs1 (i : Cert.KernelIdeal.S512x512.Idx) (q : Cert.KernelIdeal.dot_S512x11008_S512x11008_S512x512_1_1_0_0_n_n.contr.Idx) :
    (Cert.KernelIdeal.dot_S512x11008_S512x11008_S512x512_1_1_0_0_n_n.rhsIdx i q 1).val = (q ⟨0, by decide⟩).val :=
  Cert.KernelIdeal.dot_S512x11008_S512x11008_S512x512_1_1_0_0_n_n.rhsIdx_val_of_single rfl i q

/-- The down projection's block: one matrix product into a zero accumulator, contracting the
    11008 columns of the two row blocks. When the left block's rows are rows (b r, s r) of the
    reference's quantized intermediate and the right block's rows are rows h q of the reference's
    quantized down weights, the block's element (r, q) is the reference's product at
    (b r, s r, h q): both are the same sum of 11008 products. -/
theorem k1pay_eq
    (x0 : (⟨Cert.ReferenceIdeal.S2x2048x4096, .f32⟩ : BufTy).Contents (Elt Ideal))
    (x1 x2 : (⟨Cert.ReferenceIdeal.S11008x4096, .f32⟩ : BufTy).Contents (Elt Ideal))
    (x3 : (⟨Cert.ReferenceIdeal.S4096x11008, .f32⟩ : BufTy).Contents (Elt Ideal))
    (x4 x5 x6 : (⟨Cert.ReferenceIdeal.S1, .f32⟩ : BufTy).Contents (Elt Ideal))
    (INTER WD : Vec Ideal Cert.KernelIdeal.S512x11008 .bf16)
    (b : Fin 512 → Fin 2) (s : Fin 512 → Fin 2048) (h : Fin 512 → Fin 4096)
    (hI : ∀ (r : Fin 512) (o : Fin 11008), INTER (ValueIdx.ix2 r o)
      = Cert.ReferenceIdeal.Read.val_main_v64 (F := Ideal) x0 x1 x2 x4 x5 (ValueIdx.ix3 (b r) (s r) o))
    (hW : ∀ (q : Fin 512) (o : Fin 11008), WD (ValueIdx.ix2 q o)
      = Cert.ReferenceIdeal.Read.val_main_v77 (F := Ideal) x3 x6 (ValueIdx.ix2 (h q) o)) :
    ∀ (r : Fin 512) (q : Fin 512),
      Cert.KernelIdeal.Gen.k1_pay1 (F := Ideal) INTER WD (ValueIdx.ix2 r q)
        = Cert.ReferenceIdeal.Read.val_main_v78 (F := Ideal) x0 x1 x2 x3 x4 x5 x6 (ValueIdx.ix3 (b r) (s r) (h q)) := by
  intro r q
  rw [Cert.ReferenceIdeal.Read.val_main_v78_apply]
  unfold Cert.KernelIdeal.Gen.k1_pay1
  simp only [shapeCast_self, matmul]
  rw [Ideal.matmul_constant_zero_apply,
    ← Equiv.sum_comp (ValueIdx.contrEquiv1 Cert.KernelIdeal.dot_S512x11008_S512x11008_S512x512_1_1_0_0_n_n 11008 rfl rfl).symm]
  refine Finset.sum_congr rfl fun k _ => ?_
  have hk := ValueIdx.contrEquiv1_symm_val Cert.KernelIdeal.dot_S512x11008_S512x11008_S512x512_1_1_0_0_n_n 11008 rfl rfl k
  have el : Cert.KernelIdeal.dot_S512x11008_S512x11008_S512x512_1_1_0_0_n_n.lhsIdx (ValueIdx.ix2 r q)
      ((ValueIdx.contrEquiv1 Cert.KernelIdeal.dot_S512x11008_S512x11008_S512x512_1_1_0_0_n_n 11008 rfl rfl).symm k)
      = ValueIdx.ix2 r k := funext fun a => Fin.ext (by
    match a with
    | ⟨0, _⟩ => exact dlhs0 _ _
    | ⟨1, _⟩ => exact (dlhs1 _ _).trans hk)
  have er : Cert.KernelIdeal.dot_S512x11008_S512x11008_S512x512_1_1_0_0_n_n.rhsIdx (ValueIdx.ix2 r q)
      ((ValueIdx.contrEquiv1 Cert.KernelIdeal.dot_S512x11008_S512x11008_S512x512_1_1_0_0_n_n 11008 rfl rfl).symm k)
      = ValueIdx.ix2 q k := funext fun a => Fin.ext (by
    match a with
    | ⟨0, _⟩ => exact drhs0 _ _
    | ⟨1, _⟩ => exact (drhs1 _ _).trans hk)
  have e1 : Cert.ReferenceIdeal.Read.lidx_main_v78 (ValueIdx.ix3 (b r) (s r) (h q)) k = ValueIdx.ix3 (b r) (s r) k :=
    funext fun a => by match a with | ⟨0, _⟩ => rfl | ⟨1, _⟩ => rfl | ⟨2, _⟩ => rfl
  have e2 : Cert.ReferenceIdeal.Read.ridx_main_v78 (ValueIdx.ix3 (b r) (s r) (h q)) k = ValueIdx.ix2 (h q) k :=
    funext fun a => by match a with | ⟨0, _⟩ => rfl | ⟨1, _⟩ => rfl
  rw [el, er, e1, e2, hI r k, hW q k]

end Cert.Bridge

end
-- ==== Proof.R1Final.lean ====
import proofs.«146200_j26611617366616_1_alg».proof.Proof.R0Final
import proofs.«146200_j26611617366616_1_alg».proof.Proof.R1Body
import proofs.«146200_j26611617366616_1_alg».proof.Proof.BrDown
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # Region 1: the output array as the reference's down projection

Point `t` of the 8 x 8 grid has row-block number `t / 8` and column-block number `t % 8`. Its output block is the
product of rows `512 (t / 8) …` of the quantized intermediate with rows `512 (t % 8) …` of the quantized third weight
matrix; every point writes its block back and the 64 blocks tile the [4096, 4096] array. -/

theorem hz2_fin : (![0, 0] : Fin 2 → Nat) = fun _ => 0 := funext fun a => by fin_cases a <;> rfl

/-- The three printed index maps, decided once over the grid. -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = t.val % 8 :=
  (by decide +kernel : ∀ t : Fin grid1.N, _)

/-- A point's row-block and column-block numbers are below 8. -/
theorem pt_bounds1 (t : Fin cfg1.N) : t.val / 8 < 8 ∧ t.val % 8 < 8 := by
  have h : t.val < 64 := lt_of_lt_of_eq t.isLt (show cfg1.N = 64 from N_1)
  omega

/-- Row `r` of row block `t / 8`. -/
abbrev rowOf1 (t : Fin cfg1.N) (r : Fin 512) : Fin 4096 :=
  ⟨(t.val / 8) * 512 + r.val, by have := (pt_bounds1 t).1; have := r.isLt; omega⟩
/-- Column `q` of column block `t % 8`. -/
abbrev colOf1 (t : Fin cfg1.N) (q : Fin 512) : Fin 4096 :=
  ⟨(t.val % 8) * 512 + q.val, by have := (pt_bounds1 t).2; have := q.isLt; omega⟩

section
variable {F : FTy → Type} [FloatOps F]
variable (V : (c : Dev nD) → (b : Ref sig .tc) → Buf (Elt F) ((c : Thread nD τ).loc b))

/-- Row `r` of the block of the intermediate at point `t` is row `512 (t / 8) + r` of the array. -/
theorem iblk1_0_apply (c : Dev nD) (t : Fin cfg1.N) (r : Fin 512) (o : Fin 11008) :
    (iblk1 V c 0 t : Vec F S512x11008 .bf16) (ix2 r o) = (V c main_v44 : S4096x11008.Idx → Elt F .bf16) (ix2 (rowOf1 t r) o) := by
  obtain ⟨e0, e1, -⟩ := idx_facts1 t
  unfold iblk1
  rw [View.read_apply]
  show V c main_v44 _ = V c main_v44 _
  congr 1
  funext a
  apply Fin.ext
  match a with
  | ⟨0, _⟩ => show win1_0.index t 0 * 512 + 1 * r.val = (t.val / 8) * 512 + r.val; rw [e0]; omega
  | ⟨1, _⟩ => show win1_0.index t 1 * 11008 + 1 * o.val = o.val; rw [e1]; omega

/-- Row `q` of the block of the third weight matrix at point `t` is row `512 (t % 8) + q` of the matrix. -/
theorem iblk1_1_apply (c : Dev nD) (t : Fin cfg1.N) (q : Fin 512) (o : Fin 11008) :
    (iblk1 V c 1 t : Vec F S512x11008 .bf16) (ix2 q o) = (V c main_v41 : S4096x11008.Idx → Elt F .bf16) (ix2 (colOf1 t q) o) := by
  obtain ⟨-, -, e0, e1, -⟩ := idx_facts1 t
  unfold iblk1
  rw [View.read_apply]
  show V c main_v41 _ = V c main_v41 _
  congr 1
  funext a
  apply Fin.ext
  match a with
  | ⟨0, _⟩ => show win1_1.index t 0 * 512 + 1 * q.val = (t.val % 8) * 512 + q.val; rw [e0]; omega
  | ⟨1, _⟩ => show win1_1.index t 1 * 11008 + 1 * o.val = o.val; rw [e1]; omega

end

section
variable (V : (c : Dev nD) → (b : Ref sig .tc) → Buf (Elt Ideal) ((c : Thread nD τ).loc b))
variable (x0 : (⟨Cert.ReferenceIdeal.S2x2048x4096, .f32⟩ : BufTy).Contents (Elt Ideal))
  (x1 x2 : (⟨Cert.ReferenceIdeal.S11008x4096, .f32⟩ : BufTy).Contents (Elt Ideal))
  (x3 : (⟨Cert.ReferenceIdeal.S4096x11008, .f32⟩ : BufTy).Contents (Elt Ideal))
  (x4 x5 x6 : (⟨Cert.ReferenceIdeal.S1, .f32⟩ : BufTy).Contents (Elt Ideal))

/-- The reference's down projection read at a row of the flat [4096, 4096] array. -/
def G5 : S4096x4096.Idx → Elt Ideal .f32 :=
  fun y => Cert.ReferenceIdeal.Read.val_main_v78 (F := Ideal) x0 x1 x2 x3 x4 x5 x6 (ix3 (rowHi (y 0)) (rowLo (y 0)) (y 1))

/-- The output block at point `t`: the reference's down projection at rows `512 (t / 8) …`, columns `512 (t % 8) …`. -/
theorem out1_apply (c : Dev nD)
    (hV44 : (V c main_v44 : S4096x11008.Idx → Elt Ideal .bf16) = G3 x0 x1 x2 x4 x5)
    (hV41 : ∀ (h : Fin 4096) (o : Fin 11008), (V c main_v41 : S4096x11008.Idx → Elt Ideal .bf16) (ix2 h o) = Cert.ReferenceIdeal.Read.val_main_v77 (F := Ideal) x3 x6 (ix2 h o))
    (t : Fin cfg1.N) (r q : Fin 512) :
    out1_2 (iblk1 V c 0 t) (iblk1 V c 1 t) (ix2 r q)
      = Cert.ReferenceIdeal.Read.val_main_v78 (F := Ideal) x0 x1 x2 x3 x4 x5 x6 (ix3 (rowHi (rowOf1 t r)) (rowLo (rowOf1 t r)) (colOf1 t q)) := by
  unfold out1_2
  rw [View.canon_unit_zero hz2_fin]
  simp only [View.ld_unit_zero (S := S512x11008) hz2_fin]
  refine Cert.Bridge.k1pay_eq x0 x1 x2 x3 x4 x5 x6 _ _ (fun r => rowHi (rowOf1 t r)) (fun r => rowLo (rowOf1 t r)) (colOf1 t)
    (fun r o => ?_) (fun q o => ?_) r q
  · rw [iblk1_0_apply, hV44]
    rfl
  · rw [iblk1_1_apply, hV41]

/-- What a point writes back is its block of the reference's array. -/
theorem flushed1_eq (c : Dev nD)
    (hV44 : (V c main_v44 : S4096x11008.Idx → Elt Ideal .bf16) = G3 x0 x1 x2 x4 x5)
    (hV41 : ∀ (h : Fin 4096) (o : Fin 11008), (V c main_v41 : S4096x11008.Idx → Elt Ideal .bf16) (ix2 h o) = Cert.ReferenceIdeal.Read.val_main_v77 (F := Ideal) x3 x6 (ix2 h o))
    (t : Fin cfg1.N) :
    (dat1 V c).flushed 2 t = ((cfg1.win 2).blk t).view.read (Elt Ideal) (G5 x0 x1 x2 x3 x4 x5 x6) := by
  show (cfg1.win 2).cut (grid1.coords t) ((dat1 V c).after 2 t) = _
  rw [after1_2]
  funext j
  obtain ⟨r, q, rfl⟩ : ∃ (r : Fin 512) (q : Fin 512), j = ix2 r q := ⟨j 0, j 1, eq_ix2 j⟩
  show out1_2 (iblk1 V c 0 t) (iblk1 V c 1 t) (ix2 r q) = G5 x0 x1 x2 x3 x4 x5 x6 (((cfg1.win 2).blk t).view.emb (ix2 r q))
  rw [out1_apply V x0 x1 x2 x3 x4 x5 x6 c hV44 hV41 t r q]
  obtain ⟨-, -, -, -, e0, e1⟩ := idx_facts1 t
  have h0 : ((((cfg1.win 2).blk t).view.emb (ix2 r q)) 0 : Fin 4096) = rowOf1 t r :=
    Fin.ext (by show win1_2.index t 0 * 512 + 1 * r.val = t.val / 8 * 512 + r.val; rw [e0]; omega)
  have h1 : ((((cfg1.win 2).blk t).view.emb (ix2 r q)) 1 : Fin 4096) = colOf1 t q :=
    Fin.ext (by show win1_2.index t 1 * 512 + 1 * q.val = t.val % 8 * 512 + q.val; rw [e1]; omega)
  unfold G5
  rw [h0, h1]

/-- An index of the array is in point `t`'s block iff each coordinate is in the block's range on its axis. -/
theorem mem_blk1 (t : Fin cfg1.N) (i : S4096x4096.Idx) :
    i ∈ ((cfg1.win 2).blk t).view.set ↔ ∀ a : Fin 2, win1_2.index t a * S512x512.size a ≤ (i a).val ∧ (i a).val < win1_2.index t a * S512x512.size a + S512x512.size a := by
  show i ∈ ((View.whole main_v45).slice (win1_2.rect t)).set ↔ _
  rw [View.set_slice_whole, Rect.mem_set_unit]
  exact Iff.rfl

/-- Every index of the array is in the block of the point of its row block and column block. -/
theorem cover1 (i : S4096x4096.Idx) : ∃ t : Fin cfg1.N, (cfg1.win 2).flush t = true ∧ i ∈ ((cfg1.win 2).blk t).view.set := by
  have hi0 : (i 0).val < 4096 := (i 0).isLt
  have hi1 : (i 1).val < 4096 := (i 1).isLt
  have hN : cfg1.N = 64 := N_1
  let t : Fin cfg1.N := ⟨8 * ((i 0).val / 512) + (i 1).val / 512, lt_of_lt_of_eq (by omega : 8 * ((i 0).val / 512) + (i 1).val / 512 < 64) hN.symm⟩
  have htv : t.val = 8 * ((i 0).val / 512) + (i 1).val / 512 := rfl
  refine ⟨t, flush1_2 t, ?_⟩
  rw [mem_blk1]
  obtain ⟨-, -, -, -, e0, e1⟩ := idx_facts1 t
  intro a
  match a with
  | ⟨0, _⟩ => show win1_2.index t 0 * 512 ≤ (i 0).val ∧ (i 0).val < win1_2.index t 0 * 512 + 512; rw [e0, htv]; omega
  | ⟨1, _⟩ => show win1_2.index t 1 * 512 ≤ (i 1).val ∧ (i 1).val < win1_2.index t 1 * 512 + 512; rw [e1, htv]; omega

/-- THE OUTPUT ARRAY after the region: the reference's down projection, row by row. -/
theorem final1 (c : Dev nD)
    (hV44 : (V c main_v44 : S4096x11008.Idx → Elt Ideal .bf16) = G3 x0 x1 x2 x4 x5)
    (hV41 : ∀ (h : Fin 4096) (o : Fin 11008), (V c main_v41 : S4096x11008.Idx → Elt Ideal .bf16) (ix2 h o) = Cert.ReferenceIdeal.Read.val_main_v77 (F := Ideal) x3 x6 (ix2 h o)) :
    (dat1 V c).arrAt 2 cfg1.N = G5 x0 x1 x2 x3 x4 x5 x6 :=
  (dat1 V c).arrAt_eq_of_cover 2 (G5 x0 x1 x2 x3 x4 x5 x6) (fun t _ => flushed1_eq V x0 x1 x2 x3 x4 x5 x6 c hV44 hV41 t) cover1

end

end Cert.KernelIdeal.Hand

end
-- ==== Proof.KernelValue.lean ====
/-
  The value the program returns, as the reference's result.

  The program runs thirteen stretches of host operations, the first kernel (quantize the activations, the gated
  product, quantize its rows), the second kernel (the product with the down weights) and a last reshape. This module
  glues the pieces at the ideal values: the contents the first kernel is entered from are the host stretches' fold of
  the launch memory, so its three operands are the reference's quantized weights and the activations' rows; the second
  kernel's other operand is untouched by the first; and the reshape `[4096, 4096] → [2, 2048, 4096]` reads row
  `2048 a + b` at `(a, b)`, which undoes the rows' flattening. What each kernel leaves in its output array, as a function
  of what it finds in its operands, enters as the two kernels' value theorems.
-/
import proofs.«146200_j26611617366616_1_alg».proof.Proof.RunAll
import proofs.«146200_j26611617366616_1_alg».proof.Proof.KHostRead
import proofs.«146200_j26611617366616_1_alg».proof.Proof.BrWeights
import proofs.«146200_j26611617366616_1_alg».proof.Proof.R1Final

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Row `R` of a `[4096, …]` array is row `(R / 2048, R % 2048)` of the `[2, 2048, …]` array with the same row-major order. -/
abbrev hiRow (R : Fin 4096) : Fin 2 := ⟨R.val / 2048, by have := R.isLt; omega⟩
@[inherit_doc hiRow]
abbrev loRow (R : Fin 4096) : Fin 2048 := ⟨R.val % 2048, Nat.mod_lt _ (by decide)⟩

section
variable (m : (ℓ : Loc nD τ sig) → Buf (Elt Ideal) ℓ) (ρ : Dev nD → PrngReg)

/-! ## The contents at the first kernel's entry are the thirteen host stretches' fold of the launch memory -/

theorem entry0_eq (c : Dev nD) : W0 m ρ c = Gen.V0 m c := rfl
theorem entry1_eq (c : Dev nD) : W1 m ρ c = Gen.V1 m c := congrArg (StableHlo.after hostOps0) (entry0_eq m ρ c)
theorem entry2_eq (c : Dev nD) : W2 m ρ c = Gen.V2 m c := congrArg (StableHlo.after hostOps0_1) (entry1_eq m ρ c)
theorem entry3_eq (c : Dev nD) : W3 m ρ c = Gen.V3 m c := congrArg (StableHlo.after hostOps0_2) (entry2_eq m ρ c)
theorem entry4_eq (c : Dev nD) : W4 m ρ c = Gen.V4 m c := congrArg (StableHlo.after hostOps0_3) (entry3_eq m ρ c)
theorem entry5_eq (c : Dev nD) : W5 m ρ c = Gen.V5 m c := congrArg (StableHlo.after hostOps0_4) (entry4_eq m ρ c)
theorem entry6_eq (c : Dev nD) : W6 m ρ c = Gen.V6 m c := congrArg (StableHlo.after hostOps0_5) (entry5_eq m ρ c)
theorem entry7_eq (c : Dev nD) : W7 m ρ c = Gen.V7 m c := congrArg (StableHlo.after hostOps0_6) (entry6_eq m ρ c)
theorem entry8_eq (c : Dev nD) : W8 m ρ c = Gen.V8 m c := congrArg (StableHlo.after hostOps0_7) (entry7_eq m ρ c)
theorem entry9_eq (c : Dev nD) : W9 m ρ c = Gen.V9 m c := congrArg (StableHlo.after hostOps0_8) (entry8_eq m ρ c)
theorem entry10_eq (c : Dev nD) : W10 m ρ c = Gen.V10 m c := congrArg (StableHlo.after hostOps0_9) (entry9_eq m ρ c)
theorem entry11_eq (c : Dev nD) : W11 m ρ c = Gen.V11 m c := congrArg (StableHlo.after hostOps0_10) (entry10_eq m ρ c)
theorem entry12_eq (c : Dev nD) : W12 m ρ c = Gen.V12 m c := congrArg (StableHlo.after hostOps0_11) (entry11_eq m ρ c)
theorem entry13_eq (c : Dev nD) : W13 m ρ c = Gen.V13 m c := congrArg (StableHlo.after hostOps0_12) (entry12_eq m ρ c)

/-- Read at a TensorCore reference. -/
theorem entry_eq (c : Dev nD) (r : Ref sig .tc) : V13 m ρ c r = Gen.V13 m c r :=
  congrFun (entry13_eq m ρ c) (Proc.devRef .tc r)

/-! ## The kernels' operands at entry, as the reference's values -/

/-- The activations' operand: row `R` is row `(R / 2048, R % 2048)` of the argument. -/
theorem entry_v43 (c : Dev nD) (R : Fin 4096) (k : Fin 4096) :
    (V13 m ρ c main_v43 : S4096x4096.Idx → Elt Ideal .bf16) (ix2 R k)
      = (m ((c : Thread nD τ).loc main_arg0) : S2x2048x4096.Idx → Elt Ideal .f32)
          (ix3 (⟨R.val / 2048, by omega⟩ : Fin 2) (⟨R.val % 2048, Nat.mod_lt _ (by decide)⟩ : Fin 2048) k) :=
  (congrFun ((entry_eq m ρ c main_v43).trans (read_v43 m c)) (ix2 R k)).trans (Cert.Bridge.kx_eq _ R k)

/-- The gate weights' operand is the reference's quantized gate weights. -/
theorem entry_v13 (c : Dev nD) (o : Fin 11008) (k : Fin 4096) :
    (V13 m ρ c main_v13 : S11008x4096.Idx → Elt Ideal .bf16) (ix2 o k)
      = Cert.ReferenceIdeal.Read.val_main_v31 (F := Ideal) (m ((c : Thread nD τ).loc main_arg1)) (m ((c : Thread nD τ).loc main_arg4)) (ix2 o k) :=
  (congrFun ((entry_eq m ρ c main_v13).trans (read_v13 m c)) (ix2 o k)).trans (Cert.Bridge.kwg_eq _ _ (ix2 o k))

/-- The up weights' operand is the reference's quantized up weights. -/
theorem entry_v27 (c : Dev nD) (o : Fin 11008) (k : Fin 4096) :
    (V13 m ρ c main_v27 : S11008x4096.Idx → Elt Ideal .bf16) (ix2 o k)
      = Cert.ReferenceIdeal.Read.val_main_v45 (F := Ideal) (m ((c : Thread nD τ).loc main_arg2)) (m ((c : Thread nD τ).loc main_arg5)) (ix2 o k) :=
  (congrFun ((entry_eq m ρ c main_v27).trans (read_v27 m c)) (ix2 o k)).trans (Cert.Bridge.kwu_eq _ _ (ix2 o k))

/-- The down weights' operand, which the first kernel leaves as it was, is the reference's quantized down weights. -/
theorem entry_v41 (c : Dev nD) (h : Fin 4096) (o : Fin 11008) :
    (V14 m ρ c main_v41 : S4096x11008.Idx → Elt Ideal .bf16) (ix2 h o)
      = Cert.ReferenceIdeal.Read.val_main_v77 (F := Ideal) (m ((c : Thread nD τ).loc main_arg3)) (m ((c : Thread nD τ).loc main_arg6)) (ix2 h o) :=
  (congrFun ((W14_v41 m ρ c).trans ((entry_eq m ρ c main_v41).trans (read_v41 m c))) (ix2 h o)).trans (Cert.Bridge.kwd_eq _ _ (ix2 h o))

end

/-! ## The returned array: the second kernel's output rows, regrouped -/

/-- A `[4096, 4096]` array whose row `R` is row `(R / 2048, R % 2048)` of a `[2, 2048, 4096]` array `G`, recast to
    `[2, 2048, 4096]`, is `G`: entry `(a, b, k)` has the row-major position of entry `(2048 a + b, k)`. -/
theorem regroup_rows (A : S4096x4096.Idx → EReal) (G : S2x2048x4096.Idx → EReal)
    (hA : ∀ (R : Fin 4096) (k : Fin 4096), A (ix2 R k)
      = G (ix3 (hiRow R) (loRow R) k))
    (i : S2x2048x4096.Idx) : shapeCast S2x2048x4096 A shapeCasts_S4096x4096_S2x2048x4096 i = G i := by
  obtain ⟨a, b, k, rfl⟩ : ∃ (a : Fin 2) (b : Fin 2048) (k : Fin 4096), i = ix3 a b k := ⟨i 0, i 1, i 2, eq_ix3 i⟩
  have hR : a.val * 2048 + b.val < 4096 := by have := a.isLt; have := b.isLt; omega
  refine (shapeCast_apply A shapeCasts_S4096x4096_S2x2048x4096 (ix3 a b k) (ix2 (⟨a.val * 2048 + b.val, hR⟩ : Fin 4096) k) ?_).trans ?_
  · rw [Shape.rowMajor_val_two, Shape.rowMajor_val_three]
    rfl
  · rw [hA]
    refine congrArg G (funext fun d => ?_)
    match d with
    | ⟨0, _⟩ => exact Fin.ext (by show (a.val * 2048 + b.val) / 2048 = a.val; have := b.isLt; omega)
    | ⟨1, _⟩ => exact Fin.ext (by show (a.val * 2048 + b.val) % 2048 = b.val; have := b.isLt; omega)
    | ⟨2, _⟩ => rfl

section
variable (m : (ℓ : Loc nD τ sig) → Buf (Elt Ideal) ℓ) (ρ : Dev nD → PrngReg)

/-- THE RETURNED ARRAY IS THE REFERENCE'S, given what each kernel leaves in its output array as a function of what
    it finds in its operands (`hR0`, `hR1`: the two kernels' value theorems). -/
theorem out_eq_of
    (hR0 : ∀ (V : (c : Dev nD) → (b : Ref sig .tc) → Buf (Elt Ideal) ((c : Thread nD τ).loc b))
      (x0 : (⟨Cert.ReferenceIdeal.S2x2048x4096, .f32⟩ : BufTy).Contents (Elt Ideal))
      (x1 x2 : (⟨Cert.ReferenceIdeal.S11008x4096, .f32⟩ : BufTy).Contents (Elt Ideal))
      (x4 x5 : (⟨Cert.ReferenceIdeal.S1, .f32⟩ : BufTy).Contents (Elt Ideal)) (c : Dev nD),
      (∀ (R : Fin 4096) (k : Fin 4096), (V c main_v43 : S4096x4096.Idx → Elt Ideal .bf16) (ix2 R k)
        = x0 (ix3 (hiRow R) (loRow R) k)) →
      (∀ (o : Fin 11008) (k : Fin 4096), (V c main_v13 : S11008x4096.Idx → Elt Ideal .bf16) (ix2 o k)
        = Cert.ReferenceIdeal.Read.val_main_v31 (F := Ideal) x1 x4 (ix2 o k)) →
      (∀ (o : Fin 11008) (k : Fin 4096), (V c main_v27 : S11008x4096.Idx → Elt Ideal .bf16) (ix2 o k)
        = Cert.ReferenceIdeal.Read.val_main_v45 (F := Ideal) x2 x5 (ix2 o k)) →
      (dat0 V c).arrAt 3 cfg0.N = fun y : S4096x11008.Idx => Cert.ReferenceIdeal.Read.val_main_v64 (F := Ideal) x0 x1 x2 x4 x5
        (ix3 (hiRow (y 0)) (loRow (y 0)) (y 1)))
    (hR1 : ∀ (V : (c : Dev nD) → (b : Ref sig .tc) → Buf (Elt Ideal) ((c : Thread nD τ).loc b))
      (x0 : (⟨Cert.ReferenceIdeal.S2x2048x4096, .f32⟩ : BufTy).Contents (Elt Ideal))
      (x1 x2 : (⟨Cert.ReferenceIdeal.S11008x4096, .f32⟩ : BufTy).Contents (Elt Ideal))
      (x3 : (⟨Cert.ReferenceIdeal.S4096x11008, .f32⟩ : BufTy).Contents (Elt Ideal))
      (x4 x5 x6 : (⟨Cert.ReferenceIdeal.S1, .f32⟩ : BufTy).Contents (Elt Ideal)) (c : Dev nD),
      ((V c main_v44 : S4096x11008.Idx → Elt Ideal .bf16) = fun y : S4096x11008.Idx => Cert.ReferenceIdeal.Read.val_main_v64 (F := Ideal) x0 x1 x2 x4 x5
        (ix3 (hiRow (y 0)) (loRow (y 0)) (y 1))) →
      (∀ (h : Fin 4096) (o : Fin 11008), (V c main_v41 : S4096x11008.Idx → Elt Ideal .bf16) (ix2 h o)
        = Cert.ReferenceIdeal.Read.val_main_v77 (F := Ideal) x3 x6 (ix2 h o)) →
      (dat1 V c).arrAt 2 cfg1.N = fun y : S4096x4096.Idx => Cert.ReferenceIdeal.Read.val_main_v78 (F := Ideal) x0 x1 x2 x3 x4 x5 x6
        (ix3 (hiRow (y 0)) (loRow (y 0)) (y 1)))
    (c : Dev nD) :
    W16 m ρ c (Proc.devRef .tc main_v46)
      = Cert.ReferenceIdeal.Read.val_main_v78 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  have h0 := hR0 (V13 m ρ) (m ((c : Thread nD τ).loc main_arg0)) (m ((c : Thread nD τ).loc main_arg1))
    (m ((c : Thread nD τ).loc main_arg2)) (m ((c : Thread nD τ).loc main_arg4)) (m ((c : Thread nD τ).loc main_arg5)) c
    (entry_v43 m ρ c) (entry_v13 m ρ c) (entry_v27 m ρ c)
  have h1 := hR1 (V14 m ρ) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) c
    ((W14_v44 m ρ c).trans h0) (entry_v41 m ρ c)
  rw [W16_out]
  funext i
  exact regroup_rows _ _ (fun R k => congrFun h1 (ix2 R k)) i

end

section
variable (m : (ℓ : Loc nD τ sig) → Buf (Elt Ideal) ℓ) (ρ : Dev nD → PrngReg)

/-- THE RETURNED ARRAY IS THE REFERENCE'S RESULT of the seven arguments as launched. -/
theorem out_eq (c : Dev nD) :
    W16 m ρ c (Proc.devRef .tc main_v46)
      = Cert.ReferenceIdeal.Read.val_main_v78 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) :=
  out_eq_of m ρ
    (fun V x0 x1 x2 x4 x5 c h43 h13 h27 => final3 V x0 x1 x2 x4 x5 c h43 h13 h27)
    (fun V x0 x1 x2 x3 x4 x5 x6 c h44 h41 => final1 V x0 x1 x2 x3 x4 x5 x6 c h44 h41) c

end

end Cert.KernelIdeal.Hand

end
-- ==== Proof.Claims.lean ====
/-
  The five claims of the certificate, each from the module that proves its substance.

  The program (word-level and idealized alike) is a three-matrix gated layer on ternary-quantized weights: the
  first pallas_call quantizes each block of 512 input rows to four-bit integers, multiplies them by the 256-row
  slices of the two quantized weight matrices, gates (the square of the positive part of one product times the
  other) and quantizes the 11008 gated columns row-wise to eight-bit integers; the second multiplies those rows by
  the third quantized matrix. The run of the program as a chain of host stretches and the two pallas_calls gives,
  for any float values, termination, the argument arrays unchanged, and the returned array as a function of the
  launch memory. The reference's value is its operations read one by one; at the extended reals the two are the same
  function of the arguments, index by index (every format change is the identity there and both sides apply the
  same operations to the same elements), which is the one fact the equivalence claim takes.
-/
import proofs.«146200_j26611617366616_1_alg».proof.Defs
import proofs.«146200_j26611617366616_1_alg».proof.Proof.RunOut
import proofs.«146200_j26611617366616_1_alg».proof.Proof.BitsRunAll
import proofs.«146200_j26611617366616_1_alg».proof.Proof.Gen.ReferenceIdeal.Read
import proofs.«146200_j26611617366616_1_alg».proof.Proof.Gen.Pre_finite_inputs
import proofs.«146200_j26611617366616_1_alg».proof.Proof.KernelValue

noncomputable section

open Idealize.ShloMosaic Idealize.ShloMosaic.TcCoe Idealize.SL.Sem

namespace Cert.Proof.Claims

/-- The word-level program runs and leaves its arguments as launched. -/
theorem frame_p : Cert.frame_Kernel := fun m ρ _ => Cert.Kernel.Hand.frame m ρ
/-- The idealized program runs and leaves its arguments as launched. -/
theorem frame_pi : Cert.frame_KernelIdeal := fun m ρ _ => Cert.KernelIdeal.Hand.frame m ρ
/-- The reference runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- No operation of the program was rewritten for the idealized reading. -/
theorem preserves : Cert.preserves_Kernel_KernelIdeal := trivial

open Cert.KernelIdeal Cert.KernelIdeal.Gen Cert.KernelIdeal.Hand in
/-- At the extended reals, from memories that agree on the arguments, both programs run and return the same array:
    the program's returned array is the reference's value function of the arguments. -/
theorem algebraic : Cert.algebraic_KernelIdeal_ReferenceIdeal := by
  intro m ρ m' ρ' _ hagree
  refine ⟨fun c => W16 m ρ c (Proc.devRef .tc main_v46), run_out m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v78_eq, (hagree c).1, (hagree c).2.1, (hagree c).2.2.1, (hagree c).2.2.2.1,
    (hagree c).2.2.2.2.1, (hagree c).2.2.2.2.2.1, (hagree c).2.2.2.2.2.2]
  exact (out_eq m ρ c).symm

end Cert.Proof.Claims

end
-- ==== Proof.lean ====
/-
  The certificate's claim: the word-level program and its idealized reading run and leave their arguments as
  launched; the reference does too; and at the extended reals, from memories that agree on the arguments, the
  idealized program and the reference return the same array.

  The program is a gated layer on ternary-quantized weights. Its first pallas_call, on each block of 512 input
  rows, quantizes the rows to four-bit integers, multiplies them by each 256-row slice of the two quantized weight
  matrices, keeps the square of the positive part of one product times the other, and quantizes the 11008 gated
  columns of every row to eight-bit integers; its second multiplies those rows by the third quantized matrix; a
  reshape returns the product. The specification is the reference read one operation at a time. No algebraic law
  joins the two sides: at the extended reals every change of format is the identity and both apply the same
  operations to the same elements, so the two values are compared by reading both at an index.
-/
import proofs.«146200_j26611617366616_1_alg».proof.Defs
import proofs.«146200_j26611617366616_1_alg».proof.Proof.Gen.Kernel
import proofs.«146200_j26611617366616_1_alg».proof.Proof.Gen.KernelIdeal
import proofs.«146200_j26611617366616_1_alg».proof.Proof.Gen.ReferenceIdeal
import proofs.«146200_j26611617366616_1_alg».proof.Proof.Gen.Pre_finite_inputs
import proofs.«146200_j26611617366616_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
